-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40x128 .f32) (main_arg9 : FVec F S40 .f32) (main_v33 : IVec S_ 1) : IVec S_ 1 :=
  let main_v34 : FVec F S40x128 .f32 := Host.absf main_arg8
  let main_cst_12 : FVec F S_ .f32 := constant S_ .f32 0x7F800000#32
  let main_v35 : FVec F S40x128 .f32 := broadcastInDim S40x128 ![] bcast_S_S40x128 main_cst_12
  let main_v36 : IVec S40x128 1 := cmpf .olt main_v34 main_v35
  let main_c_13 : IVec S_ 1 := constantI S_ 1 1#1
  let main_v37 : IVec S_ 1 := (fun x v => Host.reduce IntOp.andi x v reducesTo_S40x128_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S3x128 .f32) (main_arg6 : FVec F S128x128 .f32) (main_arg7 : FVec F S128 .f32) (main_arg8 : FVec F S40x128 .f32) (main_arg9 : FVec F S40 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S3x128x128 .f32) (main_arg3 : FVec F S3x128 .f32) (main_arg4 : FVec F S3x128x128 .f32) (main_arg5 : FVec F S3x128 .f32) (main_arg6 : FVec F S128x128 .f32) (main_arg7 : FVec F S128 .f32) (main_arg8 : FVec F S40x128 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S128x40 : Shape := ⟨2, ![128, 40]⟩
abbrev S100000x40 : Shape := ⟨2, ![100000, 40]⟩
abbrev S5000x40 : Shape := ⟨2, ![5000, 40]⟩
abbrev S1x40 : Shape := ⟨2, ![1, 40]⟩

abbrev nBuf : Space → Nat
  | .hbm => 85
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S3x128, .f32⟩
  | .hbm, ⟨6, _⟩ => ⟨S128x128, .f32⟩
  | .hbm, ⟨7, _⟩ => ⟨S128, .f32⟩
  | .hbm, ⟨8, _⟩ => ⟨S40x128, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S3x128x128, .f32⟩
  | .hbm, ⟨15, _⟩ => ⟨S3x128x128, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S1x128x128, .f32⟩
  | .hbm, ⟨30, _⟩ => ⟨S128x128, .f32⟩
  | .hbm, ⟨31, _⟩ => ⟨S1x128, .f32⟩
  | .hbm, ⟨32, _⟩ => ⟨S128, .f32⟩
  | .hbm, ⟨33, _⟩ => ⟨S1x128x128, .f32⟩
  | .hbm, ⟨34, _⟩ => ⟨S128x128, .f32⟩
  | .hbm, ⟨35, _⟩ => ⟨S1x128, .f32⟩
  | .hbm, ⟨36, _⟩ => ⟨S128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S1x128x128, .f32⟩
  | .hbm, ⟨52, _⟩ => ⟨S128x128, .f32⟩
  | .hbm, ⟨53, _⟩ => ⟨S1x128, .f32⟩
  | .hbm, ⟨54, _⟩ => ⟨S128, .f32⟩
  | .hbm, ⟨55, _⟩ => ⟨S1x128x128, .f32⟩
  | .hbm, ⟨56, _⟩ => ⟨S128x128, .f32⟩
  | .hbm, ⟨57, _⟩ => ⟨S1x128, .f32⟩
  | .hbm, ⟨58, _⟩ => ⟨S128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S1x128x128, .f32⟩
  | .hbm, ⟨74, _⟩ => ⟨S128x128, .f32⟩
  | .hbm, ⟨75, _⟩ => ⟨S1x128, .f32⟩
  | .hbm, ⟨76, _⟩ => ⟨S128, .f32⟩
  | .hbm, ⟨77, _⟩ => ⟨S1x128x128, .f32⟩
  | .hbm, ⟨78, _⟩ => ⟨S128x128, .f32⟩
  | .hbm, ⟨79, _⟩ => ⟨S1x128, .f32⟩
  | .hbm, ⟨80, _⟩ => ⟨S128, .f32⟩
  | .hbm, ⟨81, _⟩ => ⟨S100000x128, .f32⟩
  | .hbm, ⟨82, _⟩ => ⟨S128x128, .f32⟩
  | .hbm, ⟨83, _⟩ => ⟨S128x40, .f32⟩
  | .hbm, ⟨84, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S128, .f32⟩
  | .local _ .vmem, ⟨34, _⟩ => ⟨S128x40, .f32⟩
  | .local _ .vmem, ⟨35, _⟩ => ⟨S40, .f32⟩
  | .local _ .vmem, ⟨36, _⟩ => ⟨S5000x40, .f32⟩
  | .local _ .vmem, ⟨37, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_1 : Ref sig .tc := ⟨.hbm, 38, rfl⟩
abbrev main_v25 : Ref sig .tc := ⟨.hbm, 39, rfl⟩
abbrev main_v26 : Ref sig .tc := ⟨.hbm, 40, rfl⟩
abbrev main_c_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_4 : Ref sig .tc := ⟨.hbm, 60, rfl⟩
abbrev main_v44 : Ref sig .tc := ⟨.hbm, 61, rfl⟩
abbrev main_v45 : Ref sig .tc := ⟨.hbm, 62, rfl⟩
abbrev main_c_5 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x40 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S3x128x128_S3x128x128_0_2_1 : S3x128x128.Transposes [0, 2, 1] S3x128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S128x128_S128x128_1_0 : S128x128.Transposes [1, 0] S128x128
  transposes_S40x128_S128x40_1_0 : S40x128.Transposes [1, 0] S128x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x40.size a ≤ S128x40.size a
  hwx3_3 : ∀ i : grid3.Coords, EltTy.bits .f32 = 32 ∨ (Rect.block (s := S128x40) S128x40.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S40.size a ≤ S40.size a
  hwx3_4 : ∀ i : grid3.Coords, EltTy.bits .f32 = 32 ∨ (Rect.block (s := S40) S40.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x40.size a ≤ S100000x40.size a
  hwx3_5 : ∀ i : grid3.Coords, EltTy.bits .f32 = 32 ∨ (Rect.block (s := S100000x40) S5000x40.size (cc3_transform_5 i) (hinb3_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S128x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S5000x40.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S1x128 : Shape := ⟨2, ![1, 128]⟩
abbrev S100000 : Shape := ⟨1, ![100000]⟩
abbrev S100000x1 : Shape := ⟨2, ![100000, 1]⟩
abbrev S128x40 : Shape := ⟨2, ![128, 40]⟩
abbrev S100000x40 : Shape := ⟨2, ![100000, 40]⟩
abbrev S1x40 : Shape := ⟨2, ![1, 40]⟩

abbrev nBuf : Space → Nat
  | .hbm => 174
  | .vmem => 0
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S3x128, .f32⟩
  | 4 => ⟨S3x128x128, .f32⟩
  | 5 => ⟨S3x128, .f32⟩
  | 6 => ⟨S128x128, .f32⟩
  | 7 => ⟨S128, .f32⟩
  | 8 => ⟨S40x128, .f32⟩
  | 9 => ⟨S40, .f32⟩
  | 10 => ⟨S1x1600000, .i32⟩
  | 11 => ⟨S1600000, .i32⟩
  | 12 => ⟨S1x1600000, .i32⟩
  | 13 => ⟨S1600000, .i32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S1x128x128, .f32⟩
  | 28 => ⟨S128x128, .f32⟩
  | 29 => ⟨S128x128, .f32⟩
  | 30 => ⟨S100000x128, .f32⟩
  | 31 => ⟨S1x128, .f32⟩
  | 32 => ⟨S128, .f32⟩
  | 33 => ⟨S1x128, .f32⟩
  | 34 => ⟨S100000x128, .f32⟩
  | 35 => ⟨S100000x128, .f32⟩
  | 36 => ⟨S1x128x128, .f32⟩
  | 37 => ⟨S128x128, .f32⟩
  | 38 => ⟨S128x128, .f32⟩
  | 39 => ⟨S100000x128, .f32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S100000x128, .f32⟩
  | 47 => ⟨S_, .f32⟩
  | 48 => ⟨S100000, .f32⟩
  | 49 => ⟨S100000x1, .f32⟩
  | 50 => ⟨S100000x1, .f32⟩
  | 51 => ⟨S_, .f32⟩
  | 52 => ⟨S100000x1, .f32⟩
  | 53 => ⟨S100000x1, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S1x128x128, .f32⟩
  | 73 => ⟨S128x128, .f32⟩
  | 74 => ⟨S128x128, .f32⟩
  | 75 => ⟨S100000x128, .f32⟩
  | 76 => ⟨S1x128, .f32⟩
  | 77 => ⟨S128, .f32⟩
  | 78 => ⟨S1x128, .f32⟩
  | 79 => ⟨S100000x128, .f32⟩
  | 80 => ⟨S100000x128, .f32⟩
  | 81 => ⟨S1x128x128, .f32⟩
  | 82 => ⟨S128x128, .f32⟩
  | 83 => ⟨S128x128, .f32⟩
  | 84 => ⟨S100000x128, .f32⟩
  | 85 => ⟨S100000x128, .f32⟩
  | 86 => ⟨S1x128, .f32⟩
  | 87 => ⟨S128, .f32⟩
  | 88 => ⟨S1x128, .f32⟩
  | 89 => ⟨S100000x128, .f32⟩
  | 90 => ⟨S100000x128, .f32⟩
  | 91 => ⟨S100000x128, .f32⟩
  | 92 => ⟨S_, .f32⟩
  | 93 => ⟨S100000, .f32⟩
  | 94 => ⟨S100000x1, .f32⟩
  | 95 => ⟨S100000x1, .f32⟩
  | 96 => ⟨S_, .f32⟩
  | 97 => ⟨S100000x1, .f32⟩
  | 98 => ⟨S100000x1, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .f32⟩
  | 113 => ⟨S_, .f32⟩
  | 114 => ⟨S100000x128, .f32⟩
  | 115 => ⟨S1600000x1, .i32⟩
  | 116 => ⟨S100000x128, .f32⟩
  | 117 => ⟨S1x128x128, .f32⟩
  | 118 => ⟨S128x128, .f32⟩
  | 119 => ⟨S128x128, .f32⟩
  | 120 => ⟨S100000x128, .f32⟩
  | 121 => ⟨S1x128, .f32⟩
  | 122 => ⟨S128, .f32⟩
  | 123 => ⟨S1x128, .f32⟩
  | 124 => ⟨S100000x128, .f32⟩
  | 125 => ⟨S100000x128, .f32⟩
  | 126 => ⟨S1x128x128, .f32⟩
  | 127 => ⟨S128x128, .f32⟩
  | _ => ⟨S100000x128, .f32⟩

abbrev hbmTy0_1 (i : Nat) : BufTy := match i % 128 with
  | 0 => ⟨S128x128, .f32⟩
  | 1 => ⟨S100000x128, .f32⟩
  | 2 => ⟨S100000x128, .f32⟩
  | 3 => ⟨S1x128, .f32⟩
  | 4 => ⟨S128, .f32⟩
  | 5 => ⟨S1x128, .f32⟩
  | 6 => ⟨S100000x128, .f32⟩
  | 7 => ⟨S100000x128, .f32⟩
  | 8 => ⟨S100000x128, .f32⟩
  | 9 => ⟨S_, .f32⟩
  | 10 => ⟨S100000, .f32⟩
  | 11 => ⟨S100000x1, .f32⟩
  | 12 => ⟨S100000x1, .f32⟩
  | 13 => ⟨S_, .f32⟩
  | 14 => ⟨S100000x1, .f32⟩
  | 15 => ⟨S100000x1, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S128x128, .f32⟩
  | 22 => ⟨S100000x128, .f32⟩
  | 23 => ⟨S1x128, .f32⟩
  | 24 => ⟨S100000x128, .f32⟩
  | 25 => ⟨S100000x128, .f32⟩
  | 26 => ⟨S128x40, .f32⟩
  | 27 => ⟨S100000x40, .f32⟩
  | 28 => ⟨S1x40, .f32⟩
  | 29 => ⟨S100000x40, .f32⟩
  | 30 => ⟨S100000x40, .f32⟩
  | 31 => ⟨S_, .f32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x40, .f32⟩
  | 38 => ⟨S100000x40, .f32⟩
  | 39 => ⟨S100000x40, .f32⟩
  | 40 => ⟨S_, .f32⟩
  | 41 => ⟨S100000, .f32⟩
  | 42 => ⟨S100000x1, .f32⟩
  | 43 => ⟨S100000x1, .f32⟩
  | 44 => ⟨S100000x40, .f32⟩
  | 45 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_v0 : Ref sig .tc := ⟨.hbm, 46, rfl⟩
abbrev main_call0_cst : Ref sig .tc := ⟨.hbm, 47, rfl⟩
abbrev main_call0_v1 : Ref sig .tc := ⟨.hbm, 48, rfl⟩
abbrev main_call0_v2 : Ref sig .tc := ⟨.hbm, 49, rfl⟩
abbrev main_v33 : Ref sig .tc := ⟨.hbm, 50, rfl⟩
abbrev main_cst_1 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call1_cst : Ref sig .tc := ⟨.hbm, 56, rfl⟩
abbrev main_call1_v0 : Ref sig .tc := ⟨.hbm, 57, rfl⟩
abbrev main_v38 : Ref sig .tc := ⟨.hbm, 58, rfl⟩
abbrev main_c_2 : Ref sig .tc := ⟨.hbm, 59, rfl⟩
abbrev main_v39 : Ref sig .tc := ⟨.hbm, 60, rfl⟩
abbrev main_v40 : Ref sig .tc := ⟨.hbm, 61, rfl⟩
abbrev main_c_3 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_call2_v0 : Ref sig .tc := ⟨.hbm, 91, rfl⟩
abbrev main_call2_cst : Ref sig .tc := ⟨.hbm, 92, rfl⟩
abbrev main_call2_v1 : Ref sig .tc := ⟨.hbm, 93, rfl⟩
abbrev main_call2_v2 : Ref sig .tc := ⟨.hbm, 94, rfl⟩
abbrev main_v68 : Ref sig .tc := ⟨.hbm, 95, rfl⟩
abbrev main_cst_5 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_call3_cst : Ref sig .tc := ⟨.hbm, 101, rfl⟩
abbrev main_call3_v0 : Ref sig .tc := ⟨.hbm, 102, rfl⟩
abbrev main_v73 : Ref sig .tc := ⟨.hbm, 103, rfl⟩
abbrev main_c_6 : Ref sig .tc := ⟨.hbm, 104, rfl⟩
abbrev main_v74 : Ref sig .tc := ⟨.hbm, 105, rfl⟩
abbrev main_v75 : Ref sig .tc := ⟨.hbm, 106, rfl⟩
abbrev main_c_7 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_8 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_call4_v0 : Ref sig .tc := ⟨.hbm, 136, rfl⟩
abbrev main_call4_cst : Ref sig .tc := ⟨.hbm, 137, rfl⟩
abbrev main_call4_v1 : Ref sig .tc := ⟨.hbm, 138, rfl⟩
abbrev main_call4_v2 : Ref sig .tc := ⟨.hbm, 139, rfl⟩
abbrev main_v103 : Ref sig .tc := ⟨.hbm, 140, rfl⟩
abbrev main_cst_9 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_call5_cst : Ref sig .tc := ⟨.hbm, 146, rfl⟩
abbrev main_call5_v0 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_call6_cst : Ref sig .tc := ⟨.hbm, 159, rfl⟩
abbrev main_call6_v0 : Ref sig .tc := ⟨.hbm, 160, rfl⟩
abbrev main_call6_cst_0 : Ref sig .tc := ⟨.hbm, 161, rfl⟩
abbrev main_call6_v1 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_call6_v5 : Ref sig .tc := ⟨.hbm, 166, rfl⟩
abbrev main_call6_v6 : Ref sig .tc := ⟨.hbm, 167, rfl⟩
abbrev main_call6_cst_1 : Ref sig .tc := ⟨.hbm, 168, rfl⟩
abbrev main_call6_v7 : Ref sig .tc := ⟨.hbm, 169, rfl⟩
abbrev main_call6_v8 : Ref sig .tc := ⟨.hbm, 170, rfl⟩
abbrev main_call6_v9 : Ref sig .tc := ⟨.hbm, 171, rfl⟩
abbrev main_call6_v10 : Ref sig .tc := ⟨.hbm, 172, rfl⟩
abbrev main_v119 : Ref sig .tc := ⟨.hbm, 173, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S_S100000 : S_.BroadcastsInDim S100000 (![] : Fin 0 → Fin S100000.rank)
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KRun.lean ====
/-
  The idealized kernel program's run with its result buffer named: every weakly fair execution of @main terminates,
  nothing faulting, with the result array at the contents the last region leaves in it (the fold `W8` of the host
  stretches' operations and the regions' write-backs over the launch memory) and the ten argument arrays as launched.
  The run is the segments' run under the regions' launch theorem; only the reading of the final state differs from
  the frame claim: the result's buffer is read too.
-/
import proofs.«158836_j28750511079531_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read: it ends at `W8`'s contents. -/
theorem run_main : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
    Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.Hand

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibLay3.lean ====
/-
  Readings, at an index given by coordinates, of the layout operations a normalisation over the last axis of a
  rank-three array and a split of a matrix's rows into groups produce; and a row maximum read as a fold.
-/
import Idealize.ShloMosaic.Lib.ValueLayout
import Idealize.ShloMosaic.PureOps.Ideal.Laws
import proofs.«158836_j28750511079531_1_alg».proof.Proof.LibLayout

namespace Cert.GQA.Lay

open Idealize.ShloMosaic Idealize.ShloMosaic.ValueIdx

variable {α : Type}

/-- Rows `0 … c - 1` with `c = a · b` split into `a` groups of `b`: entry `(p, q, k)` is entry `(p · b + q, k)` of the matrix. -/
theorem shapeCast_cd_abd_apply {a b c d : ℕ} (x : (⟨2, ![c, d]⟩ : Shape).Idx → α)
    (h : (⟨2, ![c, d]⟩ : Shape).ShapeCasts ⟨3, ![a, b, d]⟩) (p : Fin a) (q : Fin b) (k : Fin d) (r : Fin c)
    (hr : r.val = p.val * b + q.val) : shapeCast ⟨3, ![a, b, d]⟩ x h (ix3 p q k) = x (ix2 r k) :=
  shapeCast_apply x h _ _ (by
    rw [Shape.rowMajor_val_two, Shape.rowMajor_val_three]
    show r.val * d + k.val = (p.val * b + q.val) * d + k.val
    rw [hr])

/-- A rank-three array cut along its leading axis from `o` reads, at `(j, a, e)`, the source at `(o + j, a, e)`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A matrix given a trailing unit axis: entry `(p, q, u)` is entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A trailing unit axis broadcast: entry `(p, q, k)` of the `[a, b, d]` array is entry `(p, q, 0)` of the `[a, b, 1]` one. -/
theorem broadcastTo_ab1_abd_apply {a b d : ℕ} (v : (⟨3, ![a, b, 1]⟩ : Shape).Idx → α)
    (h : (⟨3, ![a, b, 1]⟩ : Shape).Broadcasts ⟨3, ![a, b, d]⟩) (p : Fin a) (q : Fin b) (k : Fin d) :
    broadcastTo ⟨3, ![a, b, d]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector given two leading unit axes: entry `(u, v, k)` is entry `k`. -/
theorem shapeCast_d_11d_apply {d : ℕ} (x : (⟨1, ![d]⟩ : Shape).Idx → α)
    (h : (⟨1, ![d]⟩ : Shape).ShapeCasts ⟨3, ![1, 1, d]⟩) (u v : Fin 1) (k : Fin d) :
    shapeCast ⟨3, ![1, 1, d]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * d + k.val
    rw [hu, hv]; simp)

/-- Two leading unit axes broadcast: entry `(p, q, k)` of the `[a, b, d]` array is entry `(0, 0, k)` of the `[1, 1, d]` one. -/
theorem broadcastTo_11d_abd_apply {a b d : ℕ} (v : (⟨3, ![1, 1, d]⟩ : Shape).Idx → α)
    (h : (⟨3, ![1, 1, d]⟩ : Shape).Broadcasts ⟨3, ![a, b, d]⟩) (p : Fin a) (q : Fin b) (k : Fin d) :
    broadcastTo ⟨3, ![a, b, d]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if d = 1 then 0 else k.val
    split
    · have := k.isLt; omega
    · rfl

/-- The largest entry of row `p` of an `[a, b]` array of extended reals, taken from the accumulator's value: the fold
    of `max` over the row's entries. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) (fun k => src (ix2 p k)) := by
  refine (Ideal.multiReduction_maximumf_single src acc h hφ hacc (ix1 p)).trans ?_
  exact congrArg (Finset.fold max (Ideal.ofBits .f32 acc) · (Finset.univ : Finset (Fin b)))
    (funext fun k => congrArg src (Cert.Attn.Layout.lift_row h p k))

end Cert.GQA.Lay
-- ==== Proof.LibRowLsm.lean ====
/-
  Row-wise log-softmax in the form shifted by the row maximum, on the extended reals:
  entry (p, q) of an [a, b] array Y goes to  (Y p q - M p) - log (∑ k, exp (Y p k - M p)),  M p the largest entry of row p
  (the fold of max from ⊥ over the row). The vector unit's spelling of it (two lane reductions, their results cast to a
  column and broadcast along the rows) and the host's spelling (two reductions over axis 1, a further max against a
  splat of -∞, two broadcasts each) both read, at an entry, as that expression.
-/
import Idealize.ShloMosaic.Lib.ValueIdx
import Idealize.ShloMosaic.Lib.ValueLayout
import Idealize.ShloMosaic.Lib.Pipeline.Value
import Idealize.ShloMosaic.PureOps.Ideal.Laws
import proofs.«158836_j28750511079531_1_alg».proof.Proof.LibLayout
import proofs.«158836_j28750511079531_1_alg».proof.Proof.LibLay3

noncomputable section

namespace Cert.RowLsm

open Idealize.ShloMosaic Idealize.ShloMosaic.ValueIdx

/-- The largest entry of row `p`, taken from `⊥`. -/
def rowMax {a b : ℕ} (Y : (⟨2, ![a, b]⟩ : Shape).Idx → EReal) (p : Fin a) : EReal :=
  (Finset.univ : Finset (Fin b)).fold max ⊥ (fun k => Y (ix2 p k))

/-- Log-softmax of row `p` at column `q`, shifted by the row's largest entry. -/
def lsm {a b : ℕ} (Y : (⟨2, ![a, b]⟩ : Shape).Idx → EReal) (p : Fin a) (q : Fin b) : EReal :=
  (Y (ix2 p q) - rowMax Y p) - Ideal.log (∑ k : Fin b, Ideal.exp (Y (ix2 p k) - rowMax Y p))

/-- The float pattern of -∞ is `⊥`. -/
theorem ofBits_neg_inf : Ideal.ofBits .f32 0xFF800000#32 = ⊥ := by simp [Ideal.ofBits, Ideal.ieee]

/-- The vector unit's row maximum, cast to a column and broadcast along the rows, is `rowMax` at every entry of the row. -/
theorem vec_rowMax {a b : ℕ} (v : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ)
    (hcast : (⟨1, ![a]⟩ : Shape).ShapeCasts ⟨2, ![a, 1]⟩)
    (hbc : (⟨2, ![a, 1]⟩ : Shape).Broadcasts ⟨2, ![a, b]⟩) (p : Fin a) (c : Fin b) :
    broadcastTo ⟨2, ![a, b]⟩ (shapeCast ⟨2, ![a, 1]⟩
      (multiReduction .maximumf [1] (⟨1, ![a]⟩ : Shape) v 0xFF800000#32 hred hφ hmax) hcast) hbc (ix2 p c) = rowMax v p := by
  rw [Cert.Attn.Layout.broadcastTo_a1_ab_apply, Cert.Attn.Layout.shapeCast_a_a1_apply, Cert.GQA.Lay.rowMax_apply,
    ofBits_neg_inf]
  rfl

/-- THE VECTOR UNIT'S SPELLING at an entry. -/
theorem vec_lsm {a b : ℕ} (v : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ)
    (hadd : (0x00000000#32 : BitVec 32) = FKind.add.neutral .f32 hφ)
    (hcast : (⟨1, ![a]⟩ : Shape).ShapeCasts ⟨2, ![a, 1]⟩)
    (hbc : (⟨2, ![a, 1]⟩ : Shape).Broadcasts ⟨2, ![a, b]⟩) (p : Fin a) (q : Fin b) :
    subf (subf v (broadcastTo ⟨2, ![a, b]⟩ (shapeCast ⟨2, ![a, 1]⟩
        (multiReduction .maximumf [1] (⟨1, ![a]⟩ : Shape) v 0xFF800000#32 hred hφ hmax) hcast) hbc))
      (broadcastTo ⟨2, ![a, b]⟩ (log (shapeCast ⟨2, ![a, 1]⟩
        (multiReduction .add [1] (⟨1, ![a]⟩ : Shape)
          (exp (subf v (broadcastTo ⟨2, ![a, b]⟩ (shapeCast ⟨2, ![a, 1]⟩
            (multiReduction .maximumf [1] (⟨1, ![a]⟩ : Shape) v 0xFF800000#32 hred hφ hmax) hcast) hbc)))
          0x00000000#32 hred hφ hadd) hcast)) hbc) (ix2 p q)
      = lsm v p q := by
  rw [subf_apply, subf_apply, vec_rowMax, Cert.Attn.Layout.broadcastTo_a1_ab_apply]
  show _ - Ideal.log (shapeCast ⟨2, ![a, 1]⟩ _ hcast (ix2 p (0 : Fin 1))) = _
  rw [Cert.Attn.Layout.shapeCast_a_a1_apply, Cert.Attn.Layout.rowSum_apply]
  unfold lsm
  refine congrArg (fun s => (v (ix2 p q) - rowMax v p) - Ideal.log s) (Finset.sum_congr rfl fun k _ => ?_)
  show Ideal.exp (v (ix2 p k) - _) = _
  rw [vec_rowMax]

end Cert.RowLsm

end
-- ==== Proof.NetSpec.lean ====
/-
  The network both programs compute, on the extended reals, as functions of whole arrays.

  One message-passing layer takes node features h and aggregated neighbour features g (arrays of a rows and 128
  columns), two weight matrices already laid out as [input, output] and two bias vectors, and returns, entry by entry,

      max ( P(p, q) / max ( √(Σ_k P(p, k)²), ε ), 0 ),     P(p, q) = ((Σ_k h(p, k)·wl(k, q) + bl(q)) + Σ_k g(p, k)·wr(k, q)) + br(q),

  the sums taken in exactly this association.  The closing stage takes h, two weight matrices and two bias vectors
  and returns the row-wise log-softmax (shifted by the row maximum) of  (h·w1 + b1)·w2 + b2.

  Both are ROW-LOCAL: row p of the result depends on row p of h and g only.  So the result computed on a block of
  rows of the arrays is the same block of rows of the result computed on the whole arrays (`layer_rows`, `post_rows`).
-/
import Idealize.ShloMosaic.Lib.ValueIdx
import Idealize.ShloMosaic.PureOps.Ideal.Laws
import proofs.«158836_j28750511079531_1_alg».proof.Proof.LibRowLsm

noncomputable section

namespace Gnn

open Idealize.ShloMosaic Idealize.ShloMosaic.ValueIdx

/-- The floor under the row norm, the single-precision pattern of 1e-12, as the extended real it denotes. -/
def epsv : EReal := Ideal.ofBits .f32 0x2B8CBCCC#32

/-- A row of `x` against a column of `w`. -/
def dotRow {a K b : ℕ} (x : (⟨2, ![a, K]⟩ : Shape).Idx → EReal) (w : (⟨2, ![K, b]⟩ : Shape).Idx → EReal) (p : Fin a) (q : Fin b) : EReal :=
  ∑ k : Fin K, x (ix2 p k) * w (ix2 k q)

/-- The layer before normalisation, at entry (p, q). -/
def pre {a : ℕ} (h g : (⟨2, ![a, 128]⟩ : Shape).Idx → EReal) (wl wr : (⟨2, ![128, 128]⟩ : Shape).Idx → EReal)
    (bl br : (⟨1, ![128]⟩ : Shape).Idx → EReal) (p : Fin a) (q : Fin 128) : EReal :=
  ((dotRow h wl p q + bl (ix1 q)) + dotRow g wr p q) + br (ix1 q)

/-- One layer at entry (p, q): the row divided by its Euclidean norm (floored at ε), then the positive part. -/
def layerAt {a : ℕ} (h g : (⟨2, ![a, 128]⟩ : Shape).Idx → EReal) (wl wr : (⟨2, ![128, 128]⟩ : Shape).Idx → EReal)
    (bl br : (⟨1, ![128]⟩ : Shape).Idx → EReal) (p : Fin a) (q : Fin 128) : EReal :=
  max (Ideal.div (pre h g wl wr bl br p q)
    (max (Ideal.sqrt (∑ k : Fin 128, pre h g wl wr bl br p k * pre h g wl wr bl br p k)) epsv)) 0

/-- One layer as a whole array. -/
def layer {a : ℕ} (h g : (⟨2, ![a, 128]⟩ : Shape).Idx → EReal) (wl wr : (⟨2, ![128, 128]⟩ : Shape).Idx → EReal)
    (bl br : (⟨1, ![128]⟩ : Shape).Idx → EReal) : (⟨2, ![a, 128]⟩ : Shape).Idx → EReal :=
  fun i => layerAt h g wl wr bl br (i 0) (i 1)

/-- The closing stage's scores before the log-softmax: (h·w1 + b1)·w2 + b2 at entry (p, q). -/
def scores {a : ℕ} (h : (⟨2, ![a, 128]⟩ : Shape).Idx → EReal) (w1 : (⟨2, ![128, 128]⟩ : Shape).Idx → EReal)
    (b1 : (⟨1, ![128]⟩ : Shape).Idx → EReal) (w2 : (⟨2, ![128, 40]⟩ : Shape).Idx → EReal) (b2 : (⟨1, ![40]⟩ : Shape).Idx → EReal) :
    (⟨2, ![a, 40]⟩ : Shape).Idx → EReal :=
  fun j => (∑ k : Fin 128, (dotRow h w1 (j 0) k + b1 (ix1 k)) * w2 (ix2 k (j 1))) + b2 (ix1 (j 1))

/-- The closing stage as a whole array: row-wise log-softmax of the scores. -/
def post {a : ℕ} (h : (⟨2, ![a, 128]⟩ : Shape).Idx → EReal) (w1 : (⟨2, ![128, 128]⟩ : Shape).Idx → EReal)
    (b1 : (⟨1, ![128]⟩ : Shape).Idx → EReal) (w2 : (⟨2, ![128, 40]⟩ : Shape).Idx → EReal) (b2 : (⟨1, ![40]⟩ : Shape).Idx → EReal) :
    (⟨2, ![a, 40]⟩ : Shape).Idx → EReal :=
  fun i => Cert.RowLsm.lsm (scores h w1 b1 w2 b2) (i 0) (i 1)

theorem layer_ix2 {a : ℕ} (h g : (⟨2, ![a, 128]⟩ : Shape).Idx → EReal) (wl wr : (⟨2, ![128, 128]⟩ : Shape).Idx → EReal)
    (bl br : (⟨1, ![128]⟩ : Shape).Idx → EReal) (p : Fin a) (q : Fin 128) :
    layer h g wl wr bl br (ix2 p q) = layerAt h g wl wr bl br p q := rfl

theorem post_ix2 {a : ℕ} (h : (⟨2, ![a, 128]⟩ : Shape).Idx → EReal) (w1 : (⟨2, ![128, 128]⟩ : Shape).Idx → EReal)
    (b1 : (⟨1, ![128]⟩ : Shape).Idx → EReal) (w2 : (⟨2, ![128, 40]⟩ : Shape).Idx → EReal) (b2 : (⟨1, ![40]⟩ : Shape).Idx → EReal)
    (p : Fin a) (q : Fin 40) : post h w1 b1 w2 b2 (ix2 p q) = Cert.RowLsm.lsm (scores h w1 b1 w2 b2) p q := rfl

theorem scores_ix2 {a : ℕ} (h : (⟨2, ![a, 128]⟩ : Shape).Idx → EReal) (w1 : (⟨2, ![128, 128]⟩ : Shape).Idx → EReal)
    (b1 : (⟨1, ![128]⟩ : Shape).Idx → EReal) (w2 : (⟨2, ![128, 40]⟩ : Shape).Idx → EReal) (b2 : (⟨1, ![40]⟩ : Shape).Idx → EReal)
    (p : Fin a) (q : Fin 40) :
    scores h w1 b1 w2 b2 (ix2 p q) = (∑ k : Fin 128, (dotRow h w1 p k + b1 (ix1 k)) * w2 (ix2 k q)) + b2 (ix1 q) := rfl

/-! ## Row locality -/

/-- A row product on a block of rows is the row product on the whole array at the block's row. -/
theorem dotRow_rows {a N K b : ℕ} (x : (⟨2, ![a, K]⟩ : Shape).Idx → EReal) (X : (⟨2, ![N, K]⟩ : Shape).Idx → EReal)
    (w : (⟨2, ![K, b]⟩ : Shape).Idx → EReal) (r : Fin a) (R : Fin N) (hx : ∀ k, x (ix2 r k) = X (ix2 R k)) (q : Fin b) :
    dotRow x w r q = dotRow X w R q :=
  Finset.sum_congr rfl fun k _ => by rw [hx k]

theorem pre_rows {a N : ℕ} (h g : (⟨2, ![a, 128]⟩ : Shape).Idx → EReal) (H G : (⟨2, ![N, 128]⟩ : Shape).Idx → EReal)
    (wl wr : (⟨2, ![128, 128]⟩ : Shape).Idx → EReal) (bl br : (⟨1, ![128]⟩ : Shape).Idx → EReal) (r : Fin a) (R : Fin N)
    (hh : ∀ k, h (ix2 r k) = H (ix2 R k)) (hg : ∀ k, g (ix2 r k) = G (ix2 R k)) (q : Fin 128) :
    pre h g wl wr bl br r q = pre H G wl wr bl br R q := by
  unfold pre
  rw [dotRow_rows h H wl r R hh q, dotRow_rows g G wr r R hg q]

/-- Row r of a layer computed on a block of rows is row R of the layer computed on the whole arrays, when the block's
    row r is the arrays' row R. -/
theorem layerAt_rows {a N : ℕ} (h g : (⟨2, ![a, 128]⟩ : Shape).Idx → EReal) (H G : (⟨2, ![N, 128]⟩ : Shape).Idx → EReal)
    (wl wr : (⟨2, ![128, 128]⟩ : Shape).Idx → EReal) (bl br : (⟨1, ![128]⟩ : Shape).Idx → EReal) (r : Fin a) (R : Fin N)
    (hh : ∀ k, h (ix2 r k) = H (ix2 R k)) (hg : ∀ k, g (ix2 r k) = G (ix2 R k)) (q : Fin 128) :
    layerAt h g wl wr bl br r q = layerAt H G wl wr bl br R q := by
  unfold layerAt
  rw [pre_rows h g H G wl wr bl br r R hh hg q]
  refine congrArg (fun s => max (Ideal.div _ (max (Ideal.sqrt s) epsv)) 0) (Finset.sum_congr rfl fun k _ => ?_)
  rw [pre_rows h g H G wl wr bl br r R hh hg k]

/-- The same for the closing stage. -/
theorem post_rows {a N : ℕ} (h : (⟨2, ![a, 128]⟩ : Shape).Idx → EReal) (H : (⟨2, ![N, 128]⟩ : Shape).Idx → EReal)
    (w1 : (⟨2, ![128, 128]⟩ : Shape).Idx → EReal) (b1 : (⟨1, ![128]⟩ : Shape).Idx → EReal)
    (w2 : (⟨2, ![128, 40]⟩ : Shape).Idx → EReal) (b2 : (⟨1, ![40]⟩ : Shape).Idx → EReal) (r : Fin a) (R : Fin N)
    (hh : ∀ k, h (ix2 r k) = H (ix2 R k)) (q : Fin 40) :
    post h w1 b1 w2 b2 (ix2 r q) = post H w1 b1 w2 b2 (ix2 R q) := by
  have hs : ∀ c : Fin 40, scores h w1 b1 w2 b2 (ix2 r c) = scores H w1 b1 w2 b2 (ix2 R c) := fun c => by
    rw [scores_ix2, scores_ix2]
    refine congrArg (· + b2 (ix1 c)) (Finset.sum_congr rfl fun k _ => ?_)
    rw [dotRow_rows h H w1 r R hh k]
  have hm : Cert.RowLsm.rowMax (scores h w1 b1 w2 b2) r = Cert.RowLsm.rowMax (scores H w1 b1 w2 b2) R := by
    unfold Cert.RowLsm.rowMax
    exact congrArg (Finset.fold max ⊥ · (Finset.univ : Finset (Fin 40))) (funext fun c => hs c)
  rw [post_ix2, post_ix2]
  unfold Cert.RowLsm.lsm
  rw [hs q, hm]
  refine congrArg (fun s => _ - Ideal.log s) (Finset.sum_congr rfl fun k _ => ?_)
  rw [hs k]

end Gnn

end
-- ==== Proof.RefOps.lean ====
/-
  The host's spelling of the network's pieces, as functions of whole arrays: the two rows of the edge list, the
  neighbour sum (a row gather by the source nodes, negative indices wrapped, followed by a row scatter-add into zeros by
  the target nodes), a layer's weight matrix and bias cut out of the stacked arrays, one layer, and the closing stage.
  `net` is the whole network: three layers, each fed the previous one's output and its neighbour sum, then the closing stage.
-/
import proofs.«158836_j28750511079531_1_alg».proof.Proof.Gen.ReferenceIdeal
import proofs.«158836_j28750511079531_1_alg».proof.Proof.NetSpec
import Idealize.ShloMosaic.Lib.Pipeline.Value
import Idealize.ShloMosaic.Lib.ValueIdx
import Idealize.ShloMosaic.PureOps.Ideal.Laws

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Row 0 of the edge list: each edge's source node. -/
def srcOf (e : (⟨S2x1600000, .i32⟩ : BufTy).Contents (Elt F)) : (⟨S1600000, .i32⟩ : BufTy).Contents (Elt F) :=
  shapeCast _ (extractStridedSlice S1x1600000 ![0, 0] (e) slices_S2x1600000_S1x1600000_0_0) shapeCasts_S1x1600000_S1600000

/-- Row 1 of the edge list: each edge's target node. -/
def dstOf (e : (⟨S2x1600000, .i32⟩ : BufTy).Contents (Elt F)) : (⟨S1600000, .i32⟩ : BufTy).Contents (Elt F) :=
  shapeCast _ (extractStridedSlice S1x1600000 ![1, 0] (e) slices_S2x1600000_S1x1600000_1_0) shapeCasts_S1x1600000_S1600000

/-- A negative node index counted from the end: 100000 is added to it. -/
def wrapIdx (s : (⟨S1600000, .i32⟩ : BufTy).Contents (Elt F)) : (⟨S1600000, .i32⟩ : BufTy).Contents (Elt F) :=
  select (cmpi .slt s (broadcastInDim S1600000 ![] bcast_S_S1600000 (constantI S_ 32 0#32)))
    (addi s (broadcastInDim S1600000 ![] bcast_S_S1600000 (constantI S_ 32 100000#32))) s

/-- The neighbour sum: row `n` is the sum of the rows `h[s e]` over the edges `e` with target `d e = n`. -/
def agg (s d : (⟨S1600000, .i32⟩ : BufTy).Contents (Elt F)) (h : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0 (wrapIdx s)))

/-- Layer `o`'s weight matrix out of the stack, transposed to [input, output]. -/
def wSlice (o : ℕ) (hs : S3x128x128.Slices ![o, 0, 0] S1x128x128) (W : (⟨S3x128x128, .f32⟩ : BufTy).Contents (Elt F)) :
    (⟨S128x128, .f32⟩ : BufTy).Contents (Elt F) :=
  transpose S128x128 [1, 0] (shapeCast _ (extractStridedSlice S1x128x128 ![o, 0, 0] (W) hs) shapeCasts_S1x128x128_S128x128) transposes_S128x128_S128x128_1_0

/-- Layer `o`'s bias vector out of the stack. -/
def bSlice (o : ℕ) (hs : S3x128.Slices ![o, 0] S1x128) (B : (⟨S3x128, .f32⟩ : BufTy).Contents (Elt F)) :
    (⟨S128, .f32⟩ : BufTy).Contents (Elt F) :=
  shapeCast _ (extractStridedSlice S1x128 ![o, 0] (B) hs) shapeCasts_S1x128_S128

/-- A bias vector spread over the 100000 rows. -/
def biasRows (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- A layer before normalisation, as the host spells it. -/
def hostPre (h g : (⟨S100000x128, .f32⟩ : BufTy).Contents (Elt F)) (wl wr : (⟨S128x128, .f32⟩ : BufTy).Contents (Elt F))
    (bl br : (⟨S128, .f32⟩ : BufTy).Contents (Elt F)) : (⟨S100000x128, .f32⟩ : BufTy).Contents (Elt F) :=
  addf (addf (addf (Host.dotGeneral dot_S100000x128_S128x128_S100000x128_1_0_0_1_n_n none h wl) (biasRows bl))
    (Host.dotGeneral dot_S100000x128_S128x128_S100000x128_1_0_0_1_n_n none g wr)) (biasRows br)

/-- The row norms, floored, spread over the columns. -/
def hostNorm (y : (⟨S100000x128, .f32⟩ : BufTy).Contents (Elt F)) : (⟨S100000x128, .f32⟩ : BufTy).Contents (Elt F) :=
  broadcastInDim S100000x128 ![0, 1] bcast_S100000x1_S100000x128_0_1
    (maximumf (Host.sqrt (broadcastInDim S100000x1 ![0] bcast_S100000_S100000x1_0
        (Host.reduceAdd (mulf y y) (constant S_ .f32 0x00000000#32) reducesTo_S100000x128_S100000_d1 h_S_)))
      (broadcastInDim S100000x1 ![] bcast_S_S100000x1 (constant S_ .f32 0x2B8CBCCC#32)))

/-- One layer, as the host spells it. -/
def hostLayer (h g : (⟨S100000x128, .f32⟩ : BufTy).Contents (Elt F)) (wl wr : (⟨S128x128, .f32⟩ : BufTy).Contents (Elt F))
    (bl br : (⟨S128, .f32⟩ : BufTy).Contents (Elt F)) : (⟨S100000x128, .f32⟩ : BufTy).Contents (Elt F) :=
  maximumf (Host.divf (hostPre h g wl wr bl br) (hostNorm (hostPre h g wl wr bl br)))
    (broadcastInDim S100000x128 ![] bcast_S_S100000x128 (constant S_ .f32 0x00000000#32))

/-- The closing stage's scores, as the host spells them. -/
def hostScores (h : (⟨S100000x128, .f32⟩ : BufTy).Contents (Elt F)) (w1 : (⟨S128x128, .f32⟩ : BufTy).Contents (Elt F))
    (b1 : (⟨S128, .f32⟩ : BufTy).Contents (Elt F)) (w2 : (⟨S128x40, .f32⟩ : BufTy).Contents (Elt F)) (b2 : (⟨S40, .f32⟩ : BufTy).Contents (Elt F)) :
    (⟨S100000x40, .f32⟩ : BufTy).Contents (Elt F) :=
  addf (Host.dotGeneral dot_S100000x128_S128x40_S100000x40_1_0_0_1_n_n none
      (addf (Host.dotGeneral dot_S100000x128_S128x128_S100000x128_1_0_0_1_n_n none h w1) (biasRows b1)) w2)
    (broadcastInDim S100000x40 ![0, 1] bcast_S1x40_S100000x40_0_1 (broadcastInDim S1x40 ![1] bcast_S40_S1x40_1 b2))

/-- The scores shifted by their row maximum, as the host spells it. -/
def hostShift (y : (⟨S100000x40, .f32⟩ : BufTy).Contents (Elt F)) : (⟨S100000x40, .f32⟩ : BufTy).Contents (Elt F) :=
  subf y (broadcastInDim S100000x40 ![0, 1] bcast_S100000x1_S100000x40_0_1 (broadcastInDim S100000x1 ![0] bcast_S100000_S100000x1_0
    (maximumf (broadcastInDim S100000 ![] bcast_S_S100000 (constant S_ .f32 0xFF800000#32))
      (Host.reduce FloatOps.maximumf y (constant S_ .f32 0xFF800000#32) reducesTo_S100000x40_S100000_d1 h_S_))))

/-- Row-wise log-softmax, as the host spells it. -/
def hostLsm (y : (⟨S100000x40, .f32⟩ : BufTy).Contents (Elt F)) : (⟨S100000x40, .f32⟩ : BufTy).Contents (Elt F) :=
  subf (hostShift y) (broadcastInDim S100000x40 ![0, 1] bcast_S100000x1_S100000x40_0_1 (Host.log
    (broadcastInDim S100000x1 ![0] bcast_S100000_S100000x1_0
      (Host.reduceAdd (Host.exp (hostShift y)) (constant S_ .f32 0x00000000#32) reducesTo_S100000x40_S100000_d1 h_S_))))

/-- The network on the extended reals, as one function of the ten argument arrays. -/
def net (x : (⟨S100000x128, .f32⟩ : BufTy).Contents (Elt Ideal)) (e : (⟨S2x1600000, .i32⟩ : BufTy).Contents (Elt Ideal))
    (Wl : (⟨S3x128x128, .f32⟩ : BufTy).Contents (Elt Ideal)) (bl : (⟨S3x128, .f32⟩ : BufTy).Contents (Elt Ideal))
    (Wr : (⟨S3x128x128, .f32⟩ : BufTy).Contents (Elt Ideal)) (br : (⟨S3x128, .f32⟩ : BufTy).Contents (Elt Ideal))
    (W1 : (⟨S128x128, .f32⟩ : BufTy).Contents (Elt Ideal)) (b1 : (⟨S128, .f32⟩ : BufTy).Contents (Elt Ideal))
    (W2 : (⟨S40x128, .f32⟩ : BufTy).Contents (Elt Ideal)) (b2 : (⟨S40, .f32⟩ : BufTy).Contents (Elt Ideal)) :
    (⟨S100000x40, .f32⟩ : BufTy).Contents (Elt Ideal) :=
  let s := srcOf (F := Ideal) e
  let d := dstOf (F := Ideal) e
  let h1 := Gnn.layer x (agg (F := Ideal) s d x)
    (wSlice (F := Ideal) 0 slices_S3x128x128_S1x128x128_0_0_0 Wl) (wSlice (F := Ideal) 0 slices_S3x128x128_S1x128x128_0_0_0 Wr)
    (bSlice (F := Ideal) 0 slices_S3x128_S1x128_0_0 bl) (bSlice (F := Ideal) 0 slices_S3x128_S1x128_0_0 br)
  let h2 := Gnn.layer h1 (agg (F := Ideal) s d h1)
    (wSlice (F := Ideal) 1 slices_S3x128x128_S1x128x128_1_0_0 Wl) (wSlice (F := Ideal) 1 slices_S3x128x128_S1x128x128_1_0_0 Wr)
    (bSlice (F := Ideal) 1 slices_S3x128_S1x128_1_0 bl) (bSlice (F := Ideal) 1 slices_S3x128_S1x128_1_0 br)
  let h3 := Gnn.layer h2 (agg (F := Ideal) s d h2)
    (wSlice (F := Ideal) 2 slices_S3x128x128_S1x128x128_2_0_0 Wl) (wSlice (F := Ideal) 2 slices_S3x128x128_S1x128x128_2_0_0 Wr)
    (bSlice (F := Ideal) 2 slices_S3x128_S1x128_2_0 bl) (bSlice (F := Ideal) 2 slices_S3x128_S1x128_2_0 br)
  Gnn.post h3 (transpose S128x128 [1, 0] (W1) transposes_S128x128_S128x128_1_0) b1
    (transpose S128x40 [1, 0] (W2) transposes_S40x128_S128x40_1_0) b2

end Cert.ReferenceIdeal.Ops

end
-- ==== Proof.LibStretch.lean ====
/-
  Reading a program's host operations stretch by stretch.  The buffer contents after a list of host operations is a fold
  of the operations over the contents the list is entered with; over two stretches run one after the other it is the
  second stretch's fold over the first's (`after_append`).  So a long host program is read one short stretch at a time,
  each stretch over ANY contents V: which buffers it leaves as they were (`unwritten`), and what it writes into the
  buffers a later stretch reads, as the operations' term of what it finds (`read_stretch`).  Short stretches matter where
  operations carry casts between a buffer's recorded type and its literal type (the operations of an outlined function):
  many of them nested under one comparison are costly, two or three are not.
-/
import Idealize.ShloMosaic.Lib.StableHlo.Run

namespace Cert.Stretch

open Idealize.ShloMosaic Idealize.ShloMosaic.StableHlo

/-- The contents after two stretches run one after the other: the second stretch's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.Stretch

/-- `unwritten ops` closes `after ops V b = V b` for a literal stretch `ops` (named by an identifier that unfolds to the
    list) and a literal buffer `b` none of its operations writes: each operation's written buffer is another reference. -/
macro "unwritten" ops:ident : tactic =>
  `(tactic| exact Idealize.ShloMosaic.StableHlo.after_of_forall_not_mem _ _ (List.forall_iff_forall_mem.mp (by
      simp only [$ops:ident, List.Forall, Idealize.ShloMosaic.StableHlo.nullary_writes, Idealize.ShloMosaic.StableHlo.unary_writes, Idealize.ShloMosaic.StableHlo.binary_writes, Idealize.ShloMosaic.StableHlo.ternary_writes, Idealize.ShloMosaic.StableHlo.quaternary_writes, Idealize.ShloMosaic.StableHlo.reshape_writes, Idealize.ShloMosaic.StableHlo.binaryIndexed_writes, Finset.mem_singleton]
      repeat' apply And.intro
      all_goals exact Idealize.ShloMosaic.StableHlo.devRef_ne_of_ne (by decide))))

/-- `read_stretch` closes `after ops V b = t` for a literal stretch and a buffer it writes, `t` the operations' term over
    `V` at the buffers the stretch reads: every operation's result at its own buffer is its function's value, at any other
    buffer what was there (one pass over the stretch); what is left is the same term on both sides. -/
macro "read_stretch" : tactic =>
  `(tactic| ((open Idealize.ShloMosaic.StableHlo in after_results_simp) <;> rfl))

/-- The same, one rewrite per operation: for a stretch of a few operations. -/
macro "read_stretch_small" : tactic =>
  `(tactic| ((open Idealize.ShloMosaic.StableHlo in after_results) <;> rfl))
-- ==== Proof.Weights.lean ====
/-
  A layer's weight matrix cut out of the stack of three, laid out as [input, output], in the two orders the two
  programs take it: every matrix of the stack transposed first and then matrix o cut out, or matrix o cut out first
  and then transposed.  Either way entry (k, q) is entry (o, q, k) of the stack.
-/
import Idealize.ShloMosaic.Lib.ValueLayout
import proofs.«158836_j28750511079531_1_alg».proof.Proof.LibLay3

namespace Gnn

open Idealize.ShloMosaic Idealize.ShloMosaic.ValueIdx

variable {α : Type}

/-- Transposed in the stack, then cut out: entry (k, q) is the stack's (o, q, k). -/
theorem slice_of_transposed (o : ℕ) (l : Fin 3) (hl : l.val = o) (W : (⟨3, ![3, 128, 128]⟩ : Shape).Idx → α)
    (ht : (⟨3, ![3, 128, 128]⟩ : Shape).Transposes [0, 2, 1] ⟨3, ![3, 128, 128]⟩)
    (hs : (⟨3, ![3, 128, 128]⟩ : Shape).Slices ![o, 0, 0] ⟨3, ![1, 128, 128]⟩)
    (hc : (⟨3, ![1, 128, 128]⟩ : Shape).ShapeCasts ⟨2, ![128, 128]⟩) (k q : Fin 128) :
    shapeCast ⟨2, ![128, 128]⟩ (extractStridedSlice ⟨3, ![1, 128, 128]⟩ ![o, 0, 0]
      (transpose ⟨3, ![3, 128, 128]⟩ [0, 2, 1] W ht) hs) hc (ix2 k q) = W (ix3 l q k) := by
  rw [shapeCast_1ab_ab_apply, Cert.GQA.Lay.slice3_axis0_apply o _ hs (0 : Fin 1) k q l (by rw [hl]; rfl), transpose_ix3_021_apply]

/-- Cut out, then transposed: the same entry. -/
theorem transposed_of_slice (o : ℕ) (l : Fin 3) (hl : l.val = o) (W : (⟨3, ![3, 128, 128]⟩ : Shape).Idx → α)
    (hs : (⟨3, ![3, 128, 128]⟩ : Shape).Slices ![o, 0, 0] ⟨3, ![1, 128, 128]⟩)
    (hc : (⟨3, ![1, 128, 128]⟩ : Shape).ShapeCasts ⟨2, ![128, 128]⟩)
    (ht : (⟨2, ![128, 128]⟩ : Shape).Transposes [1, 0] ⟨2, ![128, 128]⟩) (k q : Fin 128) :
    transpose ⟨2, ![128, 128]⟩ [1, 0] (shapeCast ⟨2, ![128, 128]⟩ (extractStridedSlice ⟨3, ![1, 128, 128]⟩ ![o, 0, 0] W hs) hc) ht (ix2 k q)
      = W (ix3 l q k) := by
  rw [transpose_ix2_apply, shapeCast_1ab_ab_apply, Cert.GQA.Lay.slice3_axis0_apply o _ hs (0 : Fin 1) q k l (by rw [hl]; rfl)]

/-- The two orders give one matrix. -/
theorem weight_orders (o : ℕ) (ho : o < 3) (W : (⟨3, ![3, 128, 128]⟩ : Shape).Idx → α)
    (ht3 : (⟨3, ![3, 128, 128]⟩ : Shape).Transposes [0, 2, 1] ⟨3, ![3, 128, 128]⟩)
    (hs hs' : (⟨3, ![3, 128, 128]⟩ : Shape).Slices ![o, 0, 0] ⟨3, ![1, 128, 128]⟩)
    (hc hc' : (⟨3, ![1, 128, 128]⟩ : Shape).ShapeCasts ⟨2, ![128, 128]⟩)
    (ht2 : (⟨2, ![128, 128]⟩ : Shape).Transposes [1, 0] ⟨2, ![128, 128]⟩) :
    shapeCast ⟨2, ![128, 128]⟩ (extractStridedSlice ⟨3, ![1, 128, 128]⟩ ![o, 0, 0]
      (transpose ⟨3, ![3, 128, 128]⟩ [0, 2, 1] W ht3) hs) hc
    = transpose ⟨2, ![128, 128]⟩ [1, 0] (shapeCast ⟨2, ![128, 128]⟩ (extractStridedSlice ⟨3, ![1, 128, 128]⟩ ![o, 0, 0] W hs') hc') ht2 := by
  funext i
  obtain ⟨k, q, rfl⟩ : ∃ (k q : Fin 128), i = ix2 k q := ⟨i 0, i 1, eq_ix2 i⟩
  rw [slice_of_transposed o ⟨o, ho⟩ rfl W ht3 hs hc k q, transposed_of_slice o ⟨o, ho⟩ rfl W hs' hc' ht2 k q]

end Gnn
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.KBody.lean ====
/-
  What the two kernel bodies store, at the ideal values, as the network's pieces on a block of 5000 rows.

  The layer body loads a block h of node features, a block g of neighbour sums, two [input, output] weight matrices and two
  bias vectors, and stores max(P / max(√(Σ_k P(·,k)²), ε), 0) with P = ((h·wl + bl) + g·wr) + br: the matrix unit's
  products into zero are plain sums over k of products (a change of float format is the identity on the extended reals),
  a bias is spread over the rows, the lane sum of P·P is the sum over the row, its one-column form spread back over the
  columns.  So the stored block is `Gnn.layer` of the loaded blocks (`pay_layer`).  The closing body stores the
  row-wise log-softmax of (h·w1 + b1)·w2 + b2, `Gnn.post` of its loaded blocks (`pay_post`).
-/
import proofs.«158836_j28750511079531_1_alg».proof.Proof.Gen.KernelIdeal.Skeleton
import proofs.«158836_j28750511079531_1_alg».proof.Proof.NetSpec
import proofs.«158836_j28750511079531_1_alg».proof.Proof.LibLayout
import proofs.«158836_j28750511079531_1_alg».proof.Proof.LibMatmulIx
import proofs.«158836_j28750511079531_1_alg».proof.Proof.LibRowLsm
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-! ## The two dimension records contract the left operand's columns with the right operand's rows -/

abbrev D128 := dot_S5000x128_S128x128_S5000x128_1_0_0_1_n_n
abbrev D40 := dot_S5000x128_S128x40_S5000x40_1_0_0_1_n_n

theorem d128_l0 (i : S5000x128.Idx) (q : D128.contr.Idx) : (D128.lhsIdx i q 0).val = (i 0).val := by
  unfold DotDims.lhsIdx
  rw [dif_neg (show ¬(0 : Fin S5000x128.rank) ∈ D128.lhsBatch by decide), dif_pos (show (0 : Fin S5000x128.rank) ∈ D128.lhsNonContracting by decide)]
  rfl
theorem d128_l1 (i : S5000x128.Idx) (q : D128.contr.Idx) : (D128.lhsIdx i q 1).val = (q ⟨0, by decide⟩).val :=
  D128.lhsIdx_val_of_single rfl i q
theorem d128_r0 (i : S5000x128.Idx) (q : D128.contr.Idx) : (D128.rhsIdx i q 0).val = (q ⟨0, by decide⟩).val :=
  D128.rhsIdx_val_of_single rfl i q
theorem d128_r1 (i : S5000x128.Idx) (q : D128.contr.Idx) : (D128.rhsIdx i q 1).val = (i 1).val := by
  unfold DotDims.rhsIdx
  rw [dif_neg (show ¬(1 : Fin S128x128.rank) ∈ D128.rhsBatch by decide), dif_pos (show (1 : Fin S128x128.rank) ∈ D128.rhsNonContracting by decide)]
  rfl

theorem d40_l0 (i : S5000x40.Idx) (q : D40.contr.Idx) : (D40.lhsIdx i q 0).val = (i 0).val := by
  unfold DotDims.lhsIdx
  rw [dif_neg (show ¬(0 : Fin S5000x128.rank) ∈ D40.lhsBatch by decide), dif_pos (show (0 : Fin S5000x128.rank) ∈ D40.lhsNonContracting by decide)]
  rfl
theorem d40_l1 (i : S5000x40.Idx) (q : D40.contr.Idx) : (D40.lhsIdx i q 1).val = (q ⟨0, by decide⟩).val :=
  D40.lhsIdx_val_of_single rfl i q
theorem d40_r0 (i : S5000x40.Idx) (q : D40.contr.Idx) : (D40.rhsIdx i q 0).val = (q ⟨0, by decide⟩).val :=
  D40.rhsIdx_val_of_single rfl i q
theorem d40_r1 (i : S5000x40.Idx) (q : D40.contr.Idx) : (D40.rhsIdx i q 1).val = (i 1).val := by
  unfold DotDims.rhsIdx
  rw [dif_neg (show ¬(1 : Fin S128x40.rank) ∈ D40.rhsBatch by decide), dif_pos (show (1 : Fin S128x40.rank) ∈ D40.rhsNonContracting by decide)]
  rfl

/-- A product of a 5000-row block with a 128×128 matrix into zero, the operands cut to the narrow format: a row against a column. -/
theorem mm128 (x : Vec Ideal S5000x128 .f32) (w : Vec Ideal S128x128 .f32) (p : Fin 5000) (q : Fin 128) :
    matmul D128 none (truncf .bf16 x bitsLt_bf16_f32) (truncf .bf16 w bitsLt_bf16_f32) (constant (F := Ideal) S5000x128 .f32 0x00000000#32) (ix2 p q)
      = Gnn.dotRow x w p q :=
  MatmulIx.matmul_zero_ix2 D128 rfl rfl d128_l0 d128_l1 d128_r0 d128_r1 none _ _ p q

/-- The same with a 128×40 matrix. -/
theorem mm40 (x : FVec Ideal S5000x128 .f32) (w : Vec Ideal S128x40 .f32) (p : Fin 5000) (q : Fin 40) :
    matmul D40 none (truncf .bf16 x bitsLt_bf16_f32) (truncf .bf16 w bitsLt_bf16_f32) (constant (F := Ideal) S5000x40 .f32 0x00000000#32) (ix2 p q)
      = ∑ k : Fin 128, x (ix2 p k) * w (ix2 k q) :=
  MatmulIx.matmul_zero_ix2 D40 rfl rfl d40_l0 d40_l1 d40_r0 d40_r1 none _ _ p q

/-- A bias vector as one row, spread over the rows: at (p, q) the bias at q. -/
theorem bias128 (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

theorem bias40 (b : Vec Ideal S40 .f32) (p : Fin 5000) (q : Fin 40) :
    broadcastTo S5000x40 (shapeCast S1x40 b shapeCasts_S40_S1x40) broadcasts_S1x40_S5000x40 (ix2 p q) = b (ix1 q) := by
  rw [broadcastTo_1b_ab_apply, shapeCast_a_1a_apply]

/-! ## The layer body -/

/-- The layer body's value before normalisation. -/
def preVec (v0 v2 : Vec Ideal S5000x128 .f32) (v5 v8 : Vec Ideal S128x128 .f32) (v11 v13 : Vec Ideal S128 .f32) : FVec Ideal S5000x128 .f32 :=
  addf (addf (addf (matmul D128 none (truncf .bf16 v0 bitsLt_bf16_f32) (truncf .bf16 v5 bitsLt_bf16_f32) (constant S5000x128 .f32 0x00000000#32))
      (broadcastTo S5000x128 (shapeCast S1x128 v11 shapeCasts_S128_S1x128) broadcasts_S1x128_S5000x128))
    (matmul D128 none (truncf .bf16 v2 bitsLt_bf16_f32) (truncf .bf16 v8 bitsLt_bf16_f32) (constant S5000x128 .f32 0x00000000#32)))
    (broadcastTo S5000x128 (shapeCast S1x128 v13 shapeCasts_S128_S1x128) broadcasts_S1x128_S5000x128)

theorem preVec_ix2 (v0 v2 : Vec Ideal S5000x128 .f32) (v5 v8 : Vec Ideal S128x128 .f32) (v11 v13 : Vec Ideal S128 .f32) (p : Fin 5000) (q : Fin 128) :
    preVec v0 v2 v5 v8 v11 v13 (ix2 p q) = Gnn.pre v0 v2 v5 v8 v11 v13 p q := by
  unfold preVec Gnn.pre
  rw [addf_apply, addf_apply, addf_apply, mm128, mm128, bias128, bias128]

/-- The layer body's stored value: the pre-activation divided by its floored row norm, then the positive part. -/
def layerVec (v0 v2 : Vec Ideal S5000x128 .f32) (v5 v8 : Vec Ideal S128x128 .f32) (v11 v13 : Vec Ideal S128 .f32) : FVec Ideal S5000x128 .f32 :=
  maximumf (divf (preVec v0 v2 v5 v8 v11 v13)
    (broadcastTo S5000x128 (maximumf (sqrt (shapeCast S5000x1
        (multiReduction .add [1] S5000 (mulf (preVec v0 v2 v5 v8 v11 v13) (preVec v0 v2 v5 v8 v11 v13)) 0x00000000#32 reduces_S5000x128_S5000 (.inl rfl) rfl)
        shapeCasts_S5000_S5000x1)) (broadcast S5000x1 (Scalar.ofBits .f32 0x2B8CBCCC#32))) broadcasts_S5000x1_S5000x128))
    (broadcast S5000x128 (Scalar.ofBits .f32 0x00000000#32))

/-- Each of the three layer bodies stores that value (a cast of a shape to itself is the identity). -/
theorem pay0_form (v0 v2 : Vec Ideal S5000x128 .f32) (v5 v8 : Vec Ideal S128x128 .f32) (v11 v13 : Vec Ideal S128 .f32) :
    k0_pay1 v0 v2 v5 v8 v11 v13 = layerVec v0 v2 v5 v8 v11 v13 := by
  unfold k0_pay1 layerVec preVec
  simp only [shapeCast_self]
theorem pay1_form (v0 v2 : Vec Ideal S5000x128 .f32) (v5 v8 : Vec Ideal S128x128 .f32) (v11 v13 : Vec Ideal S128 .f32) :
    k1_pay1 v0 v2 v5 v8 v11 v13 = layerVec v0 v2 v5 v8 v11 v13 := by
  unfold k1_pay1 layerVec preVec
  simp only [shapeCast_self]
theorem pay2_form (v0 v2 : Vec Ideal S5000x128 .f32) (v5 v8 : Vec Ideal S128x128 .f32) (v11 v13 : Vec Ideal S128 .f32) :
    k2_pay1 v0 v2 v5 v8 v11 v13 = layerVec v0 v2 v5 v8 v11 v13 := by
  unfold k2_pay1 layerVec preVec
  simp only [shapeCast_self]

/-- THE LAYER BODY stores `Gnn.layer` of its loaded blocks. -/
theorem layerVec_eq (v0 v2 : Vec Ideal S5000x128 .f32) (v5 v8 : Vec Ideal S128x128 .f32) (v11 v13 : Vec Ideal S128 .f32) :
    layerVec v0 v2 v5 v8 v11 v13 = Gnn.layer v0 v2 v5 v8 v11 v13 := by
  unfold layerVec
  funext i
  obtain ⟨p, q, rfl⟩ : ∃ (p : Fin 5000) (q : Fin 128), i = ix2 p q := ⟨i 0, i 1, eq_ix2 i⟩
  rw [Gnn.layer_ix2, maximumf_apply, divf_apply, preVec_ix2, Cert.Attn.Layout.broadcastTo_a1_ab_apply, maximumf_apply]
  show max (Ideal.div _ (max (Ideal.sqrt (shapeCast S5000x1 _ shapeCasts_S5000_S5000x1 (ix2 p (0 : Fin 1)))) (Ideal.ofBits .f32 0x2B8CBCCC#32))) (Ideal.ofBits .f32 0x00000000#32) = _
  rw [Cert.Attn.Layout.shapeCast_a_a1_apply, Ideal.ofBits_zero_f32]
  unfold Gnn.layerAt Gnn.epsv
  refine congrArg (fun s => max (Ideal.div _ (max (Ideal.sqrt s) _)) 0) ?_
  refine (Cert.Attn.Layout.rowSum_apply (a := 5000) (b := 128) _ reduces_S5000x128_S5000 (.inl rfl) rfl p).trans
    (Finset.sum_congr rfl fun k _ => ?_)
  rw [mulf_apply, preVec_ix2]

/-! ## The closing body -/

/-- The closing body's scores. -/
def scoreVec (v0 : Vec Ideal S5000x128 .f32) (v3 : Vec Ideal S128x128 .f32) (v6 : Vec Ideal S128x40 .f32) (v9 : Vec Ideal S128 .f32) (v10 : Vec Ideal S40 .f32) : FVec Ideal S5000x40 .f32 :=
  addf (matmul D40 none (truncf .bf16 (addf (matmul D128 none (truncf .bf16 v0 bitsLt_bf16_f32) (truncf .bf16 v3 bitsLt_bf16_f32) (constant S5000x128 .f32 0x00000000#32))
        (broadcastTo S5000x128 (shapeCast S1x128 v9 shapeCasts_S128_S1x128) broadcasts_S1x128_S5000x128)) bitsLt_bf16_f32)
      (truncf .bf16 v6 bitsLt_bf16_f32) (constant S5000x40 .f32 0x00000000#32))
    (broadcastTo S5000x40 (shapeCast S1x40 v10 shapeCasts_S40_S1x40) broadcasts_S1x40_S5000x40)

theorem scoreVec_eq (v0 : Vec Ideal S5000x128 .f32) (v3 : Vec Ideal S128x128 .f32) (v6 : Vec Ideal S128x40 .f32) (v9 : Vec Ideal S128 .f32) (v10 : Vec Ideal S40 .f32) :
    scoreVec v0 v3 v6 v9 v10 = Gnn.scores v0 v3 v9 v6 v10 := by
  funext i
  obtain ⟨p, q, rfl⟩ : ∃ (p : Fin 5000) (q : Fin 40), i = ix2 p q := ⟨i 0, i 1, eq_ix2 i⟩
  unfold scoreVec
  rw [Gnn.scores_ix2, addf_apply, mm40, bias40]
  refine congrArg (· + v10 (ix1 q)) (Finset.sum_congr rfl fun k _ => ?_)
  rw [addf_apply, mm128, bias128]

/-- The log-softmax as the vector unit spells it. -/
def lsmVec (y : FVec Ideal S5000x40 .f32) : FVec Ideal S5000x40 .f32 :=
  subf (subf y (broadcastTo S5000x40 (shapeCast S5000x1
      (multiReduction .maximumf [1] S5000 y 0xFF800000#32 reduces_S5000x40_S5000 (.inl rfl) rfl) shapeCasts_S5000_S5000x1) broadcasts_S5000x1_S5000x40))
    (broadcastTo S5000x40 (log (shapeCast S5000x1
      (multiReduction .add [1] S5000
        (exp (subf y (broadcastTo S5000x40 (shapeCast S5000x1
          (multiReduction .maximumf [1] S5000 y 0xFF800000#32 reduces_S5000x40_S5000 (.inl rfl) rfl) shapeCasts_S5000_S5000x1) broadcasts_S5000x1_S5000x40)))
        0x00000000#32 reduces_S5000x40_S5000 (.inl rfl) rfl) shapeCasts_S5000_S5000x1)) broadcasts_S5000x1_S5000x40)

theorem pay3_form (v0 : Vec Ideal S5000x128 .f32) (v3 : Vec Ideal S128x128 .f32) (v6 : Vec Ideal S128x40 .f32) (v9 : Vec Ideal S128 .f32) (v10 : Vec Ideal S40 .f32) :
    k3_pay1 v0 v3 v6 v9 v10 = lsmVec (scoreVec v0 v3 v6 v9 v10) := by
  unfold k3_pay1 lsmVec scoreVec
  simp only [shapeCast_self]

/-- THE CLOSING BODY stores `Gnn.post` of its loaded blocks. -/
theorem pay_post (v0 : Vec Ideal S5000x128 .f32) (v3 : Vec Ideal S128x128 .f32) (v6 : Vec Ideal S128x40 .f32) (v9 : Vec Ideal S128 .f32) (v10 : Vec Ideal S40 .f32) :
    k3_pay1 v0 v3 v6 v9 v10 = Gnn.post v0 v3 v9 v6 v10 := by
  rw [pay3_form, scoreVec_eq]
  funext i
  obtain ⟨p, q, rfl⟩ : ∃ (p : Fin 5000) (q : Fin 40), i = ix2 p q := ⟨i 0, i 1, eq_ix2 i⟩
  rw [Gnn.post_ix2]
  exact Cert.RowLsm.vec_lsm (Gnn.scores v0 v3 v9 v6 v10) reduces_S5000x40_S5000 (.inl rfl) rfl rfl shapeCasts_S5000_S5000x1 broadcasts_S5000x1_S5000x40 p q

end Cert.KernelIdeal.Hand

end
-- ==== Proof.KRegion0.lean ====
/-
  Region 0 of @main, one layer: the array the region's write-backs leave, for ANY contents V the region is entered with.

  Point t of the grid of 20 loads rows 5000 t … 5000 t + 4999 of the node features and of the neighbour sums, the two weight
  matrices and the two bias vectors whole, and writes back rows 5000 t … 5000 t + 4999 of the result.  What it stores is the
  layer computed on the block of rows, which is the same rows of the layer computed on the whole arrays (the layer is
  row-local).  The twenty blocks fill the array.  So the result array ends at `Gnn.layer` of the six arrays (`final0`).
-/
import proofs.«158836_j28750511079531_1_alg».proof.Proof.Gen.KernelIdeal.Frame
import proofs.«158836_j28750511079531_1_alg».proof.Proof.KBody
import Idealize.ShloMosaic.Lib.Pipeline.Value

set_option maxRecDepth 16384

noncomputable section

namespace Cert.KernelIdeal.Hand.Reg0

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-block windows sit at block t, the whole-array windows at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Every block of rows is some point's. -/
theorem idx_onto : ∀ q0 : Fin 20, ∃ t : Fin cfg0.N, win0_6.index t (0 : Fin 2) = q0.val ∧ win0_6.index t (1 : Fin 2) = 0 :=
  (by decide +kernel : ∀ q0 : Fin 20, ∃ t : Fin grid0.N, _)

/-- The node features' block at point t: row r of the block is row 5000 t + r of the array. -/
theorem blk_h (c : Dev nD) (t : Fin cfg0.N) (r : Fin 5000) (k : Fin 128) (R : Fin 100000) (hR : R.val = 5000 * t.val + r.val) :
    (iblk0 V c 0 t : Vec Ideal S5000x128 .f32) (ix2 r k) = (V c main_arg0 : S100000x128.Idx → EReal) (ix2 R k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * r.val = R.val; rw [e0, hR]; omega
  | ⟨1, _⟩ => show win0_0.index t (1 : Fin 2) * 128 + 1 * k.val = k.val; rw [e1]; omega

/-- The neighbour sums' block at point t, likewise. -/
theorem blk_g (c : Dev nD) (t : Fin cfg0.N) (r : Fin 5000) (k : Fin 128) (R : Fin 100000) (hR : R.val = 5000 * t.val + r.val) :
    (iblk0 V c 1 t : Vec Ideal S5000x128 .f32) (ix2 r k) = (V c main_v15 : S100000x128.Idx → EReal) (ix2 R k) := by
  obtain ⟨-, -, e0, e1, -⟩ := idx_facts t
  unfold iblk0
  rw [View.read_apply]
  show V c main_v15 _ = V c main_v15 _
  refine congrArg (V c main_v15) (funext fun a => Fin.ext ?_)
  match a with
  | ⟨0, _⟩ => show win0_1.index t (0 : Fin 2) * 5000 + 1 * r.val = R.val; rw [e0, hR]; omega
  | ⟨1, _⟩ => show win0_1.index t (1 : Fin 2) * 128 + 1 * k.val = k.val; rw [e1]; omega

/-- The weight matrices' and bias vectors' blocks are their whole arrays. -/
theorem blk_wl (c : Dev nD) (t : Fin cfg0.N) : (iblk0 V c 2 t : Vec Ideal S128x128 .f32) = V c main_v17 := by
  obtain ⟨-, -, -, -, e0, e1, -⟩ := idx_facts t
  funext y
  unfold iblk0
  rw [View.read_apply]
  show V c main_v17 _ = V c main_v17 _
  refine congrArg (V c main_v17) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega
theorem blk_bl (c : Dev nD) (t : Fin cfg0.N) : (iblk0 V c 3 t : Vec Ideal S128 .f32) = V c main_v19 := by
  obtain ⟨-, -, -, -, -, -, e0, -⟩ := idx_facts t
  funext y
  unfold iblk0
  rw [View.read_apply]
  show V c main_v19 _ = V c main_v19 _
  refine congrArg (V c main_v19) (funext fun a => Fin.ext ?_)
  match a with
  | ⟨0, _⟩ => show win0_3.index t (0 : Fin 1) * 128 + 1 * (y 0).val = (y 0).val; rw [e0]; omega
theorem blk_wr (c : Dev nD) (t : Fin cfg0.N) : (iblk0 V c 4 t : Vec Ideal S128x128 .f32) = V c main_v21 := by
  obtain ⟨-, -, -, -, -, -, -, e0, e1, -⟩ := idx_facts t
  funext y
  unfold iblk0
  rw [View.read_apply]
  show V c main_v21 _ = V c main_v21 _
  refine congrArg (V c main_v21) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega
theorem blk_br (c : Dev nD) (t : Fin cfg0.N) : (iblk0 V c 5 t : Vec Ideal S128 .f32) = V c main_v23 := by
  obtain ⟨-, -, -, -, -, -, -, -, -, e0, -⟩ := idx_facts t
  funext y
  unfold iblk0
  rw [View.read_apply]
  show V c main_v23 _ = V c main_v23 _
  refine congrArg (V c main_v23) (funext fun a => Fin.ext ?_)
  match a with
  | ⟨0, _⟩ => show win0_5.index t (0 : Fin 1) * 128 + 1 * (y 0).val = (y 0).val; rw [e0]; omega

/-- The layer this region computes, of the arrays as the region finds them. -/
abbrev G (c : Dev nD) : S100000x128.Idx → EReal :=
  Gnn.layer (a := 100000) (V c main_arg0) (V c main_v15) (V c main_v17) (V c main_v21) (V c main_v19) (V c main_v23)

/-- WHAT POINT t WRITES BACK is rows 5000 t … of `G`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S128x128) hz2, View.ld_unit_zero (S := S128) hz1]
  rw [pay0_form, layerVec_eq, blk_wl, blk_bl, blk_wr, blk_br]
  obtain ⟨-, -, -, -, -, -, -, -, -, -, e0, e1⟩ := idx_facts t
  funext j
  revert j
  show ∀ j : S5000x128.Idx, Gnn.layer (a := 5000) (iblk0 V c 0 t) (iblk0 V c 1 t) (V c main_v17) (V c main_v21) (V c main_v19) (V c main_v23) j
      = G V c (((cfg0.win 6).blk t).view.emb j)
  intro j
  obtain ⟨r, q, rfl⟩ : ∃ (r : Fin 5000) (q : Fin 128), j = ix2 r q := ⟨j 0, j 1, eq_ix2 j⟩
  have hR : 5000 * t.val + r.val < 100000 := by
    have := t.isLt; have hN : cfg0.N = 20 := N_0; have := r.isLt; omega
  have hemb : ((cfg0.win 6).blk t).view.emb (ix2 r q) = ix2 (⟨5000 * t.val + r.val, hR⟩ : Fin 100000) q := by
    funext a; apply Fin.ext
    match a with
    | ⟨0, _⟩ => show win0_6.index t (0 : Fin 2) * 5000 + 1 * r.val = 5000 * t.val + r.val; rw [e0]; omega
    | ⟨1, _⟩ => show win0_6.index t (1 : Fin 2) * 128 + 1 * q.val = q.val; rw [e1]; omega
  rw [hemb]
  exact Gnn.layerAt_rows _ _ _ _ _ _ _ _ r ⟨5000 * t.val + r.val, hR⟩ (fun k => blk_h V c t r k _ rfl) (fun k => blk_g V c t r k _ rfl) q

/-- An index of the array is in point t's block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v24).slice (win0_6.rect t)).set ↔ _
  rw [View.set_slice_whole, Rect.mem_set_unit]
  exact Iff.rfl

/-- The twenty blocks of rows fill the array. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, q0, q1⟩ := idx_onto ⟨(i 0).val / 5000, by omega⟩
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; rw [q0]; show (i 0).val / 5000 * 5000 ≤ (i 0).val ∧ (i 0).val < (i 0).val / 5000 * 5000 + 5000; omega
  | ⟨1, _⟩ => show win0_6.index t (1 : Fin 2) * 128 ≤ (i 1).val ∧ (i 1).val < win0_6.index t (1 : Fin 2) * 128 + 128; rw [q1]; omega

/-- THE RESULT ARRAY after the region: the layer of the six arrays as the region finds them. -/
theorem final0 (c : Dev nD) : (dat0 V c).arrAt 6 cfg0.N = G V c :=
  (dat0 V c).arrAt_eq_of_cover 6 (G V c) (fun t _ => flushed_eq V c t) cover

end Cert.KernelIdeal.Hand.Reg0

end
-- ==== Proof.KRegion1.lean ====
/-
  Region 1 of @main, one layer: the array the region's write-backs leave, for ANY contents V the region is entered with.

  Point t of the grid of 20 loads rows 5000 t … 5000 t + 4999 of the node features and of the neighbour sums, the two weight
  matrices and the two bias vectors whole, and writes back rows 5000 t … 5000 t + 4999 of the result.  What it stores is the
  layer computed on the block of rows, which is the same rows of the layer computed on the whole arrays (the layer is
  row-local).  The twenty blocks fill the array.  So the result array ends at `Gnn.layer` of the six arrays (`final1`).
-/
import proofs.«158836_j28750511079531_1_alg».proof.Proof.Gen.KernelIdeal.Frame
import proofs.«158836_j28750511079531_1_alg».proof.Proof.KBody
import Idealize.ShloMosaic.Lib.Pipeline.Value

set_option maxRecDepth 16384

noncomputable section

namespace Cert.KernelIdeal.Hand.Reg1

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-block windows sit at block t, the whole-array windows at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Every block of rows is some point's. -/
theorem idx_onto : ∀ q0 : Fin 20, ∃ t : Fin cfg1.N, win1_6.index t (0 : Fin 2) = q0.val ∧ win1_6.index t (1 : Fin 2) = 0 :=
  (by decide +kernel : ∀ q0 : Fin 20, ∃ t : Fin grid1.N, _)

/-- The node features' block at point t: row r of the block is row 5000 t + r of the array. -/
theorem blk_h (c : Dev nD) (t : Fin cfg1.N) (r : Fin 5000) (k : Fin 128) (R : Fin 100000) (hR : R.val = 5000 * t.val + r.val) :
    (iblk1 V c 0 t : Vec Ideal S5000x128 .f32) (ix2 r k) = (V c main_v24 : S100000x128.Idx → EReal) (ix2 R k) := by
  obtain ⟨e0, e1, -⟩ := idx_facts t
  unfold iblk1
  rw [View.read_apply]
  show V c main_v24 _ = V c main_v24 _
  refine congrArg (V c main_v24) (funext fun a => Fin.ext ?_)
  match a with
  | ⟨0, _⟩ => show win1_0.index t (0 : Fin 2) * 5000 + 1 * r.val = R.val; rw [e0, hR]; omega
  | ⟨1, _⟩ => show win1_0.index t (1 : Fin 2) * 128 + 1 * k.val = k.val; rw [e1]; omega

/-- The neighbour sums' block at point t, likewise. -/
theorem blk_g (c : Dev nD) (t : Fin cfg1.N) (r : Fin 5000) (k : Fin 128) (R : Fin 100000) (hR : R.val = 5000 * t.val + r.val) :
    (iblk1 V c 1 t : Vec Ideal S5000x128 .f32) (ix2 r k) = (V c main_v34 : S100000x128.Idx → EReal) (ix2 R k) := by
  obtain ⟨-, -, e0, e1, -⟩ := idx_facts t
  unfold iblk1
  rw [View.read_apply]
  show V c main_v34 _ = V c main_v34 _
  refine congrArg (V c main_v34) (funext fun a => Fin.ext ?_)
  match a with
  | ⟨0, _⟩ => show win1_1.index t (0 : Fin 2) * 5000 + 1 * r.val = R.val; rw [e0, hR]; omega
  | ⟨1, _⟩ => show win1_1.index t (1 : Fin 2) * 128 + 1 * k.val = k.val; rw [e1]; omega

/-- The weight matrices' and bias vectors' blocks are their whole arrays. -/
theorem blk_wl (c : Dev nD) (t : Fin cfg1.N) : (iblk1 V c 2 t : Vec Ideal S128x128 .f32) = V c main_v36 := by
  obtain ⟨-, -, -, -, e0, e1, -⟩ := idx_facts t
  funext y
  unfold iblk1
  rw [View.read_apply]
  show V c main_v36 _ = V c main_v36 _
  refine congrArg (V c main_v36) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega
theorem blk_bl (c : Dev nD) (t : Fin cfg1.N) : (iblk1 V c 3 t : Vec Ideal S128 .f32) = V c main_v38 := by
  obtain ⟨-, -, -, -, -, -, e0, -⟩ := idx_facts t
  funext y
  unfold iblk1
  rw [View.read_apply]
  show V c main_v38 _ = V c main_v38 _
  refine congrArg (V c main_v38) (funext fun a => Fin.ext ?_)
  match a with
  | ⟨0, _⟩ => show win1_3.index t (0 : Fin 1) * 128 + 1 * (y 0).val = (y 0).val; rw [e0]; omega
theorem blk_wr (c : Dev nD) (t : Fin cfg1.N) : (iblk1 V c 4 t : Vec Ideal S128x128 .f32) = V c main_v40 := by
  obtain ⟨-, -, -, -, -, -, -, e0, e1, -⟩ := idx_facts t
  funext y
  unfold iblk1
  rw [View.read_apply]
  show V c main_v40 _ = V c main_v40 _
  refine congrArg (V c main_v40) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega
theorem blk_br (c : Dev nD) (t : Fin cfg1.N) : (iblk1 V c 5 t : Vec Ideal S128 .f32) = V c main_v42 := by
  obtain ⟨-, -, -, -, -, -, -, -, -, e0, -⟩ := idx_facts t
  funext y
  unfold iblk1
  rw [View.read_apply]
  show V c main_v42 _ = V c main_v42 _
  refine congrArg (V c main_v42) (funext fun a => Fin.ext ?_)
  match a with
  | ⟨0, _⟩ => show win1_5.index t (0 : Fin 1) * 128 + 1 * (y 0).val = (y 0).val; rw [e0]; omega

/-- The layer this region computes, of the arrays as the region finds them. -/
abbrev G (c : Dev nD) : S100000x128.Idx → EReal :=
  Gnn.layer (a := 100000) (V c main_v24) (V c main_v34) (V c main_v36) (V c main_v40) (V c main_v38) (V c main_v42)

/-- WHAT POINT t WRITES BACK is rows 5000 t … of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S128x128) hz2, View.ld_unit_zero (S := S128) hz1]
  rw [pay1_form, layerVec_eq, blk_wl, blk_bl, blk_wr, blk_br]
  obtain ⟨-, -, -, -, -, -, -, -, -, -, e0, e1⟩ := idx_facts t
  funext j
  revert j
  show ∀ j : S5000x128.Idx, Gnn.layer (a := 5000) (iblk1 V c 0 t) (iblk1 V c 1 t) (V c main_v36) (V c main_v40) (V c main_v38) (V c main_v42) j
      = G V c (((cfg1.win 6).blk t).view.emb j)
  intro j
  obtain ⟨r, q, rfl⟩ : ∃ (r : Fin 5000) (q : Fin 128), j = ix2 r q := ⟨j 0, j 1, eq_ix2 j⟩
  have hR : 5000 * t.val + r.val < 100000 := by
    have := t.isLt; have hN : cfg1.N = 20 := N_1; have := r.isLt; omega
  have hemb : ((cfg1.win 6).blk t).view.emb (ix2 r q) = ix2 (⟨5000 * t.val + r.val, hR⟩ : Fin 100000) q := by
    funext a; apply Fin.ext
    match a with
    | ⟨0, _⟩ => show win1_6.index t (0 : Fin 2) * 5000 + 1 * r.val = 5000 * t.val + r.val; rw [e0]; omega
    | ⟨1, _⟩ => show win1_6.index t (1 : Fin 2) * 128 + 1 * q.val = q.val; rw [e1]; omega
  rw [hemb]
  exact Gnn.layerAt_rows _ _ _ _ _ _ _ _ r ⟨5000 * t.val + r.val, hR⟩ (fun k => blk_h V c t r k _ rfl) (fun k => blk_g V c t r k _ rfl) q

/-- An index of the array is in point t's block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v43).slice (win1_6.rect t)).set ↔ _
  rw [View.set_slice_whole, Rect.mem_set_unit]
  exact Iff.rfl

/-- The twenty blocks of rows fill the array. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, q0, q1⟩ := idx_onto ⟨(i 0).val / 5000, by omega⟩
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; rw [q0]; show (i 0).val / 5000 * 5000 ≤ (i 0).val ∧ (i 0).val < (i 0).val / 5000 * 5000 + 5000; omega
  | ⟨1, _⟩ => show win1_6.index t (1 : Fin 2) * 128 ≤ (i 1).val ∧ (i 1).val < win1_6.index t (1 : Fin 2) * 128 + 128; rw [q1]; omega

/-- THE RESULT ARRAY after the region: the layer of the six arrays as the region finds them. -/
theorem final1 (c : Dev nD) : (dat1 V c).arrAt 6 cfg1.N = G V c :=
  (dat1 V c).arrAt_eq_of_cover 6 (G V c) (fun t _ => flushed_eq V c t) cover

end Cert.KernelIdeal.Hand.Reg1

end
-- ==== Proof.KRegion2.lean ====
/-
  Region 2 of @main, one layer: the array the region's write-backs leave, for ANY contents V the region is entered with.

  Point t of the grid of 20 loads rows 5000 t … 5000 t + 4999 of the node features and of the neighbour sums, the two weight
  matrices and the two bias vectors whole, and writes back rows 5000 t … 5000 t + 4999 of the result.  What it stores is the
  layer computed on the block of rows, which is the same rows of the layer computed on the whole arrays (the layer is
  row-local).  The twenty blocks fill the array.  So the result array ends at `Gnn.layer` of the six arrays (`final2`).
-/
import proofs.«158836_j28750511079531_1_alg».proof.Proof.Gen.KernelIdeal.Frame
import proofs.«158836_j28750511079531_1_alg».proof.Proof.KBody
import Idealize.ShloMosaic.Lib.Pipeline.Value

set_option maxRecDepth 16384

noncomputable section

namespace Cert.KernelIdeal.Hand.Reg2

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-block windows sit at block t, the whole-array windows at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Every block of rows is some point's. -/
theorem idx_onto : ∀ q0 : Fin 20, ∃ t : Fin cfg2.N, win2_6.index t (0 : Fin 2) = q0.val ∧ win2_6.index t (1 : Fin 2) = 0 :=
  (by decide +kernel : ∀ q0 : Fin 20, ∃ t : Fin grid2.N, _)

/-- The node features' block at point t: row r of the block is row 5000 t + r of the array. -/
theorem blk_h (c : Dev nD) (t : Fin cfg2.N) (r : Fin 5000) (k : Fin 128) (R : Fin 100000) (hR : R.val = 5000 * t.val + r.val) :
    (iblk2 V c 0 t : Vec Ideal S5000x128 .f32) (ix2 r k) = (V c main_v43 : S100000x128.Idx → EReal) (ix2 R k) := by
  obtain ⟨e0, e1, -⟩ := idx_facts t
  unfold iblk2
  rw [View.read_apply]
  show V c main_v43 _ = V c main_v43 _
  refine congrArg (V c main_v43) (funext fun a => Fin.ext ?_)
  match a with
  | ⟨0, _⟩ => show win2_0.index t (0 : Fin 2) * 5000 + 1 * r.val = R.val; rw [e0, hR]; omega
  | ⟨1, _⟩ => show win2_0.index t (1 : Fin 2) * 128 + 1 * k.val = k.val; rw [e1]; omega

/-- The neighbour sums' block at point t, likewise. -/
theorem blk_g (c : Dev nD) (t : Fin cfg2.N) (r : Fin 5000) (k : Fin 128) (R : Fin 100000) (hR : R.val = 5000 * t.val + r.val) :
    (iblk2 V c 1 t : Vec Ideal S5000x128 .f32) (ix2 r k) = (V c main_v53 : S100000x128.Idx → EReal) (ix2 R k) := by
  obtain ⟨-, -, e0, e1, -⟩ := idx_facts t
  unfold iblk2
  rw [View.read_apply]
  show V c main_v53 _ = V c main_v53 _
  refine congrArg (V c main_v53) (funext fun a => Fin.ext ?_)
  match a with
  | ⟨0, _⟩ => show win2_1.index t (0 : Fin 2) * 5000 + 1 * r.val = R.val; rw [e0, hR]; omega
  | ⟨1, _⟩ => show win2_1.index t (1 : Fin 2) * 128 + 1 * k.val = k.val; rw [e1]; omega

/-- The weight matrices' and bias vectors' blocks are their whole arrays. -/
theorem blk_wl (c : Dev nD) (t : Fin cfg2.N) : (iblk2 V c 2 t : Vec Ideal S128x128 .f32) = V c main_v55 := by
  obtain ⟨-, -, -, -, e0, e1, -⟩ := idx_facts t
  funext y
  unfold iblk2
  rw [View.read_apply]
  show V c main_v55 _ = V c main_v55 _
  refine congrArg (V c main_v55) (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega
theorem blk_bl (c : Dev nD) (t : Fin cfg2.N) : (iblk2 V c 3 t : Vec Ideal S128 .f32) = V c main_v57 := by
  obtain ⟨-, -, -, -, -, -, e0, -⟩ := idx_facts t
  funext y
  unfold iblk2
  rw [View.read_apply]
  show V c main_v57 _ = V c main_v57 _
  refine congrArg (V c main_v57) (funext fun a => Fin.ext ?_)
  match a with
  | ⟨0, _⟩ => show win2_3.index t (0 : Fin 1) * 128 + 1 * (y 0).val = (y 0).val; rw [e0]; omega
theorem blk_wr (c : Dev nD) (t : Fin cfg2.N) : (iblk2 V c 4 t : Vec Ideal S128x128 .f32) = V c main_v59 := by
  obtain ⟨-, -, -, -, -, -, -, e0, e1, -⟩ := idx_facts t
  funext y
  unfold iblk2
  rw [View.read_apply]
  show V c main_v59 _ = V c main_v59 _
  refine congrArg (V c main_v59) (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega
theorem blk_br (c : Dev nD) (t : Fin cfg2.N) : (iblk2 V c 5 t : Vec Ideal S128 .f32) = V c main_v61 := by
  obtain ⟨-, -, -, -, -, -, -, -, -, e0, -⟩ := idx_facts t
  funext y
  unfold iblk2
  rw [View.read_apply]
  show V c main_v61 _ = V c main_v61 _
  refine congrArg (V c main_v61) (funext fun a => Fin.ext ?_)
  match a with
  | ⟨0, _⟩ => show win2_5.index t (0 : Fin 1) * 128 + 1 * (y 0).val = (y 0).val; rw [e0]; omega

/-- The layer this region computes, of the arrays as the region finds them. -/
abbrev G (c : Dev nD) : S100000x128.Idx → EReal :=
  Gnn.layer (a := 100000) (V c main_v43) (V c main_v53) (V c main_v55) (V c main_v59) (V c main_v57) (V c main_v61)

/-- WHAT POINT t WRITES BACK is rows 5000 t … of `G`. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S128x128) hz2, View.ld_unit_zero (S := S128) hz1]
  rw [pay2_form, layerVec_eq, blk_wl, blk_bl, blk_wr, blk_br]
  obtain ⟨-, -, -, -, -, -, -, -, -, -, e0, e1⟩ := idx_facts t
  funext j
  revert j
  show ∀ j : S5000x128.Idx, Gnn.layer (a := 5000) (iblk2 V c 0 t) (iblk2 V c 1 t) (V c main_v55) (V c main_v59) (V c main_v57) (V c main_v61) j
      = G V c (((cfg2.win 6).blk t).view.emb j)
  intro j
  obtain ⟨r, q, rfl⟩ : ∃ (r : Fin 5000) (q : Fin 128), j = ix2 r q := ⟨j 0, j 1, eq_ix2 j⟩
  have hR : 5000 * t.val + r.val < 100000 := by
    have := t.isLt; have hN : cfg2.N = 20 := N_2; have := r.isLt; omega
  have hemb : ((cfg2.win 6).blk t).view.emb (ix2 r q) = ix2 (⟨5000 * t.val + r.val, hR⟩ : Fin 100000) q := by
    funext a; apply Fin.ext
    match a with
    | ⟨0, _⟩ => show win2_6.index t (0 : Fin 2) * 5000 + 1 * r.val = 5000 * t.val + r.val; rw [e0]; omega
    | ⟨1, _⟩ => show win2_6.index t (1 : Fin 2) * 128 + 1 * q.val = q.val; rw [e1]; omega
  rw [hemb]
  exact Gnn.layerAt_rows _ _ _ _ _ _ _ _ r ⟨5000 * t.val + r.val, hR⟩ (fun k => blk_h V c t r k _ rfl) (fun k => blk_g V c t r k _ rfl) q

/-- An index of the array is in point t's block iff each coordinate is in the block's range on its axis. -/
theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v62).slice (win2_6.rect t)).set ↔ _
  rw [View.set_slice_whole, Rect.mem_set_unit]
  exact Iff.rfl

/-- The twenty blocks of rows fill the array. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, q0, q1⟩ := idx_onto ⟨(i 0).val / 5000, by omega⟩
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; rw [q0]; show (i 0).val / 5000 * 5000 ≤ (i 0).val ∧ (i 0).val < (i 0).val / 5000 * 5000 + 5000; omega
  | ⟨1, _⟩ => show win2_6.index t (1 : Fin 2) * 128 ≤ (i 1).val ∧ (i 1).val < win2_6.index t (1 : Fin 2) * 128 + 128; rw [q1]; omega

/-- THE RESULT ARRAY after the region: the layer of the six arrays as the region finds them. -/
theorem final2 (c : Dev nD) : (dat2 V c).arrAt 6 cfg2.N = G V c :=
  (dat2 V c).arrAt_eq_of_cover 6 (G V c) (fun t _ => flushed_eq V c t) cover

end Cert.KernelIdeal.Hand.Reg2

end
-- ==== Proof.KRegion3.lean ====
/-
  Region 3 of @main, the closing stage: the array the region's write-backs leave, for ANY contents V it is entered with.

  Point t of the grid of 20 loads rows 5000 t … 5000 t + 4999 of the last layer's output, the two weight matrices and the two
  bias vectors whole, and writes back rows 5000 t … 5000 t + 4999 of the result: the row-wise log-softmax of the scores,
  computed on the block of rows, which is the same rows of it computed on the whole array (it is row-local).  The twenty
  blocks fill the array.  So the result array ends at `Gnn.post` of the five arrays (`final3`).
-/
import proofs.«158836_j28750511079531_1_alg».proof.Proof.Gen.KernelIdeal.Frame
import proofs.«158836_j28750511079531_1_alg».proof.Proof.KBody
import Idealize.ShloMosaic.Lib.Pipeline.Value

set_option maxRecDepth 16384

noncomputable section

namespace Cert.KernelIdeal.Hand.Reg3

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-block windows sit at block t, the whole-array windows at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-- Every block of rows is some point's. -/
theorem idx_onto : ∀ q0 : Fin 20, ∃ t : Fin cfg3.N, win3_5.index t (0 : Fin 2) = q0.val ∧ win3_5.index t (1 : Fin 2) = 0 :=
  (by decide +kernel : ∀ q0 : Fin 20, ∃ t : Fin grid3.N, _)

/-- The features' block at point t: row r of the block is row 5000 t + r of the array. -/
theorem blk_h (c : Dev nD) (t : Fin cfg3.N) (r : Fin 5000) (k : Fin 128) (R : Fin 100000) (hR : R.val = 5000 * t.val + r.val) :
    (iblk3 V c 0 t : Vec Ideal S5000x128 .f32) (ix2 r k) = (V c main_v62 : S100000x128.Idx → EReal) (ix2 R k) := by
  obtain ⟨e0, e1, -⟩ := idx_facts t
  unfold iblk3
  rw [View.read_apply]
  show V c main_v62 _ = V c main_v62 _
  refine congrArg (V c main_v62) (funext fun a => Fin.ext ?_)
  match a with
  | ⟨0, _⟩ => show win3_0.index t (0 : Fin 2) * 5000 + 1 * r.val = R.val; rw [e0, hR]; omega
  | ⟨1, _⟩ => show win3_0.index t (1 : Fin 2) * 128 + 1 * k.val = k.val; rw [e1]; omega

/-- The weight matrices' and bias vectors' blocks are their whole arrays. -/
theorem blk_w1 (c : Dev nD) (t : Fin cfg3.N) : (iblk3 V c 1 t : Vec Ideal S128x128 .f32) = V c main_v63 := by
  obtain ⟨-, -, e0, e1, -⟩ := idx_facts t
  funext y
  unfold iblk3
  rw [View.read_apply]
  show V c main_v63 _ = V c main_v63 _
  refine congrArg (V c main_v63) (funext fun a => Fin.ext ?_)
  match a with
  | ⟨0, _⟩ => show win3_1.index t (0 : Fin 2) * 128 + 1 * (y 0).val = (y 0).val; rw [e0]; omega
  | ⟨1, _⟩ => show win3_1.index t (1 : Fin 2) * 128 + 1 * (y 1).val = (y 1).val; rw [e1]; omega
theorem blk_b1 (c : Dev nD) (t : Fin cfg3.N) : (iblk3 V c 2 t : Vec Ideal S128 .f32) = V c main_arg7 := by
  obtain ⟨-, -, -, -, e0, -⟩ := idx_facts t
  funext y
  unfold iblk3
  rw [View.read_apply]
  show V c main_arg7 _ = V c main_arg7 _
  refine congrArg (V c main_arg7) (funext fun a => Fin.ext ?_)
  match a with
  | ⟨0, _⟩ => show win3_2.index t (0 : Fin 1) * 128 + 1 * (y 0).val = (y 0).val; rw [e0]; omega
theorem blk_w2 (c : Dev nD) (t : Fin cfg3.N) : (iblk3 V c 3 t : Vec Ideal S128x40 .f32) = V c main_v64 := by
  obtain ⟨-, -, -, -, -, e0, e1, -⟩ := idx_facts t
  funext y
  unfold iblk3
  rw [View.read_apply]
  show V c main_v64 _ = V c main_v64 _
  refine congrArg (V c main_v64) (funext fun a => Fin.ext ?_)
  match a with
  | ⟨0, _⟩ => show win3_3.index t (0 : Fin 2) * 128 + 1 * (y 0).val = (y 0).val; rw [e0]; omega
  | ⟨1, _⟩ => show win3_3.index t (1 : Fin 2) * 40 + 1 * (y 1).val = (y 1).val; rw [e1]; omega
theorem blk_b2 (c : Dev nD) (t : Fin cfg3.N) : (iblk3 V c 4 t : Vec Ideal S40 .f32) = V c main_arg9 := by
  obtain ⟨-, -, -, -, -, -, -, e0, -⟩ := idx_facts t
  funext y
  unfold iblk3
  rw [View.read_apply]
  show V c main_arg9 _ = V c main_arg9 _
  refine congrArg (V c main_arg9) (funext fun a => Fin.ext ?_)
  match a with
  | ⟨0, _⟩ => show win3_4.index t (0 : Fin 1) * 40 + 1 * (y 0).val = (y 0).val; rw [e0]; omega

/-- The closing stage of the arrays as the region finds them. -/
abbrev G (c : Dev nD) : S100000x40.Idx → EReal :=
  Gnn.post (a := 100000) (V c main_v62) (V c main_v63) (V c main_arg7) (V c main_v64) (V c main_arg9)

/-- WHAT POINT t WRITES BACK is rows 5000 t … of `G`. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz2]
  simp only [View.ld_unit_zero (S := S5000x128) hz2, View.ld_unit_zero (S := S128x128) hz2, View.ld_unit_zero (S := S128x40) hz2,
    View.ld_unit_zero (S := S128) hz1, View.ld_unit_zero (S := S40) hz1]
  rw [pay_post, blk_w1, blk_b1, blk_w2, blk_b2]
  obtain ⟨-, -, -, -, -, -, -, -, e0, e1⟩ := idx_facts t
  funext j
  revert j
  show ∀ j : S5000x40.Idx, Gnn.post (a := 5000) (iblk3 V c 0 t) (V c main_v63) (V c main_arg7) (V c main_v64) (V c main_arg9) j
      = G V c (((cfg3.win 5).blk t).view.emb j)
  intro j
  obtain ⟨r, q, rfl⟩ : ∃ (r : Fin 5000) (q : Fin 40), j = ix2 r q := ⟨j 0, j 1, eq_ix2 j⟩
  have hR : 5000 * t.val + r.val < 100000 := by
    have := t.isLt; have hN : cfg3.N = 20 := N_3; have := r.isLt; omega
  have hemb : ((cfg3.win 5).blk t).view.emb (ix2 r q) = ix2 (⟨5000 * t.val + r.val, hR⟩ : Fin 100000) q := by
    funext a; apply Fin.ext
    match a with
    | ⟨0, _⟩ => show win3_5.index t (0 : Fin 2) * 5000 + 1 * r.val = 5000 * t.val + r.val; rw [e0]; omega
    | ⟨1, _⟩ => show win3_5.index t (1 : Fin 2) * 40 + 1 * q.val = q.val; rw [e1]; omega
  rw [hemb]
  exact Gnn.post_rows _ _ _ _ _ _ r ⟨5000 * t.val + r.val, hR⟩ (fun k => blk_h V c t r k _ rfl) q

/-- An index of the array is in point t's block iff each coordinate is in the block's range on its axis. -/
theorem mem_blk (t : Fin cfg3.N) (i : S100000x40.Idx) :
    i ∈ ((cfg3.win 5).blk t).view.set ↔ ∀ a : Fin 2, win3_5.index t a * S5000x40.size a ≤ (i a).val ∧ (i a).val < win3_5.index t a * S5000x40.size a + S5000x40.size a := by
  show i ∈ ((View.whole main_v65).slice (win3_5.rect t)).set ↔ _
  rw [View.set_slice_whole, Rect.mem_set_unit]
  exact Iff.rfl

/-- The twenty blocks of rows fill the array. -/
theorem cover (i : S100000x40.Idx) : ∃ t : Fin cfg3.N, (cfg3.win 5).flush t = true ∧ i ∈ ((cfg3.win 5).blk t).view.set := by
  have hi0 : (i 0).val < 100000 := (i 0).isLt
  have hi1 : (i 1).val < 40 := (i 1).isLt
  obtain ⟨t, q0, q1⟩ := idx_onto ⟨(i 0).val / 5000, by omega⟩
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; rw [q0]; show (i 0).val / 5000 * 5000 ≤ (i 0).val ∧ (i 0).val < (i 0).val / 5000 * 5000 + 5000; omega
  | ⟨1, _⟩ => show win3_5.index t (1 : Fin 2) * 40 ≤ (i 1).val ∧ (i 1).val < win3_5.index t (1 : Fin 2) * 40 + 40; rw [q1]; omega

/-- THE RESULT ARRAY after the region: the closing stage of the five arrays as the region finds them. -/
theorem final3 (c : Dev nD) : (dat3 V c).arrAt 5 cfg3.N = G V c :=
  (dat3 V c).arrAt_eq_of_cover 5 (G V c) (fun t _ => flushed_eq V c t) cover

end Cert.KernelIdeal.Hand.Reg3

end
-- ==== Proof.KChain.lean ====
/-
  The idealized kernel program's result as the network of its ten arguments.

  @main is four regions among stretches of host operations.  The contents of the buffers at each boundary are a fold:
  a stretch applies its operations to what it finds, a region leaves in its result array what its write-backs leave
  and every other buffer as it was.  Read stretch by stretch:
    - the first stretch cuts the edge list into its source and target rows, transposes the two stacks of weight
      matrices, forms the neighbour sum of the node features, and cuts out layer 0's matrices and biases;
    - region k (k = 0, 1, 2) leaves `Gnn.layer` of the features, their neighbour sum and layer k's matrices and biases;
    - the stretch after it forms the neighbour sum of that output and cuts out the next layer's matrices and biases
      (the last stretch transposes the closing stage's two matrices);
    - region 3 leaves `Gnn.post` of the last layer's output.
  A weight matrix cut out of the transposed stack is the transposed matrix cut out of the stack (`Gnn.weight_orders`), so
  the result is `net` of the arguments, the function the reference computes.
-/
import proofs.«158836_j28750511079531_1_alg».proof.Proof.Gen.KernelIdeal.Frame
import proofs.«158836_j28750511079531_1_alg».proof.Proof.RefOps
import proofs.«158836_j28750511079531_1_alg».proof.Proof.LibStretch
import proofs.«158836_j28750511079531_1_alg».proof.Proof.Weights
import proofs.«158836_j28750511079531_1_alg».proof.Proof.KRegion0
import proofs.«158836_j28750511079531_1_alg».proof.Proof.KRegion1
import proofs.«158836_j28750511079531_1_alg».proof.Proof.KRegion2
import proofs.«158836_j28750511079531_1_alg».proof.Proof.KRegion3

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

/-! ## What each stretch writes, over any contents `V` -/

section Stretches

variable (V : Valuation τ sig (Elt Ideal))

/-- Matrix `o` cut out of a stack. -/
def kcut (o : ℕ) (hs : S3x128x128.Slices ![o, 0, 0] S1x128x128) (T : (⟨S3x128x128, .f32⟩ : BufTy).Contents (Elt Ideal)) :
    (⟨S128x128, .f32⟩ : BufTy).Contents (Elt Ideal) :=
  shapeCast S128x128 (extractStridedSlice S1x128x128 ![o, 0, 0] T hs) shapeCasts_S1x128x128_S128x128

/-- Cut out of the transposed stack: the transposed matrix cut out of the stack. -/
theorem kcut_transposed (o : ℕ) (ho : o < 3) (hs : S3x128x128.Slices ![o, 0, 0] S1x128x128)
    (hsR : Cert.ReferenceIdeal.S3x128x128.Slices ![o, 0, 0] Cert.ReferenceIdeal.S1x128x128)
    (W : (⟨S3x128x128, .f32⟩ : BufTy).Contents (Elt Ideal)) :
    kcut o hs (transpose S3x128x128 [0, 2, 1] W transposes_S3x128x128_S3x128x128_0_2_1) = Cert.ReferenceIdeal.Ops.wSlice (F := Ideal) o hsR W :=
  Gnn.weight_orders o ho W _ _ _ _ _ _

theorem s0_v1 : after hostOps0 V (Proc.devRef .tc main_v1) = Cert.ReferenceIdeal.Ops.srcOf (F := Ideal) (V (Proc.devRef .tc main_arg1)) := by read_stretch
theorem s0_v3 : after hostOps0 V (Proc.devRef .tc main_v3) = Cert.ReferenceIdeal.Ops.dstOf (F := Ideal) (V (Proc.devRef .tc main_arg1)) := by read_stretch
theorem s0_v4 : after hostOps0 V (Proc.devRef .tc main_v4) = transpose S3x128x128 [0, 2, 1] (V (Proc.devRef .tc main_arg2)) transposes_S3x128x128_S3x128x128_0_2_1 := by read_stretch
theorem s0_v5 : after hostOps0 V (Proc.devRef .tc main_v5) = transpose S3x128x128 [0, 2, 1] (V (Proc.devRef .tc main_arg4)) transposes_S3x128x128_S3x128x128_0_2_1 := by read_stretch
theorem s0_v15 : after hostOps0 V (Proc.devRef .tc main_v15) =
    Cert.ReferenceIdeal.Ops.agg (F := Ideal) (Cert.ReferenceIdeal.Ops.srcOf (F := Ideal) (V (Proc.devRef .tc main_arg1))) (Cert.ReferenceIdeal.Ops.dstOf (F := Ideal) (V (Proc.devRef .tc main_arg1))) (V (Proc.devRef .tc main_arg0)) := by read_stretch
theorem s0_v17 : after hostOps0 V (Proc.devRef .tc main_v17) = Cert.ReferenceIdeal.Ops.wSlice (F := Ideal) 0 Cert.ReferenceIdeal.Gen.slices_S3x128x128_S1x128x128_0_0_0 (V (Proc.devRef .tc main_arg2)) := by
  have e : after hostOps0 V (Proc.devRef .tc main_v17) = kcut 0 slices_S3x128x128_S1x128x128_0_0_0
      (transpose S3x128x128 [0, 2, 1] (V (Proc.devRef .tc main_arg2)) transposes_S3x128x128_S3x128x128_0_2_1) := by read_stretch
  rw [e, kcut_transposed 0 (by decide)]
theorem s0_v21 : after hostOps0 V (Proc.devRef .tc main_v21) = Cert.ReferenceIdeal.Ops.wSlice (F := Ideal) 0 Cert.ReferenceIdeal.Gen.slices_S3x128x128_S1x128x128_0_0_0 (V (Proc.devRef .tc main_arg4)) := by
  have e : after hostOps0 V (Proc.devRef .tc main_v21) = kcut 0 slices_S3x128x128_S1x128x128_0_0_0
      (transpose S3x128x128 [0, 2, 1] (V (Proc.devRef .tc main_arg4)) transposes_S3x128x128_S3x128x128_0_2_1) := by read_stretch
  rw [e, kcut_transposed 0 (by decide)]
theorem s0_v19 : after hostOps0 V (Proc.devRef .tc main_v19) = Cert.ReferenceIdeal.Ops.bSlice (F := Ideal) 0 Cert.ReferenceIdeal.Gen.slices_S3x128_S1x128_0_0 (V (Proc.devRef .tc main_arg3)) := by read_stretch
theorem s0_v23 : after hostOps0 V (Proc.devRef .tc main_v23) = Cert.ReferenceIdeal.Ops.bSlice (F := Ideal) 0 Cert.ReferenceIdeal.Gen.slices_S3x128_S1x128_0_0 (V (Proc.devRef .tc main_arg5)) := by read_stretch

theorem s1_agg : after hostOps1 V (Proc.devRef .tc main_v34) = Cert.ReferenceIdeal.Ops.agg (F := Ideal) (V (Proc.devRef .tc main_v1)) (V (Proc.devRef .tc main_v3)) (V (Proc.devRef .tc main_v24)) := by read_stretch
theorem s1_wl : after hostOps1 V (Proc.devRef .tc main_v36) = kcut 1 slices_S3x128x128_S1x128x128_1_0_0 (V (Proc.devRef .tc main_v4)) := by read_stretch
theorem s1_wr : after hostOps1 V (Proc.devRef .tc main_v40) = kcut 1 slices_S3x128x128_S1x128x128_1_0_0 (V (Proc.devRef .tc main_v5)) := by read_stretch
theorem s1_bl : after hostOps1 V (Proc.devRef .tc main_v38) = Cert.ReferenceIdeal.Ops.bSlice (F := Ideal) 1 Cert.ReferenceIdeal.Gen.slices_S3x128_S1x128_1_0 (V (Proc.devRef .tc main_arg3)) := by read_stretch
theorem s1_br : after hostOps1 V (Proc.devRef .tc main_v42) = Cert.ReferenceIdeal.Ops.bSlice (F := Ideal) 1 Cert.ReferenceIdeal.Gen.slices_S3x128_S1x128_1_0 (V (Proc.devRef .tc main_arg5)) := by read_stretch

theorem s2_agg : after hostOps2 V (Proc.devRef .tc main_v53) = Cert.ReferenceIdeal.Ops.agg (F := Ideal) (V (Proc.devRef .tc main_v1)) (V (Proc.devRef .tc main_v3)) (V (Proc.devRef .tc main_v43)) := by read_stretch
theorem s2_wl : after hostOps2 V (Proc.devRef .tc main_v55) = kcut 2 slices_S3x128x128_S1x128x128_2_0_0 (V (Proc.devRef .tc main_v4)) := by read_stretch
theorem s2_wr : after hostOps2 V (Proc.devRef .tc main_v59) = kcut 2 slices_S3x128x128_S1x128x128_2_0_0 (V (Proc.devRef .tc main_v5)) := by read_stretch
theorem s2_bl : after hostOps2 V (Proc.devRef .tc main_v57) = Cert.ReferenceIdeal.Ops.bSlice (F := Ideal) 2 Cert.ReferenceIdeal.Gen.slices_S3x128_S1x128_2_0 (V (Proc.devRef .tc main_arg3)) := by read_stretch
theorem s2_br : after hostOps2 V (Proc.devRef .tc main_v61) = Cert.ReferenceIdeal.Ops.bSlice (F := Ideal) 2 Cert.ReferenceIdeal.Gen.slices_S3x128_S1x128_2_0 (V (Proc.devRef .tc main_arg5)) := by read_stretch

theorem s3_w1 : after hostOps3 V (Proc.devRef .tc main_v63) = transpose S128x128 [1, 0] (V (Proc.devRef .tc main_arg6)) transposes_S128x128_S128x128_1_0 := by read_stretch_small
theorem s3_w2 : after hostOps3 V (Proc.devRef .tc main_v64) = transpose S128x40 [1, 0] (V (Proc.devRef .tc main_arg8)) transposes_S40x128_S128x40_1_0 := by read_stretch_small

/-! The buffers a stretch leaves as they were. -/
theorem u0_arg0 : after hostOps0 V (Proc.devRef .tc main_arg0) = V (Proc.devRef .tc main_arg0) := by unwritten hostOps0
theorem u0_arg1 : after hostOps0 V (Proc.devRef .tc main_arg1) = V (Proc.devRef .tc main_arg1) := by unwritten hostOps0
theorem u0_arg2 : after hostOps0 V (Proc.devRef .tc main_arg2) = V (Proc.devRef .tc main_arg2) := by unwritten hostOps0
theorem u0_arg3 : after hostOps0 V (Proc.devRef .tc main_arg3) = V (Proc.devRef .tc main_arg3) := by unwritten hostOps0
theorem u0_arg4 : after hostOps0 V (Proc.devRef .tc main_arg4) = V (Proc.devRef .tc main_arg4) := by unwritten hostOps0
theorem u0_arg5 : after hostOps0 V (Proc.devRef .tc main_arg5) = V (Proc.devRef .tc main_arg5) := by unwritten hostOps0
theorem u0_arg6 : after hostOps0 V (Proc.devRef .tc main_arg6) = V (Proc.devRef .tc main_arg6) := by unwritten hostOps0
theorem u0_arg7 : after hostOps0 V (Proc.devRef .tc main_arg7) = V (Proc.devRef .tc main_arg7) := by unwritten hostOps0
theorem u0_arg8 : after hostOps0 V (Proc.devRef .tc main_arg8) = V (Proc.devRef .tc main_arg8) := by unwritten hostOps0
theorem u0_arg9 : after hostOps0 V (Proc.devRef .tc main_arg9) = V (Proc.devRef .tc main_arg9) := by unwritten hostOps0
theorem u1_v24 : after hostOps1 V (Proc.devRef .tc main_v24) = V (Proc.devRef .tc main_v24) := by unwritten hostOps1
theorem u1_v1 : after hostOps1 V (Proc.devRef .tc main_v1) = V (Proc.devRef .tc main_v1) := by unwritten hostOps1
theorem u1_v3 : after hostOps1 V (Proc.devRef .tc main_v3) = V (Proc.devRef .tc main_v3) := by unwritten hostOps1
theorem u1_v4 : after hostOps1 V (Proc.devRef .tc main_v4) = V (Proc.devRef .tc main_v4) := by unwritten hostOps1
theorem u1_v5 : after hostOps1 V (Proc.devRef .tc main_v5) = V (Proc.devRef .tc main_v5) := by unwritten hostOps1
theorem u1_arg3 : after hostOps1 V (Proc.devRef .tc main_arg3) = V (Proc.devRef .tc main_arg3) := by unwritten hostOps1
theorem u1_arg5 : after hostOps1 V (Proc.devRef .tc main_arg5) = V (Proc.devRef .tc main_arg5) := by unwritten hostOps1
theorem u1_arg6 : after hostOps1 V (Proc.devRef .tc main_arg6) = V (Proc.devRef .tc main_arg6) := by unwritten hostOps1
theorem u1_arg7 : after hostOps1 V (Proc.devRef .tc main_arg7) = V (Proc.devRef .tc main_arg7) := by unwritten hostOps1
theorem u1_arg8 : after hostOps1 V (Proc.devRef .tc main_arg8) = V (Proc.devRef .tc main_arg8) := by unwritten hostOps1
theorem u1_arg9 : after hostOps1 V (Proc.devRef .tc main_arg9) = V (Proc.devRef .tc main_arg9) := by unwritten hostOps1
theorem u2_v43 : after hostOps2 V (Proc.devRef .tc main_v43) = V (Proc.devRef .tc main_v43) := by unwritten hostOps2
theorem u2_v1 : after hostOps2 V (Proc.devRef .tc main_v1) = V (Proc.devRef .tc main_v1) := by unwritten hostOps2
theorem u2_v3 : after hostOps2 V (Proc.devRef .tc main_v3) = V (Proc.devRef .tc main_v3) := by unwritten hostOps2
theorem u2_v4 : after hostOps2 V (Proc.devRef .tc main_v4) = V (Proc.devRef .tc main_v4) := by unwritten hostOps2
theorem u2_v5 : after hostOps2 V (Proc.devRef .tc main_v5) = V (Proc.devRef .tc main_v5) := by unwritten hostOps2
theorem u2_arg3 : after hostOps2 V (Proc.devRef .tc main_arg3) = V (Proc.devRef .tc main_arg3) := by unwritten hostOps2
theorem u2_arg5 : after hostOps2 V (Proc.devRef .tc main_arg5) = V (Proc.devRef .tc main_arg5) := by unwritten hostOps2
theorem u2_arg6 : after hostOps2 V (Proc.devRef .tc main_arg6) = V (Proc.devRef .tc main_arg6) := by unwritten hostOps2
theorem u2_arg7 : after hostOps2 V (Proc.devRef .tc main_arg7) = V (Proc.devRef .tc main_arg7) := by unwritten hostOps2
theorem u2_arg8 : after hostOps2 V (Proc.devRef .tc main_arg8) = V (Proc.devRef .tc main_arg8) := by unwritten hostOps2
theorem u2_arg9 : after hostOps2 V (Proc.devRef .tc main_arg9) = V (Proc.devRef .tc main_arg9) := by unwritten hostOps2
theorem u3_v62 : after hostOps3 V (Proc.devRef .tc main_v62) = V (Proc.devRef .tc main_v62) := by unwritten hostOps3
theorem u3_arg7 : after hostOps3 V (Proc.devRef .tc main_arg7) = V (Proc.devRef .tc main_arg7) := by unwritten hostOps3
theorem u3_arg9 : after hostOps3 V (Proc.devRef .tc main_arg9) = V (Proc.devRef .tc main_arg9) := by unwritten hostOps3

end Stretches

/-! ## The run's boundaries, read -/

section Chain

variable (m : (ℓ : Loc nD τ sig) → Buf (Elt Ideal) ℓ) (ρ : Dev nD → PrngReg) (c : Dev nD)

/-- The source and target rows of the edge list. -/
abbrev srcs : (⟨Cert.ReferenceIdeal.S1600000, .i32⟩ : BufTy).Contents (Elt Ideal) := Cert.ReferenceIdeal.Ops.srcOf (F := Ideal) (m ((c : Thread nD τ).loc main_arg1))
abbrev dsts : (⟨Cert.ReferenceIdeal.S1600000, .i32⟩ : BufTy).Contents (Elt Ideal) := Cert.ReferenceIdeal.Ops.dstOf (F := Ideal) (m ((c : Thread nD τ).loc main_arg1))

/-- The three layers' outputs. -/
def lay1 : (⟨Cert.ReferenceIdeal.S100000x128, .f32⟩ : BufTy).Contents (Elt Ideal) :=
  Gnn.layer (a := 100000) (m ((c : Thread nD τ).loc main_arg0)) (Cert.ReferenceIdeal.Ops.agg (F := Ideal) (srcs m c) (dsts m c) (m ((c : Thread nD τ).loc main_arg0))) (Cert.ReferenceIdeal.Ops.wSlice (F := Ideal) 0 Cert.ReferenceIdeal.Gen.slices_S3x128x128_S1x128x128_0_0_0 (m ((c : Thread nD τ).loc main_arg2))) (Cert.ReferenceIdeal.Ops.wSlice (F := Ideal) 0 Cert.ReferenceIdeal.Gen.slices_S3x128x128_S1x128x128_0_0_0 (m ((c : Thread nD τ).loc main_arg4))) (Cert.ReferenceIdeal.Ops.bSlice (F := Ideal) 0 Cert.ReferenceIdeal.Gen.slices_S3x128_S1x128_0_0 (m ((c : Thread nD τ).loc main_arg3))) (Cert.ReferenceIdeal.Ops.bSlice (F := Ideal) 0 Cert.ReferenceIdeal.Gen.slices_S3x128_S1x128_0_0 (m ((c : Thread nD τ).loc main_arg5)))
def lay2 : (⟨Cert.ReferenceIdeal.S100000x128, .f32⟩ : BufTy).Contents (Elt Ideal) :=
  Gnn.layer (a := 100000) (lay1 m c) (Cert.ReferenceIdeal.Ops.agg (F := Ideal) (srcs m c) (dsts m c) (lay1 m c)) (Cert.ReferenceIdeal.Ops.wSlice (F := Ideal) 1 Cert.ReferenceIdeal.Gen.slices_S3x128x128_S1x128x128_1_0_0 (m ((c : Thread nD τ).loc main_arg2))) (Cert.ReferenceIdeal.Ops.wSlice (F := Ideal) 1 Cert.ReferenceIdeal.Gen.slices_S3x128x128_S1x128x128_1_0_0 (m ((c : Thread nD τ).loc main_arg4))) (Cert.ReferenceIdeal.Ops.bSlice (F := Ideal) 1 Cert.ReferenceIdeal.Gen.slices_S3x128_S1x128_1_0 (m ((c : Thread nD τ).loc main_arg3))) (Cert.ReferenceIdeal.Ops.bSlice (F := Ideal) 1 Cert.ReferenceIdeal.Gen.slices_S3x128_S1x128_1_0 (m ((c : Thread nD τ).loc main_arg5)))
def lay3 : (⟨Cert.ReferenceIdeal.S100000x128, .f32⟩ : BufTy).Contents (Elt Ideal) :=
  Gnn.layer (a := 100000) (lay2 m c) (Cert.ReferenceIdeal.Ops.agg (F := Ideal) (srcs m c) (dsts m c) (lay2 m c)) (Cert.ReferenceIdeal.Ops.wSlice (F := Ideal) 2 Cert.ReferenceIdeal.Gen.slices_S3x128x128_S1x128x128_2_0_0 (m ((c : Thread nD τ).loc main_arg2))) (Cert.ReferenceIdeal.Ops.wSlice (F := Ideal) 2 Cert.ReferenceIdeal.Gen.slices_S3x128x128_S1x128x128_2_0_0 (m ((c : Thread nD τ).loc main_arg4))) (Cert.ReferenceIdeal.Ops.bSlice (F := Ideal) 2 Cert.ReferenceIdeal.Gen.slices_S3x128_S1x128_2_0 (m ((c : Thread nD τ).loc main_arg3))) (Cert.ReferenceIdeal.Ops.bSlice (F := Ideal) 2 Cert.ReferenceIdeal.Gen.slices_S3x128_S1x128_2_0 (m ((c : Thread nD τ).loc main_arg5)))

/-! After the first stretch. -/
theorem w1_v1 : W1 m ρ c (Proc.devRef .tc main_v1) = srcs m c := s0_v1 (W0 m ρ c)
theorem w1_v3 : W1 m ρ c (Proc.devRef .tc main_v3) = dsts m c := s0_v3 (W0 m ρ c)
theorem w1_v4 : W1 m ρ c (Proc.devRef .tc main_v4) = transpose S3x128x128 [0, 2, 1] (m ((c : Thread nD τ).loc main_arg2)) transposes_S3x128x128_S3x128x128_0_2_1 := s0_v4 (W0 m ρ c)
theorem w1_v5 : W1 m ρ c (Proc.devRef .tc main_v5) = transpose S3x128x128 [0, 2, 1] (m ((c : Thread nD τ).loc main_arg4)) transposes_S3x128x128_S3x128x128_0_2_1 := s0_v5 (W0 m ρ c)
theorem w1_arg3 : W1 m ρ c (Proc.devRef .tc main_arg3) = m ((c : Thread nD τ).loc main_arg3) := u0_arg3 (W0 m ρ c)
theorem w1_arg5 : W1 m ρ c (Proc.devRef .tc main_arg5) = m ((c : Thread nD τ).loc main_arg5) := u0_arg5 (W0 m ρ c)
theorem w1_arg6 : W1 m ρ c (Proc.devRef .tc main_arg6) = m ((c : Thread nD τ).loc main_arg6) := u0_arg6 (W0 m ρ c)
theorem w1_arg7 : W1 m ρ c (Proc.devRef .tc main_arg7) = m ((c : Thread nD τ).loc main_arg7) := u0_arg7 (W0 m ρ c)
theorem w1_arg8 : W1 m ρ c (Proc.devRef .tc main_arg8) = m ((c : Thread nD τ).loc main_arg8) := u0_arg8 (W0 m ρ c)
theorem w1_arg9 : W1 m ρ c (Proc.devRef .tc main_arg9) = m ((c : Thread nD τ).loc main_arg9) := u0_arg9 (W0 m ρ c)
theorem w1_arg0 : W1 m ρ c (Proc.devRef .tc main_arg0) = m ((c : Thread nD τ).loc main_arg0) := u0_arg0 (W0 m ρ c)
theorem w1_v15 : W1 m ρ c (Proc.devRef .tc main_v15) = Cert.ReferenceIdeal.Ops.agg (F := Ideal) (srcs m c) (dsts m c) (m ((c : Thread nD τ).loc main_arg0)) := s0_v15 (W0 m ρ c)
theorem w1_v17 : W1 m ρ c (Proc.devRef .tc main_v17) = Cert.ReferenceIdeal.Ops.wSlice (F := Ideal) 0 Cert.ReferenceIdeal.Gen.slices_S3x128x128_S1x128x128_0_0_0 (m ((c : Thread nD τ).loc main_arg2)) := s0_v17 (W0 m ρ c)
theorem w1_v21 : W1 m ρ c (Proc.devRef .tc main_v21) = Cert.ReferenceIdeal.Ops.wSlice (F := Ideal) 0 Cert.ReferenceIdeal.Gen.slices_S3x128x128_S1x128x128_0_0_0 (m ((c : Thread nD τ).loc main_arg4)) := s0_v21 (W0 m ρ c)
theorem w1_v19 : W1 m ρ c (Proc.devRef .tc main_v19) = Cert.ReferenceIdeal.Ops.bSlice (F := Ideal) 0 Cert.ReferenceIdeal.Gen.slices_S3x128_S1x128_0_0 (m ((c : Thread nD τ).loc main_arg3)) := s0_v19 (W0 m ρ c)
theorem w1_v23 : W1 m ρ c (Proc.devRef .tc main_v23) = Cert.ReferenceIdeal.Ops.bSlice (F := Ideal) 0 Cert.ReferenceIdeal.Gen.slices_S3x128_S1x128_0_0 (m ((c : Thread nD τ).loc main_arg5)) := s0_v23 (W0 m ρ c)

/-! Region 0 leaves the first layer's output. -/
theorem w2_out : W2 m ρ c (Proc.devRef .tc main_v24) = lay1 m c := by
  refine (W2_arr m ρ c 6).trans ((Reg0.final0 (V1 m ρ) c).trans ?_)
  show Gnn.layer (a := 100000) (W1 m ρ c (Proc.devRef .tc main_arg0)) (W1 m ρ c (Proc.devRef .tc main_v15)) (W1 m ρ c (Proc.devRef .tc main_v17)) (W1 m ρ c (Proc.devRef .tc main_v21)) (W1 m ρ c (Proc.devRef .tc main_v19)) (W1 m ρ c (Proc.devRef .tc main_v23)) = _
  rw [w1_arg0, w1_v15, w1_v17, w1_v21, w1_v19, w1_v23]
  rfl
theorem w2_v1 : W2 m ρ c (Proc.devRef .tc main_v1) = srcs m c := (W2_of_ne m ρ c main_v1 (by decide)).trans (w1_v1 m ρ c)
theorem w2_v3 : W2 m ρ c (Proc.devRef .tc main_v3) = dsts m c := (W2_of_ne m ρ c main_v3 (by decide)).trans (w1_v3 m ρ c)
theorem w2_v4 : W2 m ρ c (Proc.devRef .tc main_v4) = transpose S3x128x128 [0, 2, 1] (m ((c : Thread nD τ).loc main_arg2)) transposes_S3x128x128_S3x128x128_0_2_1 := (W2_of_ne m ρ c main_v4 (by decide)).trans (w1_v4 m ρ c)
theorem w2_v5 : W2 m ρ c (Proc.devRef .tc main_v5) = transpose S3x128x128 [0, 2, 1] (m ((c : Thread nD τ).loc main_arg4)) transposes_S3x128x128_S3x128x128_0_2_1 := (W2_of_ne m ρ c main_v5 (by decide)).trans (w1_v5 m ρ c)
theorem w2_arg3 : W2 m ρ c (Proc.devRef .tc main_arg3) = m ((c : Thread nD τ).loc main_arg3) := (W2_of_ne m ρ c main_arg3 (by decide)).trans (w1_arg3 m ρ c)
theorem w2_arg5 : W2 m ρ c (Proc.devRef .tc main_arg5) = m ((c : Thread nD τ).loc main_arg5) := (W2_of_ne m ρ c main_arg5 (by decide)).trans (w1_arg5 m ρ c)
theorem w2_arg6 : W2 m ρ c (Proc.devRef .tc main_arg6) = m ((c : Thread nD τ).loc main_arg6) := (W2_of_ne m ρ c main_arg6 (by decide)).trans (w1_arg6 m ρ c)
theorem w2_arg7 : W2 m ρ c (Proc.devRef .tc main_arg7) = m ((c : Thread nD τ).loc main_arg7) := (W2_of_ne m ρ c main_arg7 (by decide)).trans (w1_arg7 m ρ c)
theorem w2_arg8 : W2 m ρ c (Proc.devRef .tc main_arg8) = m ((c : Thread nD τ).loc main_arg8) := (W2_of_ne m ρ c main_arg8 (by decide)).trans (w1_arg8 m ρ c)
theorem w2_arg9 : W2 m ρ c (Proc.devRef .tc main_arg9) = m ((c : Thread nD τ).loc main_arg9) := (W2_of_ne m ρ c main_arg9 (by decide)).trans (w1_arg9 m ρ c)

/-! After the stretch that follows, and region 1. -/
theorem w3_v1 : W3 m ρ c (Proc.devRef .tc main_v1) = srcs m c := (u1_v1 (W2 m ρ c)).trans (w2_v1 m ρ c)
theorem w3_v3 : W3 m ρ c (Proc.devRef .tc main_v3) = dsts m c := (u1_v3 (W2 m ρ c)).trans (w2_v3 m ρ c)
theorem w3_v4 : W3 m ρ c (Proc.devRef .tc main_v4) = transpose S3x128x128 [0, 2, 1] (m ((c : Thread nD τ).loc main_arg2)) transposes_S3x128x128_S3x128x128_0_2_1 := (u1_v4 (W2 m ρ c)).trans (w2_v4 m ρ c)
theorem w3_v5 : W3 m ρ c (Proc.devRef .tc main_v5) = transpose S3x128x128 [0, 2, 1] (m ((c : Thread nD τ).loc main_arg4)) transposes_S3x128x128_S3x128x128_0_2_1 := (u1_v5 (W2 m ρ c)).trans (w2_v5 m ρ c)
theorem w3_arg3 : W3 m ρ c (Proc.devRef .tc main_arg3) = m ((c : Thread nD τ).loc main_arg3) := (u1_arg3 (W2 m ρ c)).trans (w2_arg3 m ρ c)
theorem w3_arg5 : W3 m ρ c (Proc.devRef .tc main_arg5) = m ((c : Thread nD τ).loc main_arg5) := (u1_arg5 (W2 m ρ c)).trans (w2_arg5 m ρ c)
theorem w3_arg6 : W3 m ρ c (Proc.devRef .tc main_arg6) = m ((c : Thread nD τ).loc main_arg6) := (u1_arg6 (W2 m ρ c)).trans (w2_arg6 m ρ c)
theorem w3_arg7 : W3 m ρ c (Proc.devRef .tc main_arg7) = m ((c : Thread nD τ).loc main_arg7) := (u1_arg7 (W2 m ρ c)).trans (w2_arg7 m ρ c)
theorem w3_arg8 : W3 m ρ c (Proc.devRef .tc main_arg8) = m ((c : Thread nD τ).loc main_arg8) := (u1_arg8 (W2 m ρ c)).trans (w2_arg8 m ρ c)
theorem w3_arg9 : W3 m ρ c (Proc.devRef .tc main_arg9) = m ((c : Thread nD τ).loc main_arg9) := (u1_arg9 (W2 m ρ c)).trans (w2_arg9 m ρ c)
theorem w3_h : W3 m ρ c (Proc.devRef .tc main_v24) = lay1 m c := (u1_v24 (W2 m ρ c)).trans (w2_out m ρ c)
theorem w3_agg : W3 m ρ c (Proc.devRef .tc main_v34) = Cert.ReferenceIdeal.Ops.agg (F := Ideal) (srcs m c) (dsts m c) (lay1 m c) :=
  (s1_agg (W2 m ρ c)).trans (by rw [w2_v1, w2_v3, w2_out])
theorem w3_wl : W3 m ρ c (Proc.devRef .tc main_v36) = Cert.ReferenceIdeal.Ops.wSlice (F := Ideal) 1 Cert.ReferenceIdeal.Gen.slices_S3x128x128_S1x128x128_1_0_0 (m ((c : Thread nD τ).loc main_arg2)) :=
  (s1_wl (W2 m ρ c)).trans (by rw [w2_v4, kcut_transposed 1 (by decide)])
theorem w3_wr : W3 m ρ c (Proc.devRef .tc main_v40) = Cert.ReferenceIdeal.Ops.wSlice (F := Ideal) 1 Cert.ReferenceIdeal.Gen.slices_S3x128x128_S1x128x128_1_0_0 (m ((c : Thread nD τ).loc main_arg4)) :=
  (s1_wr (W2 m ρ c)).trans (by rw [w2_v5, kcut_transposed 1 (by decide)])
theorem w3_bl : W3 m ρ c (Proc.devRef .tc main_v38) = Cert.ReferenceIdeal.Ops.bSlice (F := Ideal) 1 Cert.ReferenceIdeal.Gen.slices_S3x128_S1x128_1_0 (m ((c : Thread nD τ).loc main_arg3)) := (s1_bl (W2 m ρ c)).trans (by rw [w2_arg3])
theorem w3_br : W3 m ρ c (Proc.devRef .tc main_v42) = Cert.ReferenceIdeal.Ops.bSlice (F := Ideal) 1 Cert.ReferenceIdeal.Gen.slices_S3x128_S1x128_1_0 (m ((c : Thread nD τ).loc main_arg5)) := (s1_br (W2 m ρ c)).trans (by rw [w2_arg5])
theorem w4_out : W4 m ρ c (Proc.devRef .tc main_v43) = lay2 m c := by
  refine (W4_arr m ρ c 6).trans ((Reg1.final1 (V3 m ρ) c).trans ?_)
  show Gnn.layer (a := 100000) (W3 m ρ c (Proc.devRef .tc main_v24)) (W3 m ρ c (Proc.devRef .tc main_v34)) (W3 m ρ c (Proc.devRef .tc main_v36)) (W3 m ρ c (Proc.devRef .tc main_v40)) (W3 m ρ c (Proc.devRef .tc main_v38)) (W3 m ρ c (Proc.devRef .tc main_v42)) = _
  rw [w3_h, w3_agg, w3_wl, w3_wr, w3_bl, w3_br]
  rfl
theorem w4_v1 : W4 m ρ c (Proc.devRef .tc main_v1) = srcs m c := (W4_of_ne m ρ c main_v1 (by decide)).trans (w3_v1 m ρ c)
theorem w4_v3 : W4 m ρ c (Proc.devRef .tc main_v3) = dsts m c := (W4_of_ne m ρ c main_v3 (by decide)).trans (w3_v3 m ρ c)
theorem w4_v4 : W4 m ρ c (Proc.devRef .tc main_v4) = transpose S3x128x128 [0, 2, 1] (m ((c : Thread nD τ).loc main_arg2)) transposes_S3x128x128_S3x128x128_0_2_1 := (W4_of_ne m ρ c main_v4 (by decide)).trans (w3_v4 m ρ c)
theorem w4_v5 : W4 m ρ c (Proc.devRef .tc main_v5) = transpose S3x128x128 [0, 2, 1] (m ((c : Thread nD τ).loc main_arg4)) transposes_S3x128x128_S3x128x128_0_2_1 := (W4_of_ne m ρ c main_v5 (by decide)).trans (w3_v5 m ρ c)
theorem w4_arg3 : W4 m ρ c (Proc.devRef .tc main_arg3) = m ((c : Thread nD τ).loc main_arg3) := (W4_of_ne m ρ c main_arg3 (by decide)).trans (w3_arg3 m ρ c)
theorem w4_arg5 : W4 m ρ c (Proc.devRef .tc main_arg5) = m ((c : Thread nD τ).loc main_arg5) := (W4_of_ne m ρ c main_arg5 (by decide)).trans (w3_arg5 m ρ c)
theorem w4_arg6 : W4 m ρ c (Proc.devRef .tc main_arg6) = m ((c : Thread nD τ).loc main_arg6) := (W4_of_ne m ρ c main_arg6 (by decide)).trans (w3_arg6 m ρ c)
theorem w4_arg7 : W4 m ρ c (Proc.devRef .tc main_arg7) = m ((c : Thread nD τ).loc main_arg7) := (W4_of_ne m ρ c main_arg7 (by decide)).trans (w3_arg7 m ρ c)
theorem w4_arg8 : W4 m ρ c (Proc.devRef .tc main_arg8) = m ((c : Thread nD τ).loc main_arg8) := (W4_of_ne m ρ c main_arg8 (by decide)).trans (w3_arg8 m ρ c)
theorem w4_arg9 : W4 m ρ c (Proc.devRef .tc main_arg9) = m ((c : Thread nD τ).loc main_arg9) := (W4_of_ne m ρ c main_arg9 (by decide)).trans (w3_arg9 m ρ c)

/-! After the stretch that follows, and region 2. -/
theorem w5_v1 : W5 m ρ c (Proc.devRef .tc main_v1) = srcs m c := (u2_v1 (W4 m ρ c)).trans (w4_v1 m ρ c)
theorem w5_v3 : W5 m ρ c (Proc.devRef .tc main_v3) = dsts m c := (u2_v3 (W4 m ρ c)).trans (w4_v3 m ρ c)
theorem w5_v4 : W5 m ρ c (Proc.devRef .tc main_v4) = transpose S3x128x128 [0, 2, 1] (m ((c : Thread nD τ).loc main_arg2)) transposes_S3x128x128_S3x128x128_0_2_1 := (u2_v4 (W4 m ρ c)).trans (w4_v4 m ρ c)
theorem w5_v5 : W5 m ρ c (Proc.devRef .tc main_v5) = transpose S3x128x128 [0, 2, 1] (m ((c : Thread nD τ).loc main_arg4)) transposes_S3x128x128_S3x128x128_0_2_1 := (u2_v5 (W4 m ρ c)).trans (w4_v5 m ρ c)
theorem w5_arg3 : W5 m ρ c (Proc.devRef .tc main_arg3) = m ((c : Thread nD τ).loc main_arg3) := (u2_arg3 (W4 m ρ c)).trans (w4_arg3 m ρ c)
theorem w5_arg5 : W5 m ρ c (Proc.devRef .tc main_arg5) = m ((c : Thread nD τ).loc main_arg5) := (u2_arg5 (W4 m ρ c)).trans (w4_arg5 m ρ c)
theorem w5_arg6 : W5 m ρ c (Proc.devRef .tc main_arg6) = m ((c : Thread nD τ).loc main_arg6) := (u2_arg6 (W4 m ρ c)).trans (w4_arg6 m ρ c)
theorem w5_arg7 : W5 m ρ c (Proc.devRef .tc main_arg7) = m ((c : Thread nD τ).loc main_arg7) := (u2_arg7 (W4 m ρ c)).trans (w4_arg7 m ρ c)
theorem w5_arg8 : W5 m ρ c (Proc.devRef .tc main_arg8) = m ((c : Thread nD τ).loc main_arg8) := (u2_arg8 (W4 m ρ c)).trans (w4_arg8 m ρ c)
theorem w5_arg9 : W5 m ρ c (Proc.devRef .tc main_arg9) = m ((c : Thread nD τ).loc main_arg9) := (u2_arg9 (W4 m ρ c)).trans (w4_arg9 m ρ c)
theorem w5_h : W5 m ρ c (Proc.devRef .tc main_v43) = lay2 m c := (u2_v43 (W4 m ρ c)).trans (w4_out m ρ c)
theorem w5_agg : W5 m ρ c (Proc.devRef .tc main_v53) = Cert.ReferenceIdeal.Ops.agg (F := Ideal) (srcs m c) (dsts m c) (lay2 m c) :=
  (s2_agg (W4 m ρ c)).trans (by rw [w4_v1, w4_v3, w4_out])
theorem w5_wl : W5 m ρ c (Proc.devRef .tc main_v55) = Cert.ReferenceIdeal.Ops.wSlice (F := Ideal) 2 Cert.ReferenceIdeal.Gen.slices_S3x128x128_S1x128x128_2_0_0 (m ((c : Thread nD τ).loc main_arg2)) :=
  (s2_wl (W4 m ρ c)).trans (by rw [w4_v4, kcut_transposed 2 (by decide)])
theorem w5_wr : W5 m ρ c (Proc.devRef .tc main_v59) = Cert.ReferenceIdeal.Ops.wSlice (F := Ideal) 2 Cert.ReferenceIdeal.Gen.slices_S3x128x128_S1x128x128_2_0_0 (m ((c : Thread nD τ).loc main_arg4)) :=
  (s2_wr (W4 m ρ c)).trans (by rw [w4_v5, kcut_transposed 2 (by decide)])
theorem w5_bl : W5 m ρ c (Proc.devRef .tc main_v57) = Cert.ReferenceIdeal.Ops.bSlice (F := Ideal) 2 Cert.ReferenceIdeal.Gen.slices_S3x128_S1x128_2_0 (m ((c : Thread nD τ).loc main_arg3)) := (s2_bl (W4 m ρ c)).trans (by rw [w4_arg3])
theorem w5_br : W5 m ρ c (Proc.devRef .tc main_v61) = Cert.ReferenceIdeal.Ops.bSlice (F := Ideal) 2 Cert.ReferenceIdeal.Gen.slices_S3x128_S1x128_2_0 (m ((c : Thread nD τ).loc main_arg5)) := (s2_br (W4 m ρ c)).trans (by rw [w4_arg5])
theorem w6_out : W6 m ρ c (Proc.devRef .tc main_v62) = lay3 m c := by
  refine (W6_arr m ρ c 6).trans ((Reg2.final2 (V5 m ρ) c).trans ?_)
  show Gnn.layer (a := 100000) (W5 m ρ c (Proc.devRef .tc main_v43)) (W5 m ρ c (Proc.devRef .tc main_v53)) (W5 m ρ c (Proc.devRef .tc main_v55)) (W5 m ρ c (Proc.devRef .tc main_v59)) (W5 m ρ c (Proc.devRef .tc main_v57)) (W5 m ρ c (Proc.devRef .tc main_v61)) = _
  rw [w5_h, w5_agg, w5_wl, w5_wr, w5_bl, w5_br]
  rfl
theorem w6_v1 : W6 m ρ c (Proc.devRef .tc main_v1) = srcs m c := (W6_of_ne m ρ c main_v1 (by decide)).trans (w5_v1 m ρ c)
theorem w6_v3 : W6 m ρ c (Proc.devRef .tc main_v3) = dsts m c := (W6_of_ne m ρ c main_v3 (by decide)).trans (w5_v3 m ρ c)
theorem w6_v4 : W6 m ρ c (Proc.devRef .tc main_v4) = transpose S3x128x128 [0, 2, 1] (m ((c : Thread nD τ).loc main_arg2)) transposes_S3x128x128_S3x128x128_0_2_1 := (W6_of_ne m ρ c main_v4 (by decide)).trans (w5_v4 m ρ c)
theorem w6_v5 : W6 m ρ c (Proc.devRef .tc main_v5) = transpose S3x128x128 [0, 2, 1] (m ((c : Thread nD τ).loc main_arg4)) transposes_S3x128x128_S3x128x128_0_2_1 := (W6_of_ne m ρ c main_v5 (by decide)).trans (w5_v5 m ρ c)
theorem w6_arg3 : W6 m ρ c (Proc.devRef .tc main_arg3) = m ((c : Thread nD τ).loc main_arg3) := (W6_of_ne m ρ c main_arg3 (by decide)).trans (w5_arg3 m ρ c)
theorem w6_arg5 : W6 m ρ c (Proc.devRef .tc main_arg5) = m ((c : Thread nD τ).loc main_arg5) := (W6_of_ne m ρ c main_arg5 (by decide)).trans (w5_arg5 m ρ c)
theorem w6_arg6 : W6 m ρ c (Proc.devRef .tc main_arg6) = m ((c : Thread nD τ).loc main_arg6) := (W6_of_ne m ρ c main_arg6 (by decide)).trans (w5_arg6 m ρ c)
theorem w6_arg7 : W6 m ρ c (Proc.devRef .tc main_arg7) = m ((c : Thread nD τ).loc main_arg7) := (W6_of_ne m ρ c main_arg7 (by decide)).trans (w5_arg7 m ρ c)
theorem w6_arg8 : W6 m ρ c (Proc.devRef .tc main_arg8) = m ((c : Thread nD τ).loc main_arg8) := (W6_of_ne m ρ c main_arg8 (by decide)).trans (w5_arg8 m ρ c)
theorem w6_arg9 : W6 m ρ c (Proc.devRef .tc main_arg9) = m ((c : Thread nD τ).loc main_arg9) := (W6_of_ne m ρ c main_arg9 (by decide)).trans (w5_arg9 m ρ c)

/-! After the last stretch, and the closing region. -/
theorem w7_h : W7 m ρ c (Proc.devRef .tc main_v62) = lay3 m c := (u3_v62 (W6 m ρ c)).trans (w6_out m ρ c)
theorem w7_w1 : W7 m ρ c (Proc.devRef .tc main_v63) = transpose S128x128 [1, 0] (m ((c : Thread nD τ).loc main_arg6)) transposes_S128x128_S128x128_1_0 :=
  (s3_w1 (W6 m ρ c)).trans (by rw [w6_arg6])
theorem w7_w2 : W7 m ρ c (Proc.devRef .tc main_v64) = transpose S128x40 [1, 0] (m ((c : Thread nD τ).loc main_arg8)) transposes_S40x128_S128x40_1_0 :=
  (s3_w2 (W6 m ρ c)).trans (by rw [w6_arg8])
theorem w7_b1 : W7 m ρ c (Proc.devRef .tc main_arg7) = m ((c : Thread nD τ).loc main_arg7) := (u3_arg7 (W6 m ρ c)).trans (w6_arg7 m ρ c)
theorem w7_b2 : W7 m ρ c (Proc.devRef .tc main_arg9) = m ((c : Thread nD τ).loc main_arg9) := (u3_arg9 (W6 m ρ c)).trans (w6_arg9 m ρ c)

/-- THE RESULT: the last region leaves the network of the ten arguments in the result array. -/
theorem result_eq : W8 m ρ c (Proc.devRef .tc main_v65) = Cert.ReferenceIdeal.Ops.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W8_arr m ρ c 5).trans ((Reg3.final3 (V7 m ρ) c).trans ?_)
  show Gnn.post (a := 100000) (W7 m ρ c (Proc.devRef .tc main_v62)) (W7 m ρ c (Proc.devRef .tc main_v63)) (W7 m ρ c (Proc.devRef .tc main_arg7)) (W7 m ρ c (Proc.devRef .tc main_v64)) (W7 m ρ c (Proc.devRef .tc main_arg9)) = _
  rw [w7_h, w7_w1, w7_b1, w7_w2, w7_b2]
  rfl

end Chain

end Cert.KernelIdeal.Hand

end
-- ==== Proof.RefLayer.lean ====
/-
  One message-passing layer as the host spells it is the layer of the network's specification, entry by entry.

  The host's term is built from whole-array operations: two matrix products of an [100000, 128] array with a
  [128, 128] one, two bias vectors spread over the rows (a vector made a one-row matrix, the row repeated down the
  rows), three additions, then the normalisation: the entries squared and summed along each row, the sums made a
  column, the square root, the maximum with a column of the floor ε, the column repeated along the rows, the division,
  and last the maximum with the zero array.

  Read at the entry (p, q):  a matrix product is  Σ_k x(p, k)·w(k, q);  a spread bias is  b(q);  so the sum before the
  normalisation is  P(p, q) = ((Σ_k h(p, k)·wl(k, q) + bl(q)) + Σ_k g(p, k)·wr(k, q)) + br(q).  The row sum of squares
  starts from the value of the zero pattern, which is 0, so it is  Σ_k P(p, k)·P(p, k);  the repeated column reads its
  row's entry, the floor's pattern is ε by definition, and the zero array reads 0.  Together:
  max ( P(p, q) / max ( √(Σ_k P(p, k)²), ε ), 0 ),  which is the specification's entry.
-/
import proofs.«158836_j28750511079531_1_alg».proof.Proof.RefOps
import proofs.«158836_j28750511079531_1_alg».proof.Proof.LibMatmulIx
import proofs.«158836_j28750511079531_1_alg».proof.Proof.LibLayout

noncomputable section

namespace Cert.ReferenceIdeal.Hand

open Cert.ReferenceIdeal Cert.ReferenceIdeal.Gen Cert.ReferenceIdeal.Ops Idealize.ShloMosaic Idealize.ShloMosaic.ValueIdx
  Idealize.ShloMosaic.TcCoe Idealize.SL.Sem Idealize.ShloMosaic.StableHlo

/-! ## The host's pointwise operations at an index -/

theorem hostDivf_apply {s : Shape} {φ : FTy} (a b : FVec Ideal s φ) (i : s.Idx) : Host.divf a b i = Ideal.div (a i) (b i) := rfl

theorem hostSqrt_apply {s : Shape} {φ : FTy} (a : FVec Ideal s φ) (i : s.Idx) : Host.sqrt a i = Ideal.sqrt (a i) := rfl

theorem hostExp_apply {s : Shape} {φ : FTy} (a : FVec Ideal s φ) (i : s.Idx) : Host.exp a i = Ideal.exp (a i) := rfl

theorem hostLog_apply {s : Shape} {φ : FTy} (a : FVec Ideal s φ) (i : s.Idx) : Host.log a i = Ideal.log (a i) := rfl

/-! ## A sum along the rows, as the host spells it -/

/-- The host's sum along the rows of an `[a, b]` array of extended reals from the zero pattern, read at row `p`: the sum
    of the row's entries. -/
theorem hostRowSum_apply {a b : ℕ} (y : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduceAdd (F := Ideal) y (constant (F := Ideal) (⟨0, ![]⟩ : Shape) .f32 0x00000000#32) h' hu (ix1 p)
      = ∑ k : Fin b, y (ix2 p k) := by
  simp only [Host.reduceAdd, Ideal.hostReduceAdd_def]
  rw [Ideal.hostReduceAdd_single h' h]
  show Ideal.ofBits .f32 0x00000000#32 + _ = _
  rw [Ideal.ofBits_zero_f32, zero_add]
  exact Finset.sum_congr rfl fun k _ => congrArg y (Cert.Attn.Layout.lift_row h p k)

/-! ## The matrix products and the spread biases at an entry -/

theorem dotA_l0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

theorem dotA_l1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q

theorem dotA_r0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q

theorem dotA_r1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The host's product of an [100000, 128] array with a [128, 128] one at (p, q): the row times the column. -/
theorem dotA_ix2 (x : FVec Ideal S100000x128 .f32) (w : FVec Ideal S128x128 .f32) (p : Fin 100000) (q : Fin 128) :
    Host.dotGeneral (F := Ideal) dot_S100000x128_S128x128_S100000x128_1_0_0_1_n_n none x w (ix2 p q) = Gnn.dotRow x w p q :=
  MatmulIx.dotGeneral_ix2 dot_S100000x128_S128x128_S100000x128_1_0_0_1_n_n rfl rfl dotA_l0 dotA_l1 dotA_r0 dotA_r1 none x w p q

/-- A bias vector spread over the rows reads, at (p, q), the vector's entry q. -/
theorem biasRows_ix2 (b : (⟨S128, .f32⟩ : BufTy).Contents (Elt Ideal)) (p : Fin 100000) (q : Fin 128) :
    biasRows (F := Ideal) b (ix2 p q) = b (ix1 q) := by
  unfold biasRows
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The layer before normalisation, as the host spells it, at (p, q). -/
theorem hostPre_ix2 (h g : (⟨S100000x128, .f32⟩ : BufTy).Contents (Elt Ideal)) (wl wr : (⟨S128x128, .f32⟩ : BufTy).Contents (Elt Ideal))
    (bl br : (⟨S128, .f32⟩ : BufTy).Contents (Elt Ideal)) (p : Fin 100000) (q : Fin 128) :
    hostPre (F := Ideal) h g wl wr bl br (ix2 p q) = Gnn.pre h g wl wr bl br p q := by
  unfold hostPre Gnn.pre
  rw [addf_apply, addf_apply, addf_apply, dotA_ix2, dotA_ix2, biasRows_ix2, biasRows_ix2]

/-! ## The normalisation at an entry -/

/-- The floored row norm spread over the columns, at (p, q). -/
theorem hostNorm_ix2 (y : (⟨S100000x128, .f32⟩ : BufTy).Contents (Elt Ideal)) (p : Fin 100000) (q : Fin 128) :
    hostNorm (F := Ideal) y (ix2 p q) = max (Ideal.sqrt (∑ k : Fin 128, y (ix2 p k) * y (ix2 p k))) Gnn.epsv := by
  unfold hostNorm
  refine (broadcastInDim_apply _ bcast_S100000x1_S100000x128_0_1 _ (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])).trans ?_
  rw [maximumf_apply]
  refine congrArg₂ max ?_ ?_
  · rw [hostSqrt_apply]
    refine congrArg Ideal.sqrt ?_
    refine (broadcastInDim_apply _ bcast_S100000_S100000x1_0 _ (ix2 p (0 : Fin 1)) (ix1 p) (fun a => match a with
      | ⟨0, _⟩ => by show p.val = if (100000 : Nat) = 1 then 0 else p.val; rw [if_neg (by decide)])).trans ?_
    exact hostRowSum_apply (mulf y y) reducesTo_S100000x128_S100000_d1 (by decide) h_S_ p
  · exact broadcastInDim_apply _ bcast_S_S100000x1 _ (ix2 p (0 : Fin 1)) ix0 (fun a => a.elim0)

/-! ## The layer -/

/-- ONE LAYER: the host's spelling is the specification's layer. -/
theorem hostLayer_eq (h g : (⟨S100000x128, .f32⟩ : BufTy).Contents (Elt Ideal)) (wl wr : (⟨S128x128, .f32⟩ : BufTy).Contents (Elt Ideal))
    (bl br : (⟨S128, .f32⟩ : BufTy).Contents (Elt Ideal)) :
    Cert.ReferenceIdeal.Ops.hostLayer (F := Ideal) h g wl wr bl br = Gnn.layer h g wl wr bl br := by
  funext i
  obtain ⟨p, q, rfl⟩ : ∃ (p : Fin 100000) (q : Fin 128), i = ix2 p q := ⟨i 0, i 1, eq_ix2 i⟩
  rw [Gnn.layer_ix2]
  unfold hostLayer Gnn.layerAt
  rw [maximumf_apply]
  refine congrArg₂ max ?_ ?_
  · rw [hostDivf_apply, hostNorm_ix2, hostPre_ix2]
    refine congrArg (fun s => Ideal.div _ (max (Ideal.sqrt s) Gnn.epsv)) (Finset.sum_congr rfl fun k _ => ?_)
    rw [hostPre_ix2]
  · refine (broadcastInDim_apply _ bcast_S_S100000x128 _ (ix2 p q) ix0 (fun a => a.elim0)).trans ?_
    exact Ideal.ofBits_zero_f32

end Cert.ReferenceIdeal.Hand

end
-- ==== Proof.RefPost.lean ====
/-
  The closing stage as the host spells it is the closing stage of the network's specification, entry by entry.

  The scores: the host forms  h·w1, adds the bias b1 spread over the rows, multiplies by w2 and adds b2 spread over the
  rows.  A matrix product read at (p, q) is  Σ_k x(p, k)·w(k, q)  and a spread bias reads  b(q),  so the scores at (p, q)
  are  Σ_k (Σ_j h(p, j)·w1(j, k) + b1(k))·w2(k, q) + b2(q).

  The log-softmax of an array Y: the host reduces each row by the maximum starting from the value of the -∞ pattern,
  which is ⊥; a reduction by a commutative and associative operation along one axis is the fold of the operation over the
  row's entries, so this is the row's largest entry M(p) taken from ⊥; the further maximum against a vector of -∞ changes
  nothing (max ⊥ x = x).  M made a column and repeated along the rows reads M(p) at (p, q), so the shifted array reads
  Y(p, q) - M(p).  Its exponentials are summed along each row from the zero pattern (the value 0), the sums made a
  column, the logarithm taken and the column repeated along the rows:  log Σ_k exp (Y(p, k) - M(p)).  The difference is
  the specification's  (Y(p, q) - M(p)) - log Σ_k exp (Y(p, k) - M(p)).
-/
import proofs.«158836_j28750511079531_1_alg».proof.Proof.RefOps
import proofs.«158836_j28750511079531_1_alg».proof.Proof.RefLayer
import proofs.«158836_j28750511079531_1_alg».proof.Proof.LibMatmulIx
import proofs.«158836_j28750511079531_1_alg».proof.Proof.LibLayout
import proofs.«158836_j28750511079531_1_alg».proof.Proof.LibRowLsm

noncomputable section

namespace Cert.ReferenceIdeal.Hand

open Cert.ReferenceIdeal Cert.ReferenceIdeal.Gen Cert.ReferenceIdeal.Ops Idealize.ShloMosaic Idealize.ShloMosaic.ValueIdx
  Idealize.ShloMosaic.TcCoe Idealize.SL.Sem Idealize.ShloMosaic.StableHlo

/-! ## A maximum along the rows, as the host spells it -/

/-- The host's reduction of each row of an `[a, b]` array of extended reals by the maximum, from the -∞ pattern, read at
    row `p`: the row's largest entry taken from `⊥`. -/
theorem hostRowMax_apply {a b : ℕ} (y : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce FloatOps.maximumf y (constant (F := Ideal) (⟨0, ![]⟩ : Shape) .f32 0xFF800000#32) h' hu (ix1 p)
      = Cert.RowLsm.rowMax y p := by
  rw [Host.reduce_eq_fold_single FloatOps.maximumf y _ h' h hu]
  unfold Cert.RowLsm.rowMax
  have hf : (y ∘ h.lift (ix1 p)) = fun k : Fin b => y (ix2 p k) :=
    funext fun k => congrArg y (Cert.Attn.Layout.lift_row h p k)
  have hi : constant (F := Ideal) (⟨0, ![]⟩ : Shape) .f32 0xFF800000#32 (Shape.Idx.first hu) = (⊥ : EReal) :=
    Cert.RowLsm.ofBits_neg_inf
  rw [hi]
  exact congrArg (fun f => Finset.fold max (⊥ : EReal) f (Finset.univ : Finset (Fin b))) hf

/-! ## The scores at an entry -/

theorem dotB_l0 (i : S100000x40.Idx) (q : dot_S100000x128_S128x40_S100000x40_1_0_0_1_n_n.contr.Idx) :
    (dot_S100000x128_S128x40_S100000x40_1_0_0_1_n_n.lhsIdx i q 0).val = (i 0).val := by
  unfold DotDims.lhsIdx
  rw [dif_neg (show ¬(0 : Fin S100000x128.rank) ∈ dot_S100000x128_S128x40_S100000x40_1_0_0_1_n_n.lhsBatch by decide),
    dif_pos (show (0 : Fin S100000x128.rank) ∈ dot_S100000x128_S128x40_S100000x40_1_0_0_1_n_n.lhsNonContracting by decide)]
  rfl

theorem dotB_l1 (i : S100000x40.Idx) (q : dot_S100000x128_S128x40_S100000x40_1_0_0_1_n_n.contr.Idx) :
    (dot_S100000x128_S128x40_S100000x40_1_0_0_1_n_n.lhsIdx i q 1).val = (q ⟨0, by decide⟩).val :=
  dot_S100000x128_S128x40_S100000x40_1_0_0_1_n_n.lhsIdx_val_of_single rfl i q

theorem dotB_r0 (i : S100000x40.Idx) (q : dot_S100000x128_S128x40_S100000x40_1_0_0_1_n_n.contr.Idx) :
    (dot_S100000x128_S128x40_S100000x40_1_0_0_1_n_n.rhsIdx i q 0).val = (q ⟨0, by decide⟩).val :=
  dot_S100000x128_S128x40_S100000x40_1_0_0_1_n_n.rhsIdx_val_of_single rfl i q

theorem dotB_r1 (i : S100000x40.Idx) (q : dot_S100000x128_S128x40_S100000x40_1_0_0_1_n_n.contr.Idx) :
    (dot_S100000x128_S128x40_S100000x40_1_0_0_1_n_n.rhsIdx i q 1).val = (i 1).val := by
  unfold DotDims.rhsIdx
  rw [dif_neg (show ¬(1 : Fin S128x40.rank) ∈ dot_S100000x128_S128x40_S100000x40_1_0_0_1_n_n.rhsBatch by decide),
    dif_pos (show (1 : Fin S128x40.rank) ∈ dot_S100000x128_S128x40_S100000x40_1_0_0_1_n_n.rhsNonContracting by decide)]
  rfl

/-- The host's product of an [100000, 128] array with a [128, 40] one at (p, q): the row times the column. -/
theorem dotB_ix2 (x : FVec Ideal S100000x128 .f32) (w : FVec Ideal S128x40 .f32) (p : Fin 100000) (q : Fin 40) :
    Host.dotGeneral (F := Ideal) dot_S100000x128_S128x40_S100000x40_1_0_0_1_n_n none x w (ix2 p q)
      = ∑ k : Fin 128, x (ix2 p k) * w (ix2 k q) :=
  MatmulIx.dotGeneral_ix2 dot_S100000x128_S128x40_S100000x40_1_0_0_1_n_n rfl rfl dotB_l0 dotB_l1 dotB_r0 dotB_r1 none x w p q

/-- The scores, as the host spells them, at (p, q). -/
theorem hostScores_ix2 (h : (⟨S100000x128, .f32⟩ : BufTy).Contents (Elt Ideal)) (w1 : (⟨S128x128, .f32⟩ : BufTy).Contents (Elt Ideal))
    (b1 : (⟨S128, .f32⟩ : BufTy).Contents (Elt Ideal)) (w2 : (⟨S128x40, .f32⟩ : BufTy).Contents (Elt Ideal))
    (b2 : (⟨S40, .f32⟩ : BufTy).Contents (Elt Ideal)) (p : Fin 100000) (q : Fin 40) :
    hostScores (F := Ideal) h w1 b1 w2 b2 (ix2 p q) = Gnn.scores h w1 b1 w2 b2 (ix2 p q) := by
  rw [Gnn.scores_ix2]
  unfold hostScores
  rw [addf_apply, dotB_ix2]
  refine congrArg₂ (· + ·) (Finset.sum_congr rfl fun k _ => ?_) ?_
  · rw [addf_apply, dotA_ix2, biasRows_ix2]
  · refine (broadcastInDim_apply _ bcast_S1x40_S100000x40_0_1 _ (ix2 p q) (ix2 (0 : Fin 1) q) (fun a => match a with
      | ⟨0, _⟩ => by show 0 = if (1 : Nat) = 1 then 0 else p.val; rw [if_pos rfl]
      | ⟨1, _⟩ => by show q.val = if (40 : Nat) = 1 then 0 else q.val; rw [if_neg (by decide)])).trans ?_
    exact broadcastInDim_apply _ bcast_S40_S1x40_1 b2 (ix2 (0 : Fin 1) q) (ix1 q) (fun a => match a with
      | ⟨0, _⟩ => by show q.val = if (40 : Nat) = 1 then 0 else q.val; rw [if_neg (by decide)])

/-! ## The log-softmax at an entry -/

/-- A column of 100000 entries repeated along 40 columns reads, at (p, q), the column's entry of row p. -/
theorem colRows40_ix2 (v : (⟨S100000x1, .f32⟩ : BufTy).Contents (Elt Ideal)) (p : Fin 100000) (q : Fin 40) :
    broadcastInDim S100000x40 ![0, 1] bcast_S100000x1_S100000x40_0_1 v (ix2 p q) = v (ix2 p (0 : Fin 1)) :=
  broadcastInDim_apply _ bcast_S100000x1_S100000x40_0_1 v (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

/-- A vector of 100000 entries made a column reads, at (p, 0), the vector's entry p. -/
theorem vecCol_ix2 (v : (⟨S100000, .f32⟩ : BufTy).Contents (Elt Ideal)) (p : Fin 100000) :
    broadcastInDim S100000x1 ![0] bcast_S100000_S100000x1_0 v (ix2 p (0 : Fin 1)) = v (ix1 p) :=
  broadcastInDim_apply _ bcast_S100000_S100000x1_0 v (ix2 p (0 : Fin 1)) (ix1 p) (fun a => match a with
    | ⟨0, _⟩ => by show p.val = if (100000 : Nat) = 1 then 0 else p.val; rw [if_neg (by decide)])

/-- The array shifted by its row maxima, at (p, q). -/
theorem hostShift_ix2 (y : (⟨S100000x40, .f32⟩ : BufTy).Contents (Elt Ideal)) (p : Fin 100000) (q : Fin 40) :
    hostShift (F := Ideal) y (ix2 p q) = y (ix2 p q) - Cert.RowLsm.rowMax y p := by
  unfold hostShift
  rw [subf_apply, colRows40_ix2, vecCol_ix2, maximumf_apply]
  refine congrArg (y (ix2 p q) - ·) ?_
  have e1 : broadcastInDim S100000 ![] bcast_S_S100000 (constant (F := Ideal) S_ .f32 0xFF800000#32) (ix1 p) = (⊥ : EReal) :=
    (broadcastInDim_apply _ bcast_S_S100000 _ (ix1 p) ix0 (fun a => a.elim0)).trans Cert.RowLsm.ofBits_neg_inf
  rw [e1, hostRowMax_apply y reducesTo_S100000x40_S100000_d1 (by decide) h_S_ p]
  exact max_eq_right bot_le

/-- Row-wise log-softmax, as the host spells it, at (p, q). -/
theorem hostLsm_ix2 (y : (⟨S100000x40, .f32⟩ : BufTy).Contents (Elt Ideal)) (p : Fin 100000) (q : Fin 40) :
    hostLsm (F := Ideal) y (ix2 p q) = Cert.RowLsm.lsm y p q := by
  unfold hostLsm Cert.RowLsm.lsm
  rw [subf_apply, hostShift_ix2, colRows40_ix2]
  refine congrArg (fun s => (y (ix2 p q) - Cert.RowLsm.rowMax y p) - s) ?_
  rw [hostLog_apply]
  refine congrArg Ideal.log ?_
  rw [vecCol_ix2, hostRowSum_apply (Host.exp (hostShift (F := Ideal) y)) reducesTo_S100000x40_S100000_d1 (by decide) h_S_ p]
  refine Finset.sum_congr rfl fun k _ => ?_
  rw [hostExp_apply, hostShift_ix2]

/-! ## The closing stage -/

/-- THE CLOSING STAGE: the host's spelling is the specification's. -/
theorem hostPost_eq (h : (⟨S100000x128, .f32⟩ : BufTy).Contents (Elt Ideal)) (w1 : (⟨S128x128, .f32⟩ : BufTy).Contents (Elt Ideal))
    (b1 : (⟨S128, .f32⟩ : BufTy).Contents (Elt Ideal)) (w2 : (⟨S128x40, .f32⟩ : BufTy).Contents (Elt Ideal))
    (b2 : (⟨S40, .f32⟩ : BufTy).Contents (Elt Ideal)) :
    Cert.ReferenceIdeal.Ops.hostLsm (F := Ideal) (Cert.ReferenceIdeal.Ops.hostScores (F := Ideal) h w1 b1 w2 b2)
      = Gnn.post h w1 b1 w2 b2 := by
  have hs : hostScores (F := Ideal) h w1 b1 w2 b2 = Gnn.scores h w1 b1 w2 b2 := by
    funext j
    obtain ⟨p, q, rfl⟩ : ∃ (p : Fin 100000) (q : Fin 40), j = ix2 p q := ⟨j 0, j 1, eq_ix2 j⟩
    exact hostScores_ix2 h w1 b1 w2 b2 p q
  funext i
  obtain ⟨p, q, rfl⟩ : ∃ (p : Fin 100000) (q : Fin 40), i = ix2 p q := ⟨i 0, i 1, eq_ix2 i⟩
  rw [Gnn.post_ix2, hostLsm_ix2, hs]

end Cert.ReferenceIdeal.Hand

end
-- ==== Proof.RefValue.lean ====
/-
  The reference program's run, read as the network of its ten arguments.

  Every execution of the reference program ends with each buffer at the fold of its 164 host operations over the launch
  contents.  The list is cut in four consecutive stretches — the three layers and the closing stage — and the fold over
  the whole list is the last stretch's fold over the third's over the second's over the first's.  Each stretch is read
  over ANY contents V it is entered with:
    the first writes the edges' source and target nodes (the two rows of the edge list) and the first layer, as the
      host spells it, of the node features, their neighbour sum and the first slices of the stacked weights and biases;
    the second and third write the next layer of the previous layer's output, its neighbour sum over the same edges, and
      the next slices;
    the last writes the row-wise log-softmax of the scores of the third layer's output;
  and each leaves the arguments, and the edges' nodes, as it finds them (no operation of it writes them).
  Chaining the four reads, the result buffer holds the host's spelling of three layers and the closing stage over the
  launched arguments; each layer's host spelling is the specification's layer and the closing stage's the
  specification's (the two modules before this one), which is the network `net` of the launched arguments.
  The arguments are written by no operation, so they end as launched.
-/
import proofs.«158836_j28750511079531_1_alg».proof.Proof.RefRunP
import proofs.«158836_j28750511079531_1_alg».proof.Proof.RefOps
import proofs.«158836_j28750511079531_1_alg».proof.Proof.RefLayer
import proofs.«158836_j28750511079531_1_alg».proof.Proof.RefPost
import proofs.«158836_j28750511079531_1_alg».proof.Proof.LibStretch

noncomputable section

namespace Cert.ReferenceIdeal.Hand

open Cert.ReferenceIdeal Cert.ReferenceIdeal.Gen Cert.ReferenceIdeal.Ops Idealize.ShloMosaic Idealize.ShloMosaic.TcCoe
  Idealize.SL.Sem Idealize.ShloMosaic.StableHlo

/-! ## The first layer's stretch -/

/-- The first stretch writes the edges' source nodes into `%1`. -/
theorem readL1_v1 (V : Valuation τ sig (Elt Ideal)) :
    after (ValueP.opsL1 (F := Ideal)) V (Proc.devRef .tc main_v1) = srcOf (F := Ideal) (V (Proc.devRef .tc main_arg1)) := by
  read_stretch

/-- The first stretch writes the edges' target nodes into `%3`. -/
theorem readL1_v3 (V : Valuation τ sig (Elt Ideal)) :
    after (ValueP.opsL1 (F := Ideal)) V (Proc.devRef .tc main_v3) = dstOf (F := Ideal) (V (Proc.devRef .tc main_arg1)) := by
  read_stretch

set_option maxRecDepth 8192 in
/-- The first stretch writes the first layer, as the host spells it, into `%38`. -/
theorem readL1_v38 (V : Valuation τ sig (Elt Ideal)) :
    after (ValueP.opsL1 (F := Ideal)) V (Proc.devRef .tc main_v38)
      = hostLayer (F := Ideal) (V (Proc.devRef .tc main_arg0))
          (agg (F := Ideal) (srcOf (F := Ideal) (V (Proc.devRef .tc main_arg1))) (dstOf (F := Ideal) (V (Proc.devRef .tc main_arg1))) (V (Proc.devRef .tc main_arg0)))
          (wSlice (F := Ideal) 0 slices_S3x128x128_S1x128x128_0_0_0 (V (Proc.devRef .tc main_arg2)))
          (wSlice (F := Ideal) 0 slices_S3x128x128_S1x128x128_0_0_0 (V (Proc.devRef .tc main_arg4)))
          (bSlice (F := Ideal) 0 slices_S3x128_S1x128_0_0 (V (Proc.devRef .tc main_arg3)))
          (bSlice (F := Ideal) 0 slices_S3x128_S1x128_0_0 (V (Proc.devRef .tc main_arg5))) := by
  read_stretch

theorem L1_arg2 (V : Valuation τ sig (Elt Ideal)) :
    after (ValueP.opsL1 (F := Ideal)) V (Proc.devRef .tc main_arg2) = V (Proc.devRef .tc main_arg2) := by
  unwritten ValueP.opsL1

theorem L1_arg3 (V : Valuation τ sig (Elt Ideal)) :
    after (ValueP.opsL1 (F := Ideal)) V (Proc.devRef .tc main_arg3) = V (Proc.devRef .tc main_arg3) := by
  unwritten ValueP.opsL1

theorem L1_arg4 (V : Valuation τ sig (Elt Ideal)) :
    after (ValueP.opsL1 (F := Ideal)) V (Proc.devRef .tc main_arg4) = V (Proc.devRef .tc main_arg4) := by
  unwritten ValueP.opsL1

theorem L1_arg5 (V : Valuation τ sig (Elt Ideal)) :
    after (ValueP.opsL1 (F := Ideal)) V (Proc.devRef .tc main_arg5) = V (Proc.devRef .tc main_arg5) := by
  unwritten ValueP.opsL1

theorem L1_arg6 (V : Valuation τ sig (Elt Ideal)) :
    after (ValueP.opsL1 (F := Ideal)) V (Proc.devRef .tc main_arg6) = V (Proc.devRef .tc main_arg6) := by
  unwritten ValueP.opsL1

theorem L1_arg7 (V : Valuation τ sig (Elt Ideal)) :
    after (ValueP.opsL1 (F := Ideal)) V (Proc.devRef .tc main_arg7) = V (Proc.devRef .tc main_arg7) := by
  unwritten ValueP.opsL1

theorem L1_arg8 (V : Valuation τ sig (Elt Ideal)) :
    after (ValueP.opsL1 (F := Ideal)) V (Proc.devRef .tc main_arg8) = V (Proc.devRef .tc main_arg8) := by
  unwritten ValueP.opsL1

theorem L1_arg9 (V : Valuation τ sig (Elt Ideal)) :
    after (ValueP.opsL1 (F := Ideal)) V (Proc.devRef .tc main_arg9) = V (Proc.devRef .tc main_arg9) := by
  unwritten ValueP.opsL1

/-! ## The second layer's stretch -/

set_option maxRecDepth 8192 in
/-- The second stretch writes the second layer into `%73`, from the first layer's output and the edges' nodes. -/
theorem readL2_v73 (V : Valuation τ sig (Elt Ideal)) :
    after (ValueP.opsL2 (F := Ideal)) V (Proc.devRef .tc main_v73)
      = hostLayer (F := Ideal) (V (Proc.devRef .tc main_v38))
          (agg (F := Ideal) (V (Proc.devRef .tc main_v1)) (V (Proc.devRef .tc main_v3)) (V (Proc.devRef .tc main_v38)))
          (wSlice (F := Ideal) 1 slices_S3x128x128_S1x128x128_1_0_0 (V (Proc.devRef .tc main_arg2)))
          (wSlice (F := Ideal) 1 slices_S3x128x128_S1x128x128_1_0_0 (V (Proc.devRef .tc main_arg4)))
          (bSlice (F := Ideal) 1 slices_S3x128_S1x128_1_0 (V (Proc.devRef .tc main_arg3)))
          (bSlice (F := Ideal) 1 slices_S3x128_S1x128_1_0 (V (Proc.devRef .tc main_arg5))) := by
  read_stretch

theorem L2_v1 (V : Valuation τ sig (Elt Ideal)) :
    after (ValueP.opsL2 (F := Ideal)) V (Proc.devRef .tc main_v1) = V (Proc.devRef .tc main_v1) := by
  unwritten ValueP.opsL2

theorem L2_v3 (V : Valuation τ sig (Elt Ideal)) :
    after (ValueP.opsL2 (F := Ideal)) V (Proc.devRef .tc main_v3) = V (Proc.devRef .tc main_v3) := by
  unwritten ValueP.opsL2

theorem L2_arg2 (V : Valuation τ sig (Elt Ideal)) :
    after (ValueP.opsL2 (F := Ideal)) V (Proc.devRef .tc main_arg2) = V (Proc.devRef .tc main_arg2) := by
  unwritten ValueP.opsL2

theorem L2_arg3 (V : Valuation τ sig (Elt Ideal)) :
    after (ValueP.opsL2 (F := Ideal)) V (Proc.devRef .tc main_arg3) = V (Proc.devRef .tc main_arg3) := by
  unwritten ValueP.opsL2

theorem L2_arg4 (V : Valuation τ sig (Elt Ideal)) :
    after (ValueP.opsL2 (F := Ideal)) V (Proc.devRef .tc main_arg4) = V (Proc.devRef .tc main_arg4) := by
  unwritten ValueP.opsL2

theorem L2_arg5 (V : Valuation τ sig (Elt Ideal)) :
    after (ValueP.opsL2 (F := Ideal)) V (Proc.devRef .tc main_arg5) = V (Proc.devRef .tc main_arg5) := by
  unwritten ValueP.opsL2

theorem L2_arg6 (V : Valuation τ sig (Elt Ideal)) :
    after (ValueP.opsL2 (F := Ideal)) V (Proc.devRef .tc main_arg6) = V (Proc.devRef .tc main_arg6) := by
  unwritten ValueP.opsL2

theorem L2_arg7 (V : Valuation τ sig (Elt Ideal)) :
    after (ValueP.opsL2 (F := Ideal)) V (Proc.devRef .tc main_arg7) = V (Proc.devRef .tc main_arg7) := by
  unwritten ValueP.opsL2

theorem L2_arg8 (V : Valuation τ sig (Elt Ideal)) :
    after (ValueP.opsL2 (F := Ideal)) V (Proc.devRef .tc main_arg8) = V (Proc.devRef .tc main_arg8) := by
  unwritten ValueP.opsL2

theorem L2_arg9 (V : Valuation τ sig (Elt Ideal)) :
    after (ValueP.opsL2 (F := Ideal)) V (Proc.devRef .tc main_arg9) = V (Proc.devRef .tc main_arg9) := by
  unwritten ValueP.opsL2

/-! ## The third layer's stretch -/

set_option maxRecDepth 8192 in
/-- The third stretch writes the third layer into `%108`. -/
theorem readL3_v108 (V : Valuation τ sig (Elt Ideal)) :
    after (ValueP.opsL3 (F := Ideal)) V (Proc.devRef .tc main_v108)
      = hostLayer (F := Ideal) (V (Proc.devRef .tc main_v73))
          (agg (F := Ideal) (V (Proc.devRef .tc main_v1)) (V (Proc.devRef .tc main_v3)) (V (Proc.devRef .tc main_v73)))
          (wSlice (F := Ideal) 2 slices_S3x128x128_S1x128x128_2_0_0 (V (Proc.devRef .tc main_arg2)))
          (wSlice (F := Ideal) 2 slices_S3x128x128_S1x128x128_2_0_0 (V (Proc.devRef .tc main_arg4)))
          (bSlice (F := Ideal) 2 slices_S3x128_S1x128_2_0 (V (Proc.devRef .tc main_arg3)))
          (bSlice (F := Ideal) 2 slices_S3x128_S1x128_2_0 (V (Proc.devRef .tc main_arg5))) := by
  read_stretch

theorem L3_arg6 (V : Valuation τ sig (Elt Ideal)) :
    after (ValueP.opsL3 (F := Ideal)) V (Proc.devRef .tc main_arg6) = V (Proc.devRef .tc main_arg6) := by
  unwritten ValueP.opsL3

theorem L3_arg7 (V : Valuation τ sig (Elt Ideal)) :
    after (ValueP.opsL3 (F := Ideal)) V (Proc.devRef .tc main_arg7) = V (Proc.devRef .tc main_arg7) := by
  unwritten ValueP.opsL3

theorem L3_arg8 (V : Valuation τ sig (Elt Ideal)) :
    after (ValueP.opsL3 (F := Ideal)) V (Proc.devRef .tc main_arg8) = V (Proc.devRef .tc main_arg8) := by
  unwritten ValueP.opsL3

theorem L3_arg9 (V : Valuation τ sig (Elt Ideal)) :
    after (ValueP.opsL3 (F := Ideal)) V (Proc.devRef .tc main_arg9) = V (Proc.devRef .tc main_arg9) := by
  unwritten ValueP.opsL3

/-! ## The closing stage's stretch -/

/- The closing stage's stretch is read in three shorter stretches: the scores; the scores shifted by their row maxima; and
   the logarithm of the row sums of the exponentials taken off the shifted scores.  The operations of the log-softmax carry
   casts between a buffer's recorded type and its literal type; a value cast to a buffer's type and back is the value
   (`ofBuf_toBuf`), which removes them before the two sides are compared. -/

section ClosingLists

variable {F : FTy → Type} [FloatOps F]

/-- The closing stage's first operations: the scores. -/
abbrev opsP1 : List (HloOp τ sig (Elt F)) :=
  [ unary main_arg6 main_v109 ((transpose S128x128 [1, 0] · transposes_S128x128_S128x128_1_0) : (⟨S128x128, .f32⟩ : BufTy).Contents (Elt F) → (⟨S128x128, .f32⟩ : BufTy).Contents (Elt F)),
    binary main_v108 main_v109 main_v110 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v111 (broadcastInDim S1x128 ![1] bcast_S128_S1x128_1 : (⟨S128, .f32⟩ : BufTy).Contents (Elt F) → (⟨S1x128, .f32⟩ : BufTy).Contents (Elt F)),
    unary main_v111 main_v112 (broadcastInDim S100000x128 ![0, 1] bcast_S1x128_S100000x128_0_1 : (⟨S1x128, .f32⟩ : BufTy).Contents (Elt F) → (⟨S100000x128, .f32⟩ : BufTy).Contents (Elt F)),
    binary main_v110 main_v112 main_v113 (addf : (⟨S100000x128, .f32⟩ : BufTy).Contents (Elt F) → (⟨S100000x128, .f32⟩ : BufTy).Contents (Elt F) → (⟨S100000x128, .f32⟩ : BufTy).Contents (Elt F)),
    unary main_arg8 main_v114 ((transpose S128x40 [1, 0] · transposes_S40x128_S128x40_1_0) : (⟨S40x128, .f32⟩ : BufTy).Contents (Elt F) → (⟨S128x40, .f32⟩ : BufTy).Contents (Elt F)),
    binary main_v113 main_v114 main_v115 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg9 main_v116 (broadcastInDim S1x40 ![1] bcast_S40_S1x40_1 : (⟨S40, .f32⟩ : BufTy).Contents (Elt F) → (⟨S1x40, .f32⟩ : BufTy).Contents (Elt F)),
    unary main_v116 main_v117 (broadcastInDim S100000x40 ![0, 1] bcast_S1x40_S100000x40_0_1 : (⟨S1x40, .f32⟩ : BufTy).Contents (Elt F) → (⟨S100000x40, .f32⟩ : BufTy).Contents (Elt F)),
    binary main_v115 main_v117 main_v118 (addf : (⟨S100000x40, .f32⟩ : BufTy).Contents (Elt F) → (⟨S100000x40, .f32⟩ : BufTy).Contents (Elt F) → (⟨S100000x40, .f32⟩ : BufTy).Contents (Elt F)) ]

/-- The next: the row maxima, and the scores shifted by them. -/
abbrev opsP2 : List (HloOp τ sig (Elt F)) :=
  [ TRef.nullary (TRef.of (T := ⟨S_, .f32⟩) main_call6_cst) (constant S_ .f32 0xFF800000#32),
    TRef.binary (TRef.of (T := ⟨S100000x40, .f32⟩) main_v118) (TRef.of (T := ⟨S_, .f32⟩) main_call6_cst) (TRef.of (T := ⟨S100000, .f32⟩) main_call6_v0) (fun x v => Host.reduce FloatOps.maximumf x v reducesTo_S100000x40_S100000_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S100000, .f32⟩) main_call6_v1) (broadcastInDim S100000 ![] bcast_S_S100000),
    TRef.binary (TRef.of (T := ⟨S100000, .f32⟩) main_call6_v1) (TRef.of (T := ⟨S100000, .f32⟩) main_call6_v0) (TRef.of (T := ⟨S100000, .f32⟩) main_call6_v2) maximumf,
    TRef.unary (TRef.of (T := ⟨S100000, .f32⟩) main_call6_v2) (TRef.of (T := ⟨S100000x1, .f32⟩) main_call6_v3) (broadcastInDim S100000x1 ![0] bcast_S100000_S100000x1_0),
    TRef.unary (TRef.of (T := ⟨S100000x1, .f32⟩) main_call6_v3) (TRef.of (T := ⟨S100000x40, .f32⟩) main_call6_v4) (broadcastInDim S100000x40 ![0, 1] bcast_S100000x1_S100000x40_0_1),
    TRef.binary (TRef.of (T := ⟨S100000x40, .f32⟩) main_v118) (TRef.of (T := ⟨S100000x40, .f32⟩) main_call6_v4) (TRef.of (T := ⟨S100000x40, .f32⟩) main_call6_v5) subf ]

/-- The last: the logarithm of the row sums of the exponentials, taken off the shifted scores. -/
abbrev opsP3 : List (HloOp τ sig (Elt F)) :=
  [ TRef.unary (TRef.of (T := ⟨S100000x40, .f32⟩) main_call6_v5) (TRef.of (T := ⟨S100000x40, .f32⟩) main_call6_v6) Host.exp,
    TRef.nullary (TRef.of (T := ⟨S_, .f32⟩) main_call6_cst_1) (constant S_ .f32 0x00000000#32),
    TRef.binary (TRef.of (T := ⟨S100000x40, .f32⟩) main_call6_v6) (TRef.of (T := ⟨S_, .f32⟩) main_call6_cst_1) (TRef.of (T := ⟨S100000, .f32⟩) main_call6_v7) (fun x v => Host.reduceAdd x v reducesTo_S100000x40_S100000_d1 h_S_),
    TRef.unary (TRef.of (T := ⟨S100000, .f32⟩) main_call6_v7) (TRef.of (T := ⟨S100000x1, .f32⟩) main_call6_v8) (broadcastInDim S100000x1 ![0] bcast_S100000_S100000x1_0),
    TRef.unary (TRef.of (T := ⟨S100000x1, .f32⟩) main_call6_v8) (TRef.of (T := ⟨S100000x1, .f32⟩) main_call6_v9) Host.log,
    TRef.unary (TRef.of (T := ⟨S100000x1, .f32⟩) main_call6_v9) (TRef.of (T := ⟨S100000x40, .f32⟩) main_call6_v10) (broadcastInDim S100000x40 ![0, 1] bcast_S100000x1_S100000x40_0_1),
    TRef.binary (TRef.of (T := ⟨S100000x40, .f32⟩) main_call6_v5) (TRef.of (T := ⟨S100000x40, .f32⟩) main_call6_v10) (TRef.of (T := ⟨S100000x40, .f32⟩) main_v119) subf ]

set_option maxRecDepth 8192 in
theorem opsP_cut : (ValueP.opsP : List (HloOp τ sig (Elt F))) = opsP1 ++ (opsP2 ++ opsP3) := rfl

/-- The tail of the host's log-softmax: from the shifted array, the logarithm of the row sums of its exponentials taken off it. -/
def lsmTail (z : (⟨S100000x40, .f32⟩ : BufTy).Contents (Elt F)) : (⟨S100000x40, .f32⟩ : BufTy).Contents (Elt F) :=
  subf z (broadcastInDim S100000x40 ![0, 1] bcast_S100000x1_S100000x40_0_1 (Host.log
    (broadcastInDim S100000x1 ![0] bcast_S100000_S100000x1_0
      (Host.reduceAdd (Host.exp z) (constant S_ .f32 0x00000000#32) reducesTo_S100000x40_S100000_d1 h_S_))))

theorem hostLsm_eq_tail (y : (⟨S100000x40, .f32⟩ : BufTy).Contents (Elt F)) : hostLsm y = lsmTail (hostShift y) := rfl

end ClosingLists

/-- Contents moved to a buffer's recorded type and back are the contents. -/
theorem ofBuf_toBuf {T : BufTy} (x : TRef sig T) (v : T.Contents (Elt Ideal)) : x.ofBuf (x.toBuf v) = v := by
  obtain ⟨r, h, _, _⟩ := x
  subst h
  rfl

set_option maxRecDepth 8192 in
/-- The first of the three writes the scores into `%118`. -/
theorem readP1_v118 (V : Valuation τ sig (Elt Ideal)) :
    after (opsP1 (F := Ideal)) V (Proc.devRef .tc main_v118)
      = hostScores (F := Ideal) (V (Proc.devRef .tc main_v108))
          (transpose S128x128 [1, 0] (V (Proc.devRef .tc main_arg6)) transposes_S128x128_S128x128_1_0) (V (Proc.devRef .tc main_arg7))
          (transpose S128x40 [1, 0] (V (Proc.devRef .tc main_arg8)) transposes_S40x128_S128x40_1_0) (V (Proc.devRef .tc main_arg9)) := by
  read_stretch

/-- The second writes the scores shifted by their row maxima. -/
theorem readP2_v5 (V : Valuation τ sig (Elt Ideal)) :
    after (opsP2 (F := Ideal)) V (Proc.devRef .tc main_call6_v5) = hostShift (F := Ideal) (V (Proc.devRef .tc main_v118)) := by
  have e : (TRef.of (T := ⟨S100000x40, .f32⟩) main_v118).ofBuf (V (Proc.devRef .tc main_v118)) = V (Proc.devRef .tc main_v118) := rfl
  open Idealize.ShloMosaic.StableHlo in after_results_simp
  simp only [ofBuf_toBuf]
  rw [e]
  rfl

set_option maxRecDepth 8192 in
/-- The third writes, into `%119`, the shifted scores less the logarithm of the row sums of their exponentials. -/
theorem readP3_v119 (V : Valuation τ sig (Elt Ideal)) :
    after (opsP3 (F := Ideal)) V (Proc.devRef .tc main_v119) = lsmTail (F := Ideal) (V (Proc.devRef .tc main_call6_v5)) := by
  read_stretch

/-- The last stretch writes the log-softmax of the scores into `%119`. -/
theorem readP_v119 (V : Valuation τ sig (Elt Ideal)) :
    after (ValueP.opsP (F := Ideal)) V (Proc.devRef .tc main_v119)
      = hostLsm (F := Ideal) (hostScores (F := Ideal) (V (Proc.devRef .tc main_v108))
          (transpose S128x128 [1, 0] (V (Proc.devRef .tc main_arg6)) transposes_S128x128_S128x128_1_0) (V (Proc.devRef .tc main_arg7))
          (transpose S128x40 [1, 0] (V (Proc.devRef .tc main_arg8)) transposes_S40x128_S128x40_1_0) (V (Proc.devRef .tc main_arg9))) := by
  rw [opsP_cut (F := Ideal), Cert.Stretch.after_append, Cert.Stretch.after_append, readP3_v119, readP2_v5, readP1_v118]
  exact (hostLsm_eq_tail _).symm

/-! ## The whole program -/

set_option maxRecDepth 8192 in
theorem ops_arg0 (V : Valuation τ sig (Elt Ideal)) :
    after (ValueP.ops (F := Ideal)) V (Proc.devRef .tc main_arg0) = V (Proc.devRef .tc main_arg0) := by
  unwritten ValueP.ops

set_option maxRecDepth 8192 in
theorem ops_arg1 (V : Valuation τ sig (Elt Ideal)) :
    after (ValueP.ops (F := Ideal)) V (Proc.devRef .tc main_arg1) = V (Proc.devRef .tc main_arg1) := by
  unwritten ValueP.ops

set_option maxRecDepth 8192 in
theorem ops_arg2 (V : Valuation τ sig (Elt Ideal)) :
    after (ValueP.ops (F := Ideal)) V (Proc.devRef .tc main_arg2) = V (Proc.devRef .tc main_arg2) := by
  unwritten ValueP.ops

set_option maxRecDepth 8192 in
theorem ops_arg3 (V : Valuation τ sig (Elt Ideal)) :
    after (ValueP.ops (F := Ideal)) V (Proc.devRef .tc main_arg3) = V (Proc.devRef .tc main_arg3) := by
  unwritten ValueP.ops

set_option maxRecDepth 8192 in
theorem ops_arg4 (V : Valuation τ sig (Elt Ideal)) :
    after (ValueP.ops (F := Ideal)) V (Proc.devRef .tc main_arg4) = V (Proc.devRef .tc main_arg4) := by
  unwritten ValueP.ops

set_option maxRecDepth 8192 in
theorem ops_arg5 (V : Valuation τ sig (Elt Ideal)) :
    after (ValueP.ops (F := Ideal)) V (Proc.devRef .tc main_arg5) = V (Proc.devRef .tc main_arg5) := by
  unwritten ValueP.ops

set_option maxRecDepth 8192 in
theorem ops_arg6 (V : Valuation τ sig (Elt Ideal)) :
    after (ValueP.ops (F := Ideal)) V (Proc.devRef .tc main_arg6) = V (Proc.devRef .tc main_arg6) := by
  unwritten ValueP.ops

set_option maxRecDepth 8192 in
theorem ops_arg7 (V : Valuation τ sig (Elt Ideal)) :
    after (ValueP.ops (F := Ideal)) V (Proc.devRef .tc main_arg7) = V (Proc.devRef .tc main_arg7) := by
  unwritten ValueP.ops

set_option maxRecDepth 8192 in
theorem ops_arg8 (V : Valuation τ sig (Elt Ideal)) :
    after (ValueP.ops (F := Ideal)) V (Proc.devRef .tc main_arg8) = V (Proc.devRef .tc main_arg8) := by
  unwritten ValueP.ops

set_option maxRecDepth 8192 in
theorem ops_arg9 (V : Valuation τ sig (Elt Ideal)) :
    after (ValueP.ops (F := Ideal)) V (Proc.devRef .tc main_arg9) = V (Proc.devRef .tc main_arg9) := by
  unwritten ValueP.ops

/-- THE VALUE: on every device the 164 operations leave in `%119` the network of the ten launched arguments. -/
theorem value_eq (m : (ℓ : Loc nD τ sig) → Buf (Elt Ideal) ℓ) (c : Dev nD) :
    after (ValueP.ops (F := Ideal)) (launchContents m c) (Proc.devRef .tc main_v119)
      = net (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9)) := by
  rw [ValueP.ops_cut, Cert.Stretch.after_append, Cert.Stretch.after_append, Cert.Stretch.after_append]
  rw [readP_v119, readL3_v108, L3_arg6, L3_arg7, L3_arg8, L3_arg9]
  rw [readL2_v73, L2_v1, L2_v3, L2_arg2, L2_arg3, L2_arg4, L2_arg5, L2_arg6, L2_arg7, L2_arg8, L2_arg9]
  rw [readL1_v38, readL1_v1, readL1_v3, L1_arg2, L1_arg3, L1_arg4, L1_arg5, L1_arg6, L1_arg7, L1_arg8, L1_arg9]
  rw [hostLayer_eq, hostLayer_eq, hostLayer_eq, hostPost_eq]
  rfl

/-- THE REFERENCE'S RUN: every execution ends, on every device, with the result buffer at the network of the launched
    arguments and the arguments as launched. -/
theorem run_value (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread nD τ).loc main_v119)
          = Cert.ReferenceIdeal.Ops.net (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9) :=
  (θ_run _ _ _).mono (fun _ h c => ⟨(h c main_v119).trans (value_eq m c),
      (h c main_arg0).trans (ops_arg0 (launchContents m c)),
      (h c main_arg1).trans (ops_arg1 (launchContents m c)),
      (h c main_arg2).trans (ops_arg2 (launchContents m c)),
      (h c main_arg3).trans (ops_arg3 (launchContents m c)),
      (h c main_arg4).trans (ops_arg4 (launchContents m c)),
      (h c main_arg5).trans (ops_arg5 (launchContents m c)),
      (h c main_arg6).trans (ops_arg6 (launchContents m c)),
      (h c main_arg7).trans (ops_arg7 (launchContents m c)),
      (h c main_arg8).trans (ops_arg8 (launchContents m c)),
      (h c main_arg9).trans (ops_arg9 (launchContents m c))⟩)
    (ValueP.run_fold m ρ)

end Cert.ReferenceIdeal.Hand

end
-- ==== Proof.lean ====
/-
  The certificate: a three-layer graph network (per layer a neighbour sum over the edges, two linear maps, a division by the
  row's Euclidean norm floored at ε, the positive part), a closing two-layer perceptron and a row-wise log-softmax, computed
  by four blocked kernels among host gathers and scatter-adds, against the same network written with whole-array operations.

  On the extended reals both programs compute ONE function of the ten argument arrays, `Cert.ReferenceIdeal.Ops.net`:
    - the kernels cut every operand to a narrower float format on the way into the matrix unit, which is the identity on
      the extended reals; a product accumulated into zero and the host's product are the same sum over k of products;
    - a lane sum and the host's sum over an axis are the same finite sum (the host's starts from an added zero);
    - the kernels work on blocks of 5000 rows, and a layer, like the closing stage, is row-local: the block's result is
      the same rows of the whole array's result, and the twenty blocks fill the array;
    - the kernel program transposes the stacked weight matrices first and cuts a layer's matrix out afterwards, the
      reference cuts first and transposes afterwards: the same matrix;
    - the neighbour sums are the same host operations of the same operands in both programs;
    - the reference's log-softmax takes one more maximum against -∞, which changes nothing.
  No law used needs the inputs to be finite: every step is a rewriting of the same sums in the same association.

  The three frames: the two kernel programs' are the generated frame certificates; the reference's is its run with the
  result dropped.  The idealization rewrote no operation, so `preserves` asks nothing.
-/
import proofs.«158836_j28750511079531_1_alg».proof.Defs
import proofs.«158836_j28750511079531_1_alg».proof.Proof.Gen.Kernel
import proofs.«158836_j28750511079531_1_alg».proof.Proof.Gen.Kernel.Skeleton
import proofs.«158836_j28750511079531_1_alg».proof.Proof.Gen.Kernel.Launch
import proofs.«158836_j28750511079531_1_alg».proof.Proof.Gen.Kernel.Points
import proofs.«158836_j28750511079531_1_alg».proof.Proof.Gen.Kernel.Frame
import proofs.«158836_j28750511079531_1_alg».proof.Proof.Gen.KernelIdeal
import proofs.«158836_j28750511079531_1_alg».proof.Proof.Gen.KernelIdeal.Skeleton
import proofs.«158836_j28750511079531_1_alg».proof.Proof.Gen.KernelIdeal.Launch
import proofs.«158836_j28750511079531_1_alg».proof.Proof.Gen.KernelIdeal.Points
import proofs.«158836_j28750511079531_1_alg».proof.Proof.Gen.KernelIdeal.Frame
import proofs.«158836_j28750511079531_1_alg».proof.Proof.Gen.ReferenceIdeal
import proofs.«158836_j28750511079531_1_alg».proof.Proof.Gen.Pre_finite_inputs
import proofs.«158836_j28750511079531_1_alg».proof.Proof.KRun
import proofs.«158836_j28750511079531_1_alg».proof.Proof.KChain
import proofs.«158836_j28750511079531_1_alg».proof.Proof.RefValue
import Idealize.ShloMosaic.Adequacy
import Idealize.ShloMosaic.Init

noncomputable section

namespace Cert.Proof

open Idealize.ShloMosaic Idealize.SL.Sem

/-- The reference runs, and its argument arrays end unchanged: its run with the result dropped. -/
theorem frame_ref : Cert.frame_ReferenceIdeal := fun m ρ _ =>
  (θ_run Cert.ReferenceIdeal.defs _ _).mono (fun _ h c => (h c).2) (Cert.ReferenceIdeal.Hand.run_value m ρ)

/-- Both idealized programs end with the network of the ten arguments in the result array; the arguments agree. -/
theorem algebraic : Cert.algebraic_KernelIdeal_ReferenceIdeal := by
  intro m ρ m' ρ' _ hagree
  refine ⟨fun c => Cert.ReferenceIdeal.Ops.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Hand.result_eq m ρ c), (h c).2⟩) (Cert.KernelIdeal.Hand.run_main m ρ)
  · refine (θ_run Cert.ReferenceIdeal.defs _ _).mono (fun _ h c => ⟨?_, (h c).2⟩) (Cert.ReferenceIdeal.Hand.run_value m' ρ')
    obtain ⟨e0, e1, e2, e3, e4, e5, e6, e7, e8, e9⟩ := hagree c
    rw [(h c).1, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
